-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S2048 : Shape := ⟨1, ![2048]⟩
abbrev S8192 : Shape := ⟨1, ![8192]⟩
abbrev S100000x128 : Shape := ⟨2, ![100000, 128]⟩
abbrev S295861x128 : Shape := ⟨2, ![295861, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S295861x128 : S_.BroadcastsInDim S295861x128 (![] : Fin 0 → Fin S295861x128.rank)
  reducesTo_S295861x128_S_d0_1 : S295861x128.ReducesTo [0, 1] S_

variable [Facts]

def fn {F : FTy → Type} [FloatOps F] (main_arg0 : IVec S4096 32) (main_arg1 : IVec S4096 32) (main_arg2 : IVec S4096 32) (main_arg3 : IVec S2048 32) (main_arg4 : IVec S2048 32) (main_arg5 : IVec S2048 32) (main_arg6 : IVec S8192 32) (main_arg7 : IVec S8192 32) (main_arg8 : IVec S8192 32) (main_arg9 : FVec F S100000x128 .f32) (main_arg10 : FVec F S100000x128 .f32) (main_arg11 : FVec F S295861x128 .f32) : IVec S_ 1 :=
  let main_v0 : FVec F S100000x128 .f32 := Host.absf main_arg9
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg10
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S295861x128 .f32 := Host.absf main_arg11
  let main_cst_2 : FVec F S_ .f32 := constant S_ .f32 0x7F800000#32
  let main_v10 : FVec F S295861x128 .f32 := broadcastInDim S295861x128 ![] bcast_S_S295861x128 main_cst_2
  let main_v11 : IVec S295861x128 1 := cmpf .olt main_v9 main_v10
  let main_c_3 : IVec S_ 1 := constantI S_ 1 1#1
  let main_v12 : IVec S_ 1 := (fun x v => Host.reduce IntOp.andi x v reducesTo_S295861x128_S_d0_1 h_S_) main_v11 main_c_3
  let main_v13 : IVec S_ 1 := andi main_v8 main_v12
  main_v13
-- ==== Kernel.lean ====
abbrev S4096 : Shape := ⟨1, ![4096]⟩
abbrev S2048 : Shape := ⟨1, ![2048]⟩
abbrev S8192 : Shape := ⟨1, ![8192]⟩
abbrev S100000x128 : Shape := ⟨2, ![100000, 128]⟩
abbrev S295861x128 : Shape := ⟨2, ![295861, 128]⟩
abbrev S_ : Shape := ⟨0, ![]⟩
abbrev S4096x1 : Shape := ⟨2, ![4096, 1]⟩
abbrev S4096x128 : Shape := ⟨2, ![4096, 128]⟩
abbrev S4096x384 : Shape := ⟨2, ![4096, 384]⟩
abbrev S10240 : Shape := ⟨1, ![10240]⟩
abbrev S10240x1 : Shape := ⟨2, ![10240, 1]⟩
abbrev S10240x128 : Shape := ⟨2, ![10240, 128]⟩
abbrev S10240x384 : Shape := ⟨2, ![10240, 384]⟩
abbrev S512x384 : Shape := ⟨2, ![512, 384]⟩
abbrev S512x1 : Shape := ⟨2, ![512, 1]⟩
abbrev S512x4096 : Shape := ⟨2, ![512, 4096]⟩
abbrev S512 : Shape := ⟨1, ![512]⟩
abbrev S2048x384 : Shape := ⟨2, ![2048, 384]⟩
abbrev S8192x384 : Shape := ⟨2, ![8192, 384]⟩
abbrev S1024x384 : Shape := ⟨2, ![1024, 384]⟩
abbrev S1024x1 : Shape := ⟨2, ![1024, 1]⟩
abbrev S1024 : Shape := ⟨1, ![1024]⟩
abbrev S2048x1 : Shape := ⟨2, ![2048, 1]⟩
abbrev S8192x1 : Shape := ⟨2, ![8192, 1]⟩
abbrev S14336 : Shape := ⟨1, ![14336]⟩

abbrev nBuf : Space → Nat
  | .hbm => 174
  | .vmem => 17
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S2048, .i32⟩
  | 4 => ⟨S2048, .i32⟩
  | 5 => ⟨S2048, .i32⟩
  | 6 => ⟨S8192, .i32⟩
  | 7 => ⟨S8192, .i32⟩
  | 8 => ⟨S8192, .i32⟩
  | 9 => ⟨S100000x128, .f32⟩
  | 10 => ⟨S100000x128, .f32⟩
  | 11 => ⟨S295861x128, .f32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i1⟩
  | 26 => ⟨S_, .i32⟩
  | 27 => ⟨S_, .i1⟩
  | 28 => ⟨S4096, .i1⟩
  | 29 => ⟨S4096, .i1⟩
  | 30 => ⟨S4096, .i1⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096x128, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i1⟩
  | 57 => ⟨S_, .i32⟩
  | 58 => ⟨S_, .i1⟩
  | 59 => ⟨S4096, .i1⟩
  | 60 => ⟨S4096, .i1⟩
  | 61 => ⟨S4096, .i1⟩
  | 62 => ⟨S4096, .i32⟩
  | 63 => ⟨S4096, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x128, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x128, .f32⟩
  | 83 => ⟨S4096x384, .f32⟩
  | 84 => ⟨S10240, .i32⟩
  | 85 => ⟨S10240, .i32⟩
  | 86 => ⟨S10240, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S10240, .i32⟩
  | 94 => ⟨S10240, .i32⟩
  | 95 => ⟨S_, .i32⟩
  | 96 => ⟨S10240, .i32⟩
  | 97 => ⟨S10240, .i1⟩
  | 98 => ⟨S_, .i32⟩
  | 99 => ⟨S10240, .i32⟩
  | 100 => ⟨S10240, .i1⟩
  | 101 => ⟨S_, .i32⟩
  | 102 => ⟨S_, .i1⟩
  | 103 => ⟨S10240, .i1⟩
  | 104 => ⟨S10240, .i1⟩
  | 105 => ⟨S10240, .i1⟩
  | 106 => ⟨S10240, .i32⟩
  | 107 => ⟨S10240, .i32⟩
  | 108 => ⟨S10240, .i32⟩
  | 109 => ⟨S_, .i32⟩
  | 110 => ⟨S10240, .i32⟩
  | 111 => ⟨S10240, .i1⟩
  | 112 => ⟨S_, .i32⟩
  | 113 => ⟨S10240, .i32⟩
  | 114 => ⟨S10240, .i32⟩
  | 115 => ⟨S10240, .i32⟩
  | 116 => ⟨S10240x1, .i32⟩
  | 117 => ⟨S10240x128, .f32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S10240, .i32⟩
  | 125 => ⟨S10240, .i32⟩
  | 126 => ⟨S_, .i32⟩
  | 127 => ⟨S10240, .i32⟩
  | _ => ⟨S4096, .i32⟩

abbrev hbmTy0_1 (i : Nat) : BufTy := match i % 128 with
  | 0 => ⟨S10240, .i1⟩
  | 1 => ⟨S_, .i32⟩
  | 2 => ⟨S10240, .i32⟩
  | 3 => ⟨S10240, .i1⟩
  | 4 => ⟨S_, .i32⟩
  | 5 => ⟨S_, .i1⟩
  | 6 => ⟨S10240, .i1⟩
  | 7 => ⟨S10240, .i1⟩
  | 8 => ⟨S10240, .i1⟩
  | 9 => ⟨S10240, .i32⟩
  | 10 => ⟨S10240, .i32⟩
  | 11 => ⟨S10240, .i32⟩
  | 12 => ⟨S_, .i32⟩
  | 13 => ⟨S10240, .i32⟩
  | 14 => ⟨S10240, .i1⟩
  | 15 => ⟨S_, .i32⟩
  | 16 => ⟨S10240, .i32⟩
  | 17 => ⟨S10240, .i32⟩
  | 18 => ⟨S10240, .i32⟩
  | 19 => ⟨S10240x1, .i32⟩
  | 20 => ⟨S10240x128, .f32⟩
  | 21 => ⟨S_, .i32⟩
  | 22 => ⟨S10240, .i32⟩
  | 23 => ⟨S10240, .i1⟩
  | 24 => ⟨S_, .i32⟩
  | 25 => ⟨S10240, .i32⟩
  | 26 => ⟨S10240, .i32⟩
  | 27 => ⟨S10240, .i32⟩
  | 28 => ⟨S10240x1, .i32⟩
  | 29 => ⟨S10240x128, .f32⟩
  | 30 => ⟨S10240x384, .f32⟩
  | 31 => ⟨S4096x384, .bf16⟩
  | 32 => ⟨S10240x384, .bf16⟩
  | 33 => ⟨S10240x1, .f32⟩
  | 34 => ⟨S10240, .f32⟩
  | 35 => ⟨S2048, .f32⟩
  | 36 => ⟨S8192, .f32⟩
  | 37 => ⟨S2048x384, .f32⟩
  | 38 => ⟨S8192x384, .f32⟩
  | 39 => ⟨S4096x1, .f32⟩
  | 40 => ⟨S4096, .f32⟩
  | 41 => ⟨S2048x1, .f32⟩
  | 42 => ⟨S2048, .f32⟩
  | 43 => ⟨S8192x1, .f32⟩
  | 44 => ⟨S8192, .f32⟩
  | 45 => ⟨S14336, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S512x384, .bf16⟩
  | .local _ .vmem, ⟨1, _⟩ => ⟨S512x384, .bf16⟩
  | .local _ .vmem, ⟨2, _⟩ => ⟨S4096x384, .bf16⟩
  | .local _ .vmem, ⟨3, _⟩ => ⟨S512x1, .f32⟩
  | .local _ .vmem, ⟨4, _⟩ => ⟨S512x1, .f32⟩
  | .local _ .vmem, ⟨5, _⟩ => ⟨S1024x384, .f32⟩
  | .local _ .vmem, ⟨6, _⟩ => ⟨S1024x384, .f32⟩
  | .local _ .vmem, ⟨7, _⟩ => ⟨S1024x1, .f32⟩
  | .local _ .vmem, ⟨8, _⟩ => ⟨S1024x1, .f32⟩
  | .local _ .vmem, ⟨9, _⟩ => ⟨S1024x384, .f32⟩
  | .local _ .vmem, ⟨10, _⟩ => ⟨S1024x384, .f32⟩
  | .local _ .vmem, ⟨11, _⟩ => ⟨S1024x1, .f32⟩
  | .local _ .vmem, ⟨12, _⟩ => ⟨S1024x1, .f32⟩
  | .local _ .vmem, ⟨13, _⟩ => ⟨S1024x384, .f32⟩
  | .local _ .vmem, ⟨14, _⟩ => ⟨S1024x384, .f32⟩
  | .local _ .vmem, ⟨15, _⟩ => ⟨S1024x1, .f32⟩
  | .local _ .vmem, ⟨16, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v0 : Ref sig .tc := ⟨.hbm, 33, rfl⟩
abbrev main_c_0 : Ref sig .tc := ⟨.hbm, 34, rfl⟩
abbrev main_v1 : Ref sig .tc := ⟨.hbm, 35, rfl⟩
abbrev main_v2 : Ref sig .tc := ⟨.hbm, 36, rfl⟩
abbrev main_c_1 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v8 : Ref sig .tc := ⟨.hbm, 64, rfl⟩
abbrev main_c_3 : Ref sig .tc := ⟨.hbm, 65, rfl⟩
abbrev main_v9 : Ref sig .tc := ⟨.hbm, 66, rfl⟩
abbrev main_v10 : Ref sig .tc := ⟨.hbm, 67, rfl⟩
abbrev main_c_4 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_c_5 : Ref sig .tc := ⟨.hbm, 74, rfl⟩
abbrev main_v16 : Ref sig .tc := ⟨.hbm, 75, rfl⟩
abbrev main_v17 : Ref sig .tc := ⟨.hbm, 76, rfl⟩
abbrev main_c_6 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_c_7 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v27 : Ref sig .tc := ⟨.hbm, 108, rfl⟩
abbrev main_c_8 : Ref sig .tc := ⟨.hbm, 109, rfl⟩
abbrev main_v28 : Ref sig .tc := ⟨.hbm, 110, rfl⟩
abbrev main_v29 : Ref sig .tc := ⟨.hbm, 111, rfl⟩
abbrev main_c_9 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_c_10 : Ref sig .tc := ⟨.hbm, 118, rfl⟩
abbrev main_call3_v0 : Ref sig .tc := ⟨.hbm, 119, rfl⟩
abbrev main_call3_c : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_c_1 : Ref sig .tc := ⟨.hbm, 126, rfl⟩
abbrev main_call3_v5 : Ref sig .tc := ⟨.hbm, 127, rfl⟩
abbrev main_call3_v6 : Ref sig .tc := ⟨.hbm, 128, rfl⟩
abbrev main_call3_c_2 : Ref sig .tc := ⟨.hbm, 129, rfl⟩
abbrev main_call3_v7 : Ref sig .tc := ⟨.hbm, 130, rfl⟩
abbrev main_call3_v8 : Ref sig .tc := ⟨.hbm, 131, rfl⟩
abbrev main_call3_c_3 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_v35 : Ref sig .tc := ⟨.hbm, 139, rfl⟩
abbrev main_c_11 : Ref sig .tc := ⟨.hbm, 140, rfl⟩
abbrev main_v36 : Ref sig .tc := ⟨.hbm, 141, rfl⟩
abbrev main_v37 : Ref sig .tc := ⟨.hbm, 142, rfl⟩
abbrev main_c_12 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_c_13 : Ref sig .tc := ⟨.hbm, 149, rfl⟩
abbrev main_v43 : Ref sig .tc := ⟨.hbm, 150, rfl⟩
abbrev main_v44 : Ref sig .tc := ⟨.hbm, 151, rfl⟩
abbrev main_c_14 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc3_sem0_0 : DmaSem sig := 13
abbrev cc3_sem0_1 : DmaSem sig := 14
abbrev cc3_sem1_0 : DmaSem sig := 15
abbrev cc3_sem1_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x128_S4096x384_d1 : Shape.Concatenates [S4096x128, S4096x128, S4096x128] S4096x384 1
  concatenates_S2048_S8192_S10240_d0 : Shape.Concatenates [S2048, S8192] S10240 0
  bcast_S_S10240 : S_.BroadcastsInDim S10240 (![] : Fin 0 → Fin S10240.rank)
  bcast_S10240_S10240x1_0 : S10240.BroadcastsInDim S10240x1 (![0] : Fin 1 → Fin S10240x1.rank)
  concatenates_S10240x128_S10240x128_S10240x128_S10240x384_d1 : Shape.Concatenates [S10240x128, S10240x128, S10240x128] S10240x384 1
  bitsLt_bf16_f32 : FTy.bits .bf16 < FTy.bits .f32
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S10240x1_S10240 : S10240x1.ShapeCasts S10240
  slices_S10240_S2048_0 : S10240.Slices ![0] S2048
  slices_S10240_S8192_2048 : S10240.Slices ![2048] S8192
  slices_S10240x384_S2048x384_0_0 : S10240x384.Slices ![0, 0] S2048x384
  slices_S10240x384_S8192x384_2048_0 : S10240x384.Slices ![2048, 0] S8192x384
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  reduces_S1024x384_S1024 : S1024x384.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  shapeCasts_S2048x1_S2048 : S2048x1.ShapeCasts S2048
  shapeCasts_S8192x1_S8192 : S8192x1.ShapeCasts S8192
  concatenates_S4096_S2048_S8192_S14336_d0 : Shape.Concatenates [S4096, S2048, S8192] S14336 0
  gather_S100000x128_S4096x1_S4096x128_1_0_n_n_0_1_1128_wf : GatherDims.WF S100000x128 S4096x1 S4096x128 [1] [0] [] [0] [] 1 ![1, 128]
  gather_S295861x128_S4096x1_S4096x128_1_0_n_n_0_1_1128_wf : GatherDims.WF S295861x128 S4096x1 S4096x128 [1] [0] [] [0] [] 1 ![1, 128]
  gather_S100000x128_S10240x1_S10240x128_1_0_n_n_0_1_1128_wf : GatherDims.WF S100000x128 S10240x1 S10240x128 [1] [0] [] [0] [] 1 ![1, 128]
  gather_S295861x128_S10240x1_S10240x128_1_0_n_n_0_1_1128_wf : GatherDims.WF S295861x128 S10240x1 S10240x128 [1] [0] [] [0] [] 1 ![1, 128]
  dot_S512x384_S4096x384_S512x4096_1_1_0_0_n_n_wf : DotDims.WF S512x384 S4096x384 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S10240x384.size a
  hwx0_0 : ∀ i : grid0.Coords, EltTy.bits .bf16 = 32 ∨ (Rect.block (s := S10240x384) S512x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x384.size a ≤ S4096x384.size a
  hwx0_1 : ∀ i : grid0.Coords, EltTy.bits .bf16 = 32 ∨ (Rect.block (s := S4096x384) S4096x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S10240x1.size a
  hwx0_2 : ∀ i : grid0.Coords, EltTy.bits .f32 = 32 ∨ (Rect.block (s := S10240x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x384.size a ≤ S4096x384.size a
  hwx1_0 : ∀ i : grid1.Coords, EltTy.bits .f32 = 32 ∨ (Rect.block (s := S4096x384) S1024x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x384.size a ≤ S2048x384.size a
  hwx2_0 : ∀ i : grid2.Coords, EltTy.bits .f32 = 32 ∨ (Rect.block (s := S2048x384) S1024x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S2048x1.size a
  hwx2_1 : ∀ i : grid2.Coords, EltTy.bits .f32 = 32 ∨ (Rect.block (s := S2048x1) S1024x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x384.size a ≤ S8192x384.size a
  hwx3_0 : ∀ i : grid3.Coords, EltTy.bits .f32 = 32 ∨ (Rect.block (s := S8192x384) S1024x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S8192x1.size a
  hwx3_1 : ∀ i : grid3.Coords, EltTy.bits .f32 = 32 ∨ (Rect.block (s := S8192x1) S1024x1.size (cc3_transform_1 i) (hinb3_1 i)).WholeWords (EltTy.packing .f32)

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S295861x128_S4096x1_S4096x128_1_0_n_n_0_1_1128 : GatherDims S295861x128 S4096x1 S4096x128 where
  offsetDims := [1]
  collapsedSliceDims := [0]
  operandBatchingDims := []
  startIndicesBatchingDims := []
  startIndexMap := [0]
  indexVectorDim := 1
  sliceSizes := ![1, 128]
  wf := gather_S295861x128_S4096x1_S4096x128_1_0_n_n_0_1_1128_wf
def gather_S100000x128_S10240x1_S10240x128_1_0_n_n_0_1_1128 : GatherDims S100000x128 S10240x1 S10240x128 where
  offsetDims := [1]
  collapsedSliceDims := [0]
  operandBatchingDims := []
  startIndicesBatchingDims := []
  startIndexMap := [0]
  indexVectorDim := 1
  sliceSizes := ![1, 128]
  wf := gather_S100000x128_S10240x1_S10240x128_1_0_n_n_0_1_1128_wf
def gather_S295861x128_S10240x1_S10240x128_1_0_n_n_0_1_1128 : GatherDims S295861x128 S10240x1 S10240x128 where
  offsetDims := [1]
  collapsedSliceDims := [0]
  operandBatchingDims := []
  startIndicesBatchingDims := []
  startIndexMap := [0]
  indexVectorDim := 1
  sliceSizes := ![1, 128]
  wf := gather_S295861x128_S10240x1_S10240x128_1_0_n_n_0_1_1128_wf
def dot_S512x384_S4096x384_S512x4096_1_1_0_0_n_n : DotDims S512x384 S4096x384 S512x4096 where
  lhsContracting := [1]
  rhsContracting := [1]
  lhsNonContracting := [0]
  rhsNonContracting := [0]
  lhsBatch := []
  rhsBatch := []
  wf := dot_S512x384_S4096x384_S512x4096_1_1_0_0_n_n_wf

abbrev win0_0 : Pipeline.Window sig grid0 :=
  Pipeline.Window.ofSpec (Memref.whole main_v52) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S4096x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1024x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v57) S1024x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1024x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v58) S1024x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1024x1.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S4096 : Shape := ⟨1, ![4096]⟩
abbrev S2048 : Shape := ⟨1, ![2048]⟩
abbrev S8192 : Shape := ⟨1, ![8192]⟩
abbrev S100000x128 : Shape := ⟨2, ![100000, 128]⟩
abbrev S295861x128 : Shape := ⟨2, ![295861, 128]⟩
abbrev S_ : Shape := ⟨0, ![]⟩
abbrev S4096x1 : Shape := ⟨2, ![4096, 1]⟩
abbrev S4096x128 : Shape := ⟨2, ![4096, 128]⟩
abbrev S4096x384 : Shape := ⟨2, ![4096, 384]⟩
abbrev S2048x1 : Shape := ⟨2, ![2048, 1]⟩
abbrev S2048x128 : Shape := ⟨2, ![2048, 128]⟩
abbrev S2048x384 : Shape := ⟨2, ![2048, 384]⟩
abbrev S8192x1 : Shape := ⟨2, ![8192, 1]⟩
abbrev S8192x128 : Shape := ⟨2, ![8192, 128]⟩
abbrev S8192x384 : Shape := ⟨2, ![8192, 384]⟩
abbrev S2048x4096 : Shape := ⟨2, ![2048, 4096]⟩
abbrev S8192x4096 : Shape := ⟨2, ![8192, 4096]⟩
abbrev S14336x384 : Shape := ⟨2, ![14336, 384]⟩
abbrev S14336 : Shape := ⟨1, ![14336]⟩

abbrev nBuf : Space → Nat
  | .hbm => 239
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S2048, .i32⟩
  | 4 => ⟨S2048, .i32⟩
  | 5 => ⟨S2048, .i32⟩
  | 6 => ⟨S8192, .i32⟩
  | 7 => ⟨S8192, .i32⟩
  | 8 => ⟨S8192, .i32⟩
  | 9 => ⟨S100000x128, .f32⟩
  | 10 => ⟨S100000x128, .f32⟩
  | 11 => ⟨S295861x128, .f32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i1⟩
  | 26 => ⟨S_, .i32⟩
  | 27 => ⟨S_, .i1⟩
  | 28 => ⟨S4096, .i1⟩
  | 29 => ⟨S4096, .i1⟩
  | 30 => ⟨S4096, .i1⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096x128, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i1⟩
  | 57 => ⟨S_, .i32⟩
  | 58 => ⟨S_, .i1⟩
  | 59 => ⟨S4096, .i1⟩
  | 60 => ⟨S4096, .i1⟩
  | 61 => ⟨S4096, .i1⟩
  | 62 => ⟨S4096, .i32⟩
  | 63 => ⟨S4096, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x128, .f32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x128, .f32⟩
  | 83 => ⟨S4096x384, .f32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i1⟩
  | 98 => ⟨S_, .i32⟩
  | 99 => ⟨S_, .i1⟩
  | 100 => ⟨S2048, .i1⟩
  | 101 => ⟨S2048, .i1⟩
  | 102 => ⟨S2048, .i1⟩
  | 103 => ⟨S2048, .i32⟩
  | 104 => ⟨S2048, .i32⟩
  | 105 => ⟨S2048, .i32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S2048x128, .f32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i1⟩
  | 126 => ⟨S_, .i32⟩
  | 127 => ⟨S2048, .i32⟩
  | _ => ⟨S4096, .i32⟩

abbrev hbmTy0_1 (i : Nat) : BufTy := match i % 128 with
  | 0 => ⟨S2048, .i1⟩
  | 1 => ⟨S_, .i32⟩
  | 2 => ⟨S_, .i1⟩
  | 3 => ⟨S2048, .i1⟩
  | 4 => ⟨S2048, .i1⟩
  | 5 => ⟨S2048, .i1⟩
  | 6 => ⟨S2048, .i32⟩
  | 7 => ⟨S2048, .i32⟩
  | 8 => ⟨S2048, .i32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S2048x128, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048x128, .f32⟩
  | 27 => ⟨S2048x384, .f32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i1⟩
  | 42 => ⟨S_, .i32⟩
  | 43 => ⟨S_, .i1⟩
  | 44 => ⟨S8192, .i1⟩
  | 45 => ⟨S8192, .i1⟩
  | 46 => ⟨S8192, .i1⟩
  | 47 => ⟨S8192, .i32⟩
  | 48 => ⟨S8192, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x128, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i1⟩
  | 73 => ⟨S_, .i32⟩
  | 74 => ⟨S_, .i1⟩
  | 75 => ⟨S8192, .i1⟩
  | 76 => ⟨S8192, .i1⟩
  | 77 => ⟨S8192, .i1⟩
  | 78 => ⟨S8192, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x128, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S8192x128, .f32⟩
  | 99 => ⟨S8192x384, .f32⟩
  | 100 => ⟨S2048x4096, .f32⟩
  | 101 => ⟨S_, .f32⟩
  | 102 => ⟨S2048, .f32⟩
  | 103 => ⟨S8192x4096, .f32⟩
  | 104 => ⟨S_, .f32⟩
  | 105 => ⟨S8192, .f32⟩
  | 106 => ⟨S14336x384, .f32⟩
  | 107 => ⟨S14336x384, .f32⟩
  | 108 => ⟨S_, .f32⟩
  | 109 => ⟨S14336, .f32⟩
  | 110 => ⟨S14336, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v0 : Ref sig .tc := ⟨.hbm, 33, rfl⟩
abbrev main_c_0 : Ref sig .tc := ⟨.hbm, 34, rfl⟩
abbrev main_v1 : Ref sig .tc := ⟨.hbm, 35, rfl⟩
abbrev main_v2 : Ref sig .tc := ⟨.hbm, 36, rfl⟩
abbrev main_c_1 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v8 : Ref sig .tc := ⟨.hbm, 64, rfl⟩
abbrev main_c_3 : Ref sig .tc := ⟨.hbm, 65, rfl⟩
abbrev main_v9 : Ref sig .tc := ⟨.hbm, 66, rfl⟩
abbrev main_v10 : Ref sig .tc := ⟨.hbm, 67, rfl⟩
abbrev main_c_4 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_c_5 : Ref sig .tc := ⟨.hbm, 74, rfl⟩
abbrev main_v16 : Ref sig .tc := ⟨.hbm, 75, rfl⟩
abbrev main_v17 : Ref sig .tc := ⟨.hbm, 76, rfl⟩
abbrev main_c_6 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_c_7 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v24 : Ref sig .tc := ⟨.hbm, 105, rfl⟩
abbrev main_c_8 : Ref sig .tc := ⟨.hbm, 106, rfl⟩
abbrev main_v25 : Ref sig .tc := ⟨.hbm, 107, rfl⟩
abbrev main_v26 : Ref sig .tc := ⟨.hbm, 108, rfl⟩
abbrev main_c_9 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_c_10 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v32 : Ref sig .tc := ⟨.hbm, 136, rfl⟩
abbrev main_c_11 : Ref sig .tc := ⟨.hbm, 137, rfl⟩
abbrev main_v33 : Ref sig .tc := ⟨.hbm, 138, rfl⟩
abbrev main_v34 : Ref sig .tc := ⟨.hbm, 139, rfl⟩
abbrev main_c_12 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_c_13 : Ref sig .tc := ⟨.hbm, 146, rfl⟩
abbrev main_v40 : Ref sig .tc := ⟨.hbm, 147, rfl⟩
abbrev main_v41 : Ref sig .tc := ⟨.hbm, 148, rfl⟩
abbrev main_c_14 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_c_15 : Ref sig .tc := ⟨.hbm, 156, rfl⟩
abbrev main_call4_v0 : Ref sig .tc := ⟨.hbm, 157, rfl⟩
abbrev main_call4_c : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_c_1 : Ref sig .tc := ⟨.hbm, 164, rfl⟩
abbrev main_call4_v5 : Ref sig .tc := ⟨.hbm, 165, rfl⟩
abbrev main_call4_v6 : Ref sig .tc := ⟨.hbm, 166, rfl⟩
abbrev main_call4_c_2 : Ref sig .tc := ⟨.hbm, 167, rfl⟩
abbrev main_call4_v7 : Ref sig .tc := ⟨.hbm, 168, rfl⟩
abbrev main_call4_v8 : Ref sig .tc := ⟨.hbm, 169, rfl⟩
abbrev main_call4_c_3 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_v48 : Ref sig .tc := ⟨.hbm, 177, rfl⟩
abbrev main_c_16 : Ref sig .tc := ⟨.hbm, 178, rfl⟩
abbrev main_v49 : Ref sig .tc := ⟨.hbm, 179, rfl⟩
abbrev main_v50 : Ref sig .tc := ⟨.hbm, 180, rfl⟩
abbrev main_c_17 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_c_18 : Ref sig .tc := ⟨.hbm, 187, rfl⟩
abbrev main_call5_v0 : Ref sig .tc := ⟨.hbm, 188, rfl⟩
abbrev main_call5_c : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_c_1 : Ref sig .tc := ⟨.hbm, 195, rfl⟩
abbrev main_call5_v5 : Ref sig .tc := ⟨.hbm, 196, rfl⟩
abbrev main_call5_v6 : Ref sig .tc := ⟨.hbm, 197, rfl⟩
abbrev main_call5_c_2 : Ref sig .tc := ⟨.hbm, 198, rfl⟩
abbrev main_call5_v7 : Ref sig .tc := ⟨.hbm, 199, rfl⟩
abbrev main_call5_v8 : Ref sig .tc := ⟨.hbm, 200, rfl⟩
abbrev main_call5_c_3 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_v12 : Ref sig .tc := ⟨.hbm, 205, rfl⟩
abbrev main_call5_v13 : Ref sig .tc := ⟨.hbm, 206, rfl⟩
abbrev main_call5_v14 : Ref sig .tc := ⟨.hbm, 207, rfl⟩
abbrev main_v56 : Ref sig .tc := ⟨.hbm, 208, rfl⟩
abbrev main_c_19 : Ref sig .tc := ⟨.hbm, 209, rfl⟩
abbrev main_v57 : Ref sig .tc := ⟨.hbm, 210, rfl⟩
abbrev main_v58 : Ref sig .tc := ⟨.hbm, 211, rfl⟩
abbrev main_c_20 : Ref sig .tc := ⟨.hbm, 212, rfl⟩
abbrev main_v59 : Ref sig .tc := ⟨.hbm, 213, rfl⟩
abbrev main_v60 : Ref sig .tc := ⟨.hbm, 214, rfl⟩
abbrev main_v61 : Ref sig .tc := ⟨.hbm, 215, rfl⟩
abbrev main_v62 : Ref sig .tc := ⟨.hbm, 216, rfl⟩
abbrev main_v63 : Ref sig .tc := ⟨.hbm, 217, rfl⟩
abbrev main_c_21 : Ref sig .tc := ⟨.hbm, 218, rfl⟩
abbrev main_v64 : Ref sig .tc := ⟨.hbm, 219, rfl⟩
abbrev main_v65 : Ref sig .tc := ⟨.hbm, 220, rfl⟩
abbrev main_c_22 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_v69 : Ref sig .tc := ⟨.hbm, 225, rfl⟩
abbrev main_v70 : Ref sig .tc := ⟨.hbm, 226, rfl⟩
abbrev main_v71 : Ref sig .tc := ⟨.hbm, 227, rfl⟩
abbrev main_v72 : Ref sig .tc := ⟨.hbm, 228, rfl⟩
abbrev main_cst : Ref sig .tc := ⟨.hbm, 229, rfl⟩
abbrev main_v73 : Ref sig .tc := ⟨.hbm, 230, rfl⟩
abbrev main_v74 : Ref sig .tc := ⟨.hbm, 231, rfl⟩
abbrev main_cst_23 : Ref sig .tc := ⟨.hbm, 232, rfl⟩
abbrev main_v75 : Ref sig .tc := ⟨.hbm, 233, rfl⟩
abbrev main_v76 : Ref sig .tc := ⟨.hbm, 234, rfl⟩
abbrev main_v77 : Ref sig .tc := ⟨.hbm, 235, rfl⟩
abbrev main_cst_24 : Ref sig .tc := ⟨.hbm, 236, rfl⟩
abbrev main_v78 : Ref sig .tc := ⟨.hbm, 237, rfl⟩
abbrev main_v79 : Ref sig .tc := ⟨.hbm, 238, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x128_S4096x384_d1 : Shape.Concatenates [S4096x128, S4096x128, S4096x128] S4096x384 1
  bcast_S_S2048 : S_.BroadcastsInDim S2048 (![] : Fin 0 → Fin S2048.rank)
  bcast_S2048_S2048x1_0 : S2048.BroadcastsInDim S2048x1 (![0] : Fin 1 → Fin S2048x1.rank)
  concatenates_S2048x128_S2048x128_S2048x128_S2048x384_d1 : Shape.Concatenates [S2048x128, S2048x128, S2048x128] S2048x384 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x128_S8192x128_S8192x128_S8192x384_d1 : Shape.Concatenates [S8192x128, S8192x128, S8192x128] S8192x384 1
  reducesTo_S2048x4096_S2048_d1 : S2048x4096.ReducesTo [1] S2048
  h_S_ : 0 < S_.numel
  reducesTo_S8192x4096_S8192_d1 : S8192x4096.ReducesTo [1] S8192
  concatenates_S4096x384_S2048x384_S8192x384_S14336x384_d0 : Shape.Concatenates [S4096x384, S2048x384, S8192x384] S14336x384 0
  reducesTo_S14336x384_S14336_d1 : S14336x384.ReducesTo [1] S14336
  gather_S100000x128_S4096x1_S4096x128_1_0_n_n_0_1_1128_wf : GatherDims.WF S100000x128 S4096x1 S4096x128 [1] [0] [] [0] [] 1 ![1, 128]
  gather_S295861x128_S4096x1_S4096x128_1_0_n_n_0_1_1128_wf : GatherDims.WF S295861x128 S4096x1 S4096x128 [1] [0] [] [0] [] 1 ![1, 128]
  gather_S100000x128_S2048x1_S2048x128_1_0_n_n_0_1_1128_wf : GatherDims.WF S100000x128 S2048x1 S2048x128 [1] [0] [] [0] [] 1 ![1, 128]
  gather_S295861x128_S2048x1_S2048x128_1_0_n_n_0_1_1128_wf : GatherDims.WF S295861x128 S2048x1 S2048x128 [1] [0] [] [0] [] 1 ![1, 128]
  gather_S100000x128_S8192x1_S8192x128_1_0_n_n_0_1_1128_wf : GatherDims.WF S100000x128 S8192x1 S8192x128 [1] [0] [] [0] [] 1 ![1, 128]
  gather_S295861x128_S8192x1_S8192x128_1_0_n_n_0_1_1128_wf : GatherDims.WF S295861x128 S8192x1 S8192x128 [1] [0] [] [0] [] 1 ![1, 128]
  dot_S2048x384_S4096x384_S2048x4096_1_1_0_0_n_n_wf : DotDims.WF S2048x384 S4096x384 S2048x4096 [1] [1] [0] [0] [] []
  dot_S8192x384_S4096x384_S8192x4096_1_1_0_0_n_n_wf : DotDims.WF S8192x384 S4096x384 S8192x4096 [1] [1] [0] [0] [] []

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S295861x128_S4096x1_S4096x128_1_0_n_n_0_1_1128 : GatherDims S295861x128 S4096x1 S4096x128 where
  offsetDims := [1]
  collapsedSliceDims := [0]
  operandBatchingDims := []
  startIndicesBatchingDims := []
  startIndexMap := [0]
  indexVectorDim := 1
  sliceSizes := ![1, 128]
  wf := gather_S295861x128_S4096x1_S4096x128_1_0_n_n_0_1_1128_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def gather_S295861x128_S2048x1_S2048x128_1_0_n_n_0_1_1128 : GatherDims S295861x128 S2048x1 S2048x128 where
  offsetDims := [1]
  collapsedSliceDims := [0]
  operandBatchingDims := []
  startIndicesBatchingDims := []
  startIndexMap := [0]
  indexVectorDim := 1
  sliceSizes := ![1, 128]
  wf := gather_S295861x128_S2048x1_S2048x128_1_0_n_n_0_1_1128_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def gather_S295861x128_S8192x1_S8192x128_1_0_n_n_0_1_1128 : GatherDims S295861x128 S8192x1 S8192x128 where
  offsetDims := [1]
  collapsedSliceDims := [0]
  operandBatchingDims := []
  startIndicesBatchingDims := []
  startIndexMap := [0]
  indexVectorDim := 1
  sliceSizes := ![1, 128]
  wf := gather_S295861x128_S8192x1_S8192x128_1_0_n_n_0_1_1128_wf
def dot_S2048x384_S4096x384_S2048x4096_1_1_0_0_n_n : DotDims S2048x384 S4096x384 S2048x4096 where
  lhsContracting := [1]
  rhsContracting := [1]
  lhsNonContracting := [0]
  rhsNonContracting := [0]
  lhsBatch := []
  rhsBatch := []
  wf := dot_S2048x384_S4096x384_S2048x4096_1_1_0_0_n_n_wf
def dot_S8192x384_S4096x384_S8192x4096_1_1_0_0_n_n : DotDims S8192x384 S4096x384 S8192x4096 where
  lhsContracting := [1]
  rhsContracting := [1]
  lhsNonContracting := [0]
  rhsNonContracting := [0]
  lhsBatch := []
  rhsBatch := []
  wf := dot_S8192x384_S4096x384_S8192x4096_1_1_0_0_n_n_wf

class Facts : Prop extends Facts₀ where

variable [Facts]
-- ==== Proof.Kernel.Stages.lean ====
/- The stages of the kernel program: per pipeline region, at a parameter `V` (the TensorCore's buffer contents when
   the region is entered), each window's block at a point, what the body leaves in the output window's buffer, and
   the pipeline's proof data; then the buffer contents at each region's entry along @main, the contents each region
   leaves in its output array, and every pipeline's proof data at its region's entry contents. Definitions and
   projections only. -/
import proofs.«122344_j23716809409278_2_alg».proof.Proof.Gen.Kernel.Launch
import proofs.«122344_j23716809409278_2_alg».proof.Proof.Gen.Kernel.Skeleton
import proofs.«122344_j23716809409278_2_alg».proof.Proof.Gen.Kernel.Points
import proofs.«122344_j23716809409278_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Regions
-- the TensorCore's buffer contents when a region is entered: the parameter every region's half is stated at
variable (V : (c : Dev nD) → (b : Ref sig .tc) → Buf (Elt F) ((c : Thread nD τ).loc b))

/-! # REGION 0 of @main: custom_call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_0 : Rect S512x384 := Rect.unit (s := S512x384) ![0, 0] S512x384.size inb_S512x384_S512x384_0_0
abbrev r0_1 : Rect S4096x384 := Rect.unit (s := S4096x384) ![0, 0] S4096x384.size inb_S4096x384_S4096x384_0_0
abbrev r0_2 : Rect S512x1 := Rect.unit (s := S512x1) ![0, 0] S512x1.size inb_S512x1_S512x1_0_0

/-- The output window's staging buffer after the body, from the input windows' blocks: its one store as a piece
    laid over the buffer (`View.canon`; the payload is the skeleton's). -/
def out0_2 (x0 : Vec F S512x384 .bf16) (x1 : Vec F S4096x384 .bf16) : Vec F S512x1 .f32 :=
  View.canon [⟨r0_2, k0_pay1 (View.ld x0 r0_0) (View.ld x1 r0_1)⟩]

/-- The proof data of pipeline 0 on core `c`: the arrays as the region finds them (`V`); after the body at point
    `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # REGION 1 of @main: custom_call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev r1_0 : Rect S1024x384 := Rect.unit (s := S1024x384) ![0, 0] S1024x384.size inb_S1024x384_S1024x384_0_0
abbrev r1_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out1_1 (x0 : Vec F S1024x384 .f32) : Vec F S1024x1 .f32 :=
  View.canon [⟨r1_1, k1_pay1 (View.ld x0 r1_0)⟩]

/-- The proof data of pipeline 1 on core `c`: the arrays as the region finds them (`V`); after the body at point
    `t` each input's buffer at its block and the output's at `out1_1` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-! # REGION 2 of @main: custom_call 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev r2_0 : Rect S1024x384 := Rect.unit (s := S1024x384) ![0, 0] S1024x384.size inb_S1024x384_S1024x384_0_0
abbrev r2_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out2_1 (x0 : Vec F S1024x384 .f32) : Vec F S1024x1 .f32 :=
  View.canon [⟨r2_1, k2_pay1 (View.ld x0 r2_0)⟩]

/-- The proof data of pipeline 2 on core `c`: the arrays as the region finds them (`V`); after the body at point
    `t` each input's buffer at its block and the output's at `out2_1` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-! # REGION 3 of @main: custom_call 3 (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-block rectangles the body loads and stores through. -/
abbrev r3_0 : Rect S1024x384 := Rect.unit (s := S1024x384) ![0, 0] S1024x384.size inb_S1024x384_S1024x384_0_0
abbrev r3_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out3_1 (x0 : Vec F S1024x384 .f32) : Vec F S1024x1 .f32 :=
  View.canon [⟨r3_1, k3_pay1 (View.ld x0 r3_0)⟩]

/-- The proof data of pipeline 3 on core `c`: the arrays as the region finds them (`V`); after the body at point
    `t` each input's buffer at its block and the output's at `out3_1` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Regions

/-! # The contents along @main -/

variable (m : (ℓ : Loc nD τ sig) → Buf (Elt F) ℓ)

/-- Region 0's entry contents: the launch memory after the host stretches before it. -/
abbrev Ve0 : (c : Dev nD) → (b : Ref sig .tc) → Buf (Elt F) ((c : Thread nD τ).loc b) := fun c b => Gen.V9 m c b
/-- What region 0 leaves in `main_v53`: its output array after every write-back. -/
def X0 (c : Dev nD) := (dat0 (Ve0 m) c).arrAt 2 cfg0.N
/-- Region 1's entry contents: region 0's exit contents after the host stretch between them. -/
abbrev We1 (c : Dev nD) : Valuation τ sig (Elt F) := StableHlo.after hostOps1 (Function.update (Gen.V9 m c) main_v53 (X0 m c))
abbrev Ve1 : (c : Dev nD) → (b : Ref sig .tc) → Buf (Elt F) ((c : Thread nD τ).loc b) := fun c b => We1 m c b
/-- What region 1 leaves in `main_v59`. -/
def X1 (c : Dev nD) := (dat1 (Ve1 m) c).arrAt 1 cfg1.N
/-- Region 2's entry contents. -/
abbrev We2 (c : Dev nD) : Valuation τ sig (Elt F) := StableHlo.after hostOps2 (Function.update (We1 m c) main_v59 (X1 m c))
abbrev Ve2 : (c : Dev nD) → (b : Ref sig .tc) → Buf (Elt F) ((c : Thread nD τ).loc b) := fun c b => We2 m c b
/-- What region 2 leaves in `main_v61`. -/
def X2 (c : Dev nD) := (dat2 (Ve2 m) c).arrAt 1 cfg2.N
/-- Region 3's entry contents. -/
abbrev We3 (c : Dev nD) : Valuation τ sig (Elt F) := StableHlo.after hostOps3 (Function.update (We2 m c) main_v61 (X2 m c))
abbrev Ve3 : (c : Dev nD) → (b : Ref sig .tc) → Buf (Elt F) ((c : Thread nD τ).loc b) := fun c b => We3 m c b
/-- What region 3 leaves in `main_v63`. -/
def X3 (c : Dev nD) := (dat3 (Ve3 m) c).arrAt 1 cfg3.N

/-- The contents the regions leave in the buffers they may change: each region's output array at what its
    write-backs leave, any other buffer as launched (never read there). -/
def outs : Gen.Outs (F := F) := fun _ r c =>
  if h : r = main_v53 then by subst h; exact X0 m c
  else if h : r = main_v59 then by subst h; exact X1 m c
  else if h : r = main_v61 then by subst h; exact X2 m c
  else if h : r = main_v63 then by subst h; exact X3 m c
  else m ((c : Thread nD τ).loc r)

theorem outs_v53 (c : Dev nD) : outs m 10 main_v53 c = X0 m c := by
  unfold outs; rw [dif_pos rfl]
theorem outs_v59 (c : Dev nD) : outs m 12 main_v59 c = X1 m c := by
  unfold outs; rw [dif_neg (by decide), dif_pos rfl]
theorem outs_v61 (c : Dev nD) : outs m 14 main_v61 c = X2 m c := by
  unfold outs; rw [dif_neg (by decide), dif_neg (by decide), dif_pos rfl]
theorem outs_v63 (c : Dev nD) : outs m 16 main_v63 c = X3 m c := by
  unfold outs; rw [dif_neg (by decide), dif_neg (by decide), dif_neg (by decide), dif_pos rfl]

/-- The generated boundary valuations at these contents are the entry contents above. -/
theorem V11_eq (c : Dev nD) : Gen.V11 m (outs m) c = We1 m c :=
  congrArg (fun x => StableHlo.after hostOps1 (Function.update (Gen.V9 m c) main_v53 x)) (outs_v53 m c)
theorem V13_eq (c : Dev nD) : Gen.V13 m (outs m) c = We2 m c := by
  unfold Gen.V13 Gen.V12; rw [V11_eq, outs_v59]
theorem V15_eq (c : Dev nD) : Gen.V15 m (outs m) c = We3 m c := by
  unfold Gen.V15 Gen.V14; rw [V13_eq, outs_v61]

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c

end Cert.Kernel.Hand

end
-- ==== Proof.Kernel.Bodies.lean ====
/- The bodies of the four pipeline regions, at a parameter `V` (the TensorCore's buffer contents when the region is
   entered): each input window's staging buffer holds its block at every point; the kernel body's triple on whole
   staging memrefs; the body obligation of the pipeline's proof data at every point. -/
import proofs.«122344_j23716809409278_2_alg».proof.Proof.Kernel.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # REGION 0: the body of `cc0__max_affinity_kernel`, at the entry contents `V` -/

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one store tiles the output buffer, so it covers it. -/
theorem cover0_2 (p0 : Vec F S512x1 .f32) (y : S512x1.Idx) :
    ∃ pc ∈ ([⟨r0_2, p0⟩] : List (View.Piece (Elt F) S512x1 .f32)), y ∈ pc.1.set :=
  View.cover_of_tiled [⟨r0_2, p0⟩] S512x1.size (by rfl) y

set_option maxHeartbeats 1000000 in
/-- The kernel body on whole staging memrefs, the inputs' at read contents `x` and the output's at anything, runs to
    the continuation holding the inputs' as they were and the output's at `out0_2` of the inputs': the printed
    function is its skeleton of memory operations over the payload, run operation by operation. -/
theorem sound_kernel0 (c : Dev nD) (E : Set ℕ) (i : grid0.Coords) (arg0 : Memref sig .tc .vmem S512x384 .bf16) (harg0 : arg0.IsWhole) (arg1 : Memref sig .tc .vmem S4096x384 .bf16) (harg1 : arg1.IsWhole) (arg2 : Memref sig .tc .vmem S512x1 .f32) (harg2 : arg2.IsWhole)
    (x0 : Vec F S512x384 .bf16) (x1 : Vec F S4096x384 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__max_affinity_kernel i arg0 harg0 arg1 harg1 arg2 harg2) K := by
  simp only [cc0__max_affinity_kernel_eq_skeleton]; unfold cc0__max_affinity_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: the body of `cc1__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one store tiles the output buffer, so it covers it. -/
theorem cover1_1 (p0 : Vec F S1024x1 .f32) (y : S1024x1.Idx) :
    ∃ pc ∈ ([⟨r1_1, p0⟩] : List (View.Piece (Elt F) S1024x1 .f32)), y ∈ pc.1.set :=
  View.cover_of_tiled [⟨r1_1, p0⟩] S1024x1.size (by rfl) y

set_option maxHeartbeats 1000000 in
/-- The kernel body on whole staging memrefs, the inputs' at read contents `x` and the output's at anything, runs to
    the continuation holding the inputs' as they were and the output's at `out1_1` of the inputs': the printed
    function is its skeleton of memory operations over the payload, run operation by operation. -/
theorem sound_kernel1 (c : Dev nD) (E : Set ℕ) (i : grid1.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__row_norm_kernel i arg0 harg0 arg1 harg1) K := by
  simp only [cc1__row_norm_kernel_eq_skeleton]; unfold cc1__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: the body of `cc2__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's one store tiles the output buffer, so it covers it. -/
theorem cover2_1 (p0 : Vec F S1024x1 .f32) (y : S1024x1.Idx) :
    ∃ pc ∈ ([⟨r2_1, p0⟩] : List (View.Piece (Elt F) S1024x1 .f32)), y ∈ pc.1.set :=
  View.cover_of_tiled [⟨r2_1, p0⟩] S1024x1.size (by rfl) y

set_option maxHeartbeats 1000000 in
/-- The kernel body on whole staging memrefs, the inputs' at read contents `x` and the output's at anything, runs to
    the continuation holding the inputs' as they were and the output's at `out2_1` of the inputs': the printed
    function is its skeleton of memory operations over the payload, run operation by operation. -/
theorem sound_kernel2 (c : Dev nD) (E : Set ℕ) (i : grid2.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__row_norm_kernel i arg0 harg0 arg1 harg1) K := by
  simp only [cc2__row_norm_kernel_eq_skeleton]; unfold cc2__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # REGION 3: the body of `cc3__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The body's one store tiles the output buffer, so it covers it. -/
theorem cover3_1 (p0 : Vec F S1024x1 .f32) (y : S1024x1.Idx) :
    ∃ pc ∈ ([⟨r3_1, p0⟩] : List (View.Piece (Elt F) S1024x1 .f32)), y ∈ pc.1.set :=
  View.cover_of_tiled [⟨r3_1, p0⟩] S1024x1.size (by rfl) y

set_option maxHeartbeats 1000000 in
/-- The kernel body on whole staging memrefs, the inputs' at read contents `x` and the output's at anything, runs to
    the continuation holding the inputs' as they were and the output's at `out3_1` of the inputs': the printed
    function is its skeleton of memory operations over the payload, run operation by operation. -/
theorem sound_kernel3 (c : Dev nD) (E : Set ℕ) (i : grid3.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__row_norm_kernel i arg0 harg0 arg1 harg1) K := by
  simp only [cc3__row_norm_kernel_eq_skeleton]; unfold cc3__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.Kernel.Run.lean ====
/- The run of the kernel program: @main's host stretches and its four pipeline regions as segments over the thread
   state "every unscoped buffer at the boundary's contents, the generator register at some state, nothing owed";
   from any launch memory with zero counters every weakly fair execution terminates, and every final memory holds
   each unscoped buffer at the last boundary's contents — in particular the three result buffers, and each argument
   as launched. -/
import proofs.«122344_j23716809409278_2_alg».proof.Proof.Kernel.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The same rest beside the buffers at every boundary. -/
abbrev E : Fin 5 → Dev nD → sProp 𝕄 := fun _ c => R (F := F) c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

/-- Region 0's exit contents: the entry contents with `main_v53` at what the write-backs leave. -/
abbrev Wx0 (c : Dev nD) : Valuation τ sig (Elt F) := Function.update (Gen.V9 m c) main_v53 (X0 m c)
/-- The same read at the TensorCore's references. -/
abbrev Vx0 : (c : Dev nD) → (b : Ref sig .tc) → Buf (Elt F) ((c : Thread nD τ).loc b) := fun c b => Wx0 m c b

/-- At region 0's exit each of its arrays holds what the pipeline leaves: an input array as entered (never written),
    the output array its write-backs folded. -/
theorem hF0 (c : Dev nD) : ∀ w : Fin cfg0.W, (dat0 (Ve0 m) c).arrAt w cfg0.N = Vx0 m c (Pipeline.arrRef spec0 w)
  | ⟨0, _⟩ => (((dat0 (Ve0 m) c).arrAt_in 0 rfl _).trans (A_eq0 (Ve0 m) c 0)).trans
      (Function.update_of_ne (StableHlo.devRef_ne_of_ne (by decide)) _ _).symm
  | ⟨1, _⟩ => (((dat0 (Ve0 m) c).arrAt_in 1 rfl _).trans (A_eq0 (Ve0 m) c 1)).trans
      (Function.update_of_ne (StableHlo.devRef_ne_of_ne (by decide)) _ _).symm
  | ⟨2, _⟩ => show X0 m c = Function.update (Gen.V9 m c) main_v53 (X0 m c) main_v53 from by rw [Function.update_self]
/-- Every other buffer holds what it held at entry. -/
theorem hrest0 (c : Dev nD) : ∀ b, b ∉ Finset.univ.image (Pipeline.arrRef spec0) → Vx0 m c b = Ve0 m c b :=
  fun b hb => Function.update_of_ne (StableHlo.devRef_ne_of_ne fun e => hb (Finset.mem_image.mpr ⟨2, Finset.mem_univ _, e.symm⟩)) _ _

-- a library lemma stated over the pinned configuration unifies with the printed one only when unification may
-- unfold plain definitions in a metavariable's type
set_option backward.isDefEq.respectTransparency.types false in
/-- REGION 0 (custom_call 0) over the thread state: entered from every unscoped buffer at the entry contents,
    left at the exit contents, which differ from them at `main_v53` only. Its arrays split out of the unscoped
    buffers and put back at the exit contents; the generator register into the class invariant and out; nothing
    owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (Wx0 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- Region 1's exit contents: the entry contents with `main_v59` at what the write-backs leave. -/
abbrev Wx1 (c : Dev nD) : Valuation τ sig (Elt F) := Function.update (We1 m c) main_v59 (X1 m c)
/-- The same read at the TensorCore's references. -/
abbrev Vx1 : (c : Dev nD) → (b : Ref sig .tc) → Buf (Elt F) ((c : Thread nD τ).loc b) := fun c b => Wx1 m c b

/-- At region 1's exit each of its arrays holds what the pipeline leaves: an input array as entered (never written),
    the output array its write-backs folded. -/
theorem hF1 (c : Dev nD) : ∀ w : Fin cfg1.W, (dat1 (Ve1 m) c).arrAt w cfg1.N = Vx1 m c (Pipeline.arrRef spec1 w)
  | ⟨0, _⟩ => (((dat1 (Ve1 m) c).arrAt_in 0 rfl _).trans (A_eq1 (Ve1 m) c 0)).trans
      (Function.update_of_ne (StableHlo.devRef_ne_of_ne (by decide)) _ _).symm
  | ⟨1, _⟩ => show X1 m c = Function.update (We1 m c) main_v59 (X1 m c) main_v59 from by rw [Function.update_self]
/-- Every other buffer holds what it held at entry. -/
theorem hrest1 (c : Dev nD) : ∀ b, b ∉ Finset.univ.image (Pipeline.arrRef spec1) → Vx1 m c b = Ve1 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 1 (custom_call 1) over the thread state: entered from every unscoped buffer at the entry contents,
    left at the exit contents, which differ from them at `main_v59` only. Its arrays split out of the unscoped
    buffers and put back at the exit contents; the generator register into the class invariant and out; nothing
    owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wx1 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- Region 2's exit contents: the entry contents with `main_v61` at what the write-backs leave. -/
abbrev Wx2 (c : Dev nD) : Valuation τ sig (Elt F) := Function.update (We2 m c) main_v61 (X2 m c)
/-- The same read at the TensorCore's references. -/
abbrev Vx2 : (c : Dev nD) → (b : Ref sig .tc) → Buf (Elt F) ((c : Thread nD τ).loc b) := fun c b => Wx2 m c b

/-- At region 2's exit each of its arrays holds what the pipeline leaves: an input array as entered (never written),
    the output array its write-backs folded. -/
theorem hF2 (c : Dev nD) : ∀ w : Fin cfg2.W, (dat2 (Ve2 m) c).arrAt w cfg2.N = Vx2 m c (Pipeline.arrRef spec2 w)
  | ⟨0, _⟩ => (((dat2 (Ve2 m) c).arrAt_in 0 rfl _).trans (A_eq2 (Ve2 m) c 0)).trans
      (Function.update_of_ne (StableHlo.devRef_ne_of_ne (by decide)) _ _).symm
  | ⟨1, _⟩ => show X2 m c = Function.update (We2 m c) main_v61 (X2 m c) main_v61 from by rw [Function.update_self]
/-- Every other buffer holds what it held at entry. -/
theorem hrest2 (c : Dev nD) : ∀ b, b ∉ Finset.univ.image (Pipeline.arrRef spec2) → Vx2 m c b = Ve2 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 2 (custom_call 2) over the thread state: entered from every unscoped buffer at the entry contents,
    left at the exit contents, which differ from them at `main_v61` only. Its arrays split out of the unscoped
    buffers and put back at the exit contents; the generator register into the class invariant and out; nothing
    owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wx2 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- Region 3's exit contents: the entry contents with `main_v63` at what the write-backs leave. -/
abbrev Wx3 (c : Dev nD) : Valuation τ sig (Elt F) := Function.update (We3 m c) main_v63 (X3 m c)
/-- The same read at the TensorCore's references. -/
abbrev Vx3 : (c : Dev nD) → (b : Ref sig .tc) → Buf (Elt F) ((c : Thread nD τ).loc b) := fun c b => Wx3 m c b

/-- At region 3's exit each of its arrays holds what the pipeline leaves: an input array as entered (never written),
    the output array its write-backs folded. -/
theorem hF3 (c : Dev nD) : ∀ w : Fin cfg3.W, (dat3 (Ve3 m) c).arrAt w cfg3.N = Vx3 m c (Pipeline.arrRef spec3 w)
  | ⟨0, _⟩ => (((dat3 (Ve3 m) c).arrAt_in 0 rfl _).trans (A_eq3 (Ve3 m) c 0)).trans
      (Function.update_of_ne (StableHlo.devRef_ne_of_ne (by decide)) _ _).symm
  | ⟨1, _⟩ => show X3 m c = Function.update (We3 m c) main_v63 (X3 m c) main_v63 from by rw [Function.update_self]
/-- Every other buffer holds what it held at entry. -/
theorem hrest3 (c : Dev nD) : ∀ b, b ∉ Finset.univ.image (Pipeline.arrRef spec3) → Vx3 m c b = Ve3 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 3 (custom_call 3) over the thread state: entered from every unscoped buffer at the entry contents,
    left at the exit contents, which differ from them at `main_v63` only. Its arrays split out of the unscoped
    buffers and put back at the exit contents; the generator register into the class invariant and out; nothing
    owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wx3 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: the generated boundary contents at `outs m` are the regions' entry and exit contents -/

theorem V10_eq (c : Dev nD) : Gen.V10 m (outs m) c = Wx0 m c :=
  congrArg (fun x => Function.update (Gen.V9 m c) main_v53 x) (outs_v53 m c)
theorem V12_eq (c : Dev nD) : Gen.V12 m (outs m) c = Wx1 m c := by
  unfold Gen.V12; rw [V11_eq, outs_v59]
theorem V14_eq (c : Dev nD) : Gen.V14 m (outs m) c = Wx2 m c := by
  unfold Gen.V14; rw [V13_eq, outs_v61]
theorem V16_eq (c : Dev nD) : Gen.V16 m (outs m) c = Wx3 m c := by
  unfold Gen.V16; rw [V15_eq, outs_v63]

theorem hpre0 (c : Dev nD) : iprop(StableHlo.held (c : Thread nD τ) (Pipeline.ucRefs τ sig) (Gen.V9 m c) ∗ E (F := F) 0 c) ⊢ (reg0 m).pre c := .rfl
theorem hpost0 (c : Dev nD) : (reg0 m).post c ⊢ iprop(StableHlo.held (c : Thread nD τ) (Pipeline.ucRefs τ sig) (Gen.V10 m (outs m) c) ∗ E (F := F) 1 c) := by
  rw [V10_eq]; exact .rfl
theorem hpre1 (c : Dev nD) : iprop(StableHlo.held (c : Thread nD τ) (Pipeline.ucRefs τ sig) (Gen.V11 m (outs m) c) ∗ E (F := F) 1 c) ⊢ (reg1 m).pre c := by
  rw [V11_eq]; exact .rfl
theorem hpost1 (c : Dev nD) : (reg1 m).post c ⊢ iprop(StableHlo.held (c : Thread nD τ) (Pipeline.ucRefs τ sig) (Gen.V12 m (outs m) c) ∗ E (F := F) 2 c) := by
  rw [V12_eq]; exact .rfl
theorem hpre2 (c : Dev nD) : iprop(StableHlo.held (c : Thread nD τ) (Pipeline.ucRefs τ sig) (Gen.V13 m (outs m) c) ∗ E (F := F) 2 c) ⊢ (reg2 m).pre c := by
  rw [V13_eq]; exact .rfl
theorem hpost2 (c : Dev nD) : (reg2 m).post c ⊢ iprop(StableHlo.held (c : Thread nD τ) (Pipeline.ucRefs τ sig) (Gen.V14 m (outs m) c) ∗ E (F := F) 3 c) := by
  rw [V14_eq]; exact .rfl
theorem hpre3 (c : Dev nD) : iprop(StableHlo.held (c : Thread nD τ) (Pipeline.ucRefs τ sig) (Gen.V15 m (outs m) c) ∗ E (F := F) 3 c) ⊢ (reg3 m).pre c := by
  rw [V15_eq]; exact .rfl
theorem hpost3 (c : Dev nD) : (reg3 m).post c ⊢ iprop(StableHlo.held (c : Thread nD τ) (Pipeline.ucRefs τ sig) (Gen.V16 m (outs m) c) ∗ E (F := F) 4 c) := by
  rw [V16_eq]; exact .rfl
/-- The last rest ends owing nothing. -/
theorem hE4 (c : Dev nD) : E (F := F) 4 c ⊢ (iprop(∃ W, owes (c : Thread nD τ) (0 : CellTallies nD τ sig Unit) W) : sProp 𝕄) := by
  iintro ⟨-, H⟩; iexact H

/-! ## The run -/

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds the three result buffers at the last
    boundary's contents and each argument as launched: the launch over the segments, the last thread state
    read against the final state. -/
theorem run (ρ : Dev nD → PrngReg) : θ_run defs (onTc (τ := τ) (main (F := F))) ⟨m, fun _ => 0, ρ⟩ (fun r => ∀ c : Dev nD,
      r.2.mem ((c.tc : Thread nD τ).loc main_v55) = Gen.V17 m (outs m) c main_v55
      ∧ r.2.mem ((c.tc : Thread nD τ).loc main_v56) = Gen.V17 m (outs m) c main_v56
      ∧ r.2.mem ((c.tc : Thread nD τ).loc main_v65) = Gen.V17 m (outs m) c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m))
    (fun c Q => by
      rewrite [main_chain c, Seg.run_eq_chain,
        show ((Gen.segs m (outs m) 𝒱₀ L lv (E (F := F)) () (pdats m) (reg0 m) (reg1 m) (reg2 m) (reg3 m)) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outs m) c))
    (hch := fun c => ⟨.rfl, .rfl, .rfl, .rfl, .rfl, .rfl, .rfl, .rfl, .rfl, hpre0 m c, hpost0 m c, hpre1 m c, hpost1 m c,
      hpre2 m c, hpost2 m c, hpre3 m c, hpost3 m c, sep_mono .rfl (hE4 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V17 m (outs m) c b)
    (hfin := fun c s' => by
      iintro ⟨Hh, HSI⟩
      unfold StableHlo.held
      imodintro
      iapply (pointsTo_read_all (Pipeline.ucRefs τ sig) (fun b => (((c : Thread nD τ)).1, b)) (Gen.V17 m (outs m) c) s')
      isplitl [Hh] <;> iassumption)
    (hQ := fun s h c =>
      ⟨h c _ (mem_uc main_v55 (by decide)), h c _ (mem_uc main_v56 (by decide)), h c _ (mem_uc main_v65 (by decide)),
        (h c _ (mem_uc main_arg0 (by decide))).trans (Gen.V17_main_arg0 m (outs m) c),
        (h c _ (mem_uc main_arg1 (by decide))).trans (Gen.V17_main_arg1 m (outs m) c),
        (h c _ (mem_uc main_arg2 (by decide))).trans (Gen.V17_main_arg2 m (outs m) c),
        (h c _ (mem_uc main_arg3 (by decide))).trans (Gen.V17_main_arg3 m (outs m) c),
        (h c _ (mem_uc main_arg4 (by decide))).trans (Gen.V17_main_arg4 m (outs m) c),
        (h c _ (mem_uc main_arg5 (by decide))).trans (Gen.V17_main_arg5 m (outs m) c),
        (h c _ (mem_uc main_arg6 (by decide))).trans (Gen.V17_main_arg6 m (outs m) c),
        (h c _ (mem_uc main_arg7 (by decide))).trans (Gen.V17_main_arg7 m (outs m) c),
        (h c _ (mem_uc main_arg8 (by decide))).trans (Gen.V17_main_arg8 m (outs m) c),
        (h c _ (mem_uc main_arg9 (by decide))).trans (Gen.V17_main_arg9 m (outs m) c),
        (h c _ (mem_uc main_arg10 (by decide))).trans (Gen.V17_main_arg10 m (outs m) c),
        (h c _ (mem_uc main_arg11 (by decide))).trans (Gen.V17_main_arg11 m (outs m) c)⟩)

/-- THE FRAME: every weakly fair execution of @main terminates, nothing faulting, and every final memory holds each
    argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c => (hr c).2.2.2) (run m ρ)

end Cert.Kernel.Hand

end
-- ==== Proof.KernelIdeal.Stages.lean ====
/- The stages of the kernel program: per pipeline region, at a parameter `V` (the TensorCore's buffer contents when
   the region is entered), each window's block at a point, what the body leaves in the output window's buffer, and
   the pipeline's proof data; then the buffer contents at each region's entry along @main, the contents each region
   leaves in its output array, and every pipeline's proof data at its region's entry contents. Definitions and
   projections only. -/
import proofs.«122344_j23716809409278_2_alg».proof.Proof.Gen.KernelIdeal.Launch
import proofs.«122344_j23716809409278_2_alg».proof.Proof.Gen.KernelIdeal.Skeleton
import proofs.«122344_j23716809409278_2_alg».proof.Proof.Gen.KernelIdeal.Points
import proofs.«122344_j23716809409278_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Regions
-- the TensorCore's buffer contents when a region is entered: the parameter every region's half is stated at
variable (V : (c : Dev nD) → (b : Ref sig .tc) → Buf (Elt F) ((c : Thread nD τ).loc b))

/-! # REGION 0 of @main: custom_call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_0 : Rect S512x384 := Rect.unit (s := S512x384) ![0, 0] S512x384.size inb_S512x384_S512x384_0_0
abbrev r0_1 : Rect S4096x384 := Rect.unit (s := S4096x384) ![0, 0] S4096x384.size inb_S4096x384_S4096x384_0_0
abbrev r0_2 : Rect S512x1 := Rect.unit (s := S512x1) ![0, 0] S512x1.size inb_S512x1_S512x1_0_0

/-- The output window's staging buffer after the body, from the input windows' blocks: its one store as a piece
    laid over the buffer (`View.canon`; the payload is the skeleton's). -/
def out0_2 (x0 : Vec F S512x384 .bf16) (x1 : Vec F S4096x384 .bf16) : Vec F S512x1 .f32 :=
  View.canon [⟨r0_2, k0_pay1 (View.ld x0 r0_0) (View.ld x1 r0_1)⟩]

/-- The proof data of pipeline 0 on core `c`: the arrays as the region finds them (`V`); after the body at point
    `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # REGION 1 of @main: custom_call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev r1_0 : Rect S1024x384 := Rect.unit (s := S1024x384) ![0, 0] S1024x384.size inb_S1024x384_S1024x384_0_0
abbrev r1_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out1_1 (x0 : Vec F S1024x384 .f32) : Vec F S1024x1 .f32 :=
  View.canon [⟨r1_1, k1_pay1 (View.ld x0 r1_0)⟩]

/-- The proof data of pipeline 1 on core `c`: the arrays as the region finds them (`V`); after the body at point
    `t` each input's buffer at its block and the output's at `out1_1` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-! # REGION 2 of @main: custom_call 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev r2_0 : Rect S1024x384 := Rect.unit (s := S1024x384) ![0, 0] S1024x384.size inb_S1024x384_S1024x384_0_0
abbrev r2_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out2_1 (x0 : Vec F S1024x384 .f32) : Vec F S1024x1 .f32 :=
  View.canon [⟨r2_1, k2_pay1 (View.ld x0 r2_0)⟩]

/-- The proof data of pipeline 2 on core `c`: the arrays as the region finds them (`V`); after the body at point
    `t` each input's buffer at its block and the output's at `out2_1` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-! # REGION 3 of @main: custom_call 3 (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-block rectangles the body loads and stores through. -/
abbrev r3_0 : Rect S1024x384 := Rect.unit (s := S1024x384) ![0, 0] S1024x384.size inb_S1024x384_S1024x384_0_0
abbrev r3_1 : Rect S1024x1 := Rect.unit (s := S1024x1) ![0, 0] S1024x1.size inb_S1024x1_S1024x1_0_0

/-- The output window's staging buffer after the body, from the input windows' blocks: its one store as a piece
    laid over the buffer (`View.canon`; the payload is the skeleton's). -/
def out3_1 (x0 : Vec F S1024x384 .f32) : Vec F S1024x1 .f32 :=
  View.canon [⟨r3_1, k3_pay1 (View.ld x0 r3_0)⟩]

/-- The proof data of pipeline 3 on core `c`: the arrays as the region finds them (`V`); after the body at point
    `t` each input's buffer at its block and the output's at `out3_1` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

end Regions

/-! # The contents along @main -/

variable (m : (ℓ : Loc nD τ sig) → Buf (Elt F) ℓ)

/-- Region 0's entry contents: the launch memory after the host stretches before it. -/
abbrev Ve0 : (c : Dev nD) → (b : Ref sig .tc) → Buf (Elt F) ((c : Thread nD τ).loc b) := fun c b => Gen.V9 m c b
/-- What region 0 leaves in `main_v53`: its output array after every write-back. -/
def X0 (c : Dev nD) := (dat0 (Ve0 m) c).arrAt 2 cfg0.N
/-- Region 1's entry contents: region 0's exit contents after the host stretch between them. -/
abbrev We1 (c : Dev nD) : Valuation τ sig (Elt F) := StableHlo.after hostOps1 (Function.update (Gen.V9 m c) main_v53 (X0 m c))
abbrev Ve1 : (c : Dev nD) → (b : Ref sig .tc) → Buf (Elt F) ((c : Thread nD τ).loc b) := fun c b => We1 m c b
/-- What region 1 leaves in `main_v59`. -/
def X1 (c : Dev nD) := (dat1 (Ve1 m) c).arrAt 1 cfg1.N
/-- Region 2's entry contents. -/
abbrev We2 (c : Dev nD) : Valuation τ sig (Elt F) := StableHlo.after hostOps2 (Function.update (We1 m c) main_v59 (X1 m c))
abbrev Ve2 : (c : Dev nD) → (b : Ref sig .tc) → Buf (Elt F) ((c : Thread nD τ).loc b) := fun c b => We2 m c b
/-- What region 2 leaves in `main_v61`. -/
def X2 (c : Dev nD) := (dat2 (Ve2 m) c).arrAt 1 cfg2.N
/-- Region 3's entry contents. -/
abbrev We3 (c : Dev nD) : Valuation τ sig (Elt F) := StableHlo.after hostOps3 (Function.update (We2 m c) main_v61 (X2 m c))
abbrev Ve3 : (c : Dev nD) → (b : Ref sig .tc) → Buf (Elt F) ((c : Thread nD τ).loc b) := fun c b => We3 m c b
/-- What region 3 leaves in `main_v63`. -/
def X3 (c : Dev nD) := (dat3 (Ve3 m) c).arrAt 1 cfg3.N

/-- The contents the regions leave in the buffers they may change: each region's output array at what its
    write-backs leave, any other buffer as launched (never read there). -/
def outs : Gen.Outs (F := F) := fun _ r c =>
  if h : r = main_v53 then by subst h; exact X0 m c
  else if h : r = main_v59 then by subst h; exact X1 m c
  else if h : r = main_v61 then by subst h; exact X2 m c
  else if h : r = main_v63 then by subst h; exact X3 m c
  else m ((c : Thread nD τ).loc r)

theorem outs_v53 (c : Dev nD) : outs m 10 main_v53 c = X0 m c := by
  unfold outs; rw [dif_pos rfl]
theorem outs_v59 (c : Dev nD) : outs m 12 main_v59 c = X1 m c := by
  unfold outs; rw [dif_neg (by decide), dif_pos rfl]
theorem outs_v61 (c : Dev nD) : outs m 14 main_v61 c = X2 m c := by
  unfold outs; rw [dif_neg (by decide), dif_neg (by decide), dif_pos rfl]
theorem outs_v63 (c : Dev nD) : outs m 16 main_v63 c = X3 m c := by
  unfold outs; rw [dif_neg (by decide), dif_neg (by decide), dif_neg (by decide), dif_pos rfl]

/-- The generated boundary valuations at these contents are the entry contents above. -/
theorem V11_eq (c : Dev nD) : Gen.V11 m (outs m) c = We1 m c :=
  congrArg (fun x => StableHlo.after hostOps1 (Function.update (Gen.V9 m c) main_v53 x)) (outs_v53 m c)
theorem V13_eq (c : Dev nD) : Gen.V13 m (outs m) c = We2 m c := by
  unfold Gen.V13 Gen.V12; rw [V11_eq, outs_v59]
theorem V15_eq (c : Dev nD) : Gen.V15 m (outs m) c = We3 m c := by
  unfold Gen.V15 Gen.V14; rw [V13_eq, outs_v61]

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c

end Cert.KernelIdeal.Hand

end
-- ==== Proof.KernelIdeal.Bodies.lean ====
/- The bodies of the four pipeline regions, at a parameter `V` (the TensorCore's buffer contents when the region is
   entered): each input window's staging buffer holds its block at every point; the kernel body's triple on whole
   staging memrefs; the body obligation of the pipeline's proof data at every point. -/
import proofs.«122344_j23716809409278_2_alg».proof.Proof.KernelIdeal.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # REGION 0: the body of `cc0__max_affinity_kernel`, at the entry contents `V` -/

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one store tiles the output buffer, so it covers it. -/
theorem cover0_2 (p0 : Vec F S512x1 .f32) (y : S512x1.Idx) :
    ∃ pc ∈ ([⟨r0_2, p0⟩] : List (View.Piece (Elt F) S512x1 .f32)), y ∈ pc.1.set :=
  View.cover_of_tiled [⟨r0_2, p0⟩] S512x1.size (by rfl) y

set_option maxHeartbeats 1000000 in
/-- The kernel body on whole staging memrefs, the inputs' at read contents `x` and the output's at anything, runs to
    the continuation holding the inputs' as they were and the output's at `out0_2` of the inputs': the printed
    function is its skeleton of memory operations over the payload, run operation by operation. -/
theorem sound_kernel0 (c : Dev nD) (E : Set ℕ) (i : grid0.Coords) (arg0 : Memref sig .tc .vmem S512x384 .bf16) (harg0 : arg0.IsWhole) (arg1 : Memref sig .tc .vmem S4096x384 .bf16) (harg1 : arg1.IsWhole) (arg2 : Memref sig .tc .vmem S512x1 .f32) (harg2 : arg2.IsWhole)
    (x0 : Vec F S512x384 .bf16) (x1 : Vec F S4096x384 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__max_affinity_kernel i arg0 harg0 arg1 harg1 arg2 harg2) K := by
  simp only [cc0__max_affinity_kernel_eq_skeleton]; unfold cc0__max_affinity_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: the body of `cc1__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one store tiles the output buffer, so it covers it. -/
theorem cover1_1 (p0 : Vec F S1024x1 .f32) (y : S1024x1.Idx) :
    ∃ pc ∈ ([⟨r1_1, p0⟩] : List (View.Piece (Elt F) S1024x1 .f32)), y ∈ pc.1.set :=
  View.cover_of_tiled [⟨r1_1, p0⟩] S1024x1.size (by rfl) y

set_option maxHeartbeats 1000000 in
/-- The kernel body on whole staging memrefs, the inputs' at read contents `x` and the output's at anything, runs to
    the continuation holding the inputs' as they were and the output's at `out1_1` of the inputs': the printed
    function is its skeleton of memory operations over the payload, run operation by operation. -/
theorem sound_kernel1 (c : Dev nD) (E : Set ℕ) (i : grid1.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__row_norm_kernel i arg0 harg0 arg1 harg1) K := by
  simp only [cc1__row_norm_kernel_eq_skeleton]; unfold cc1__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # REGION 2: the body of `cc2__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's one store tiles the output buffer, so it covers it. -/
theorem cover2_1 (p0 : Vec F S1024x1 .f32) (y : S1024x1.Idx) :
    ∃ pc ∈ ([⟨r2_1, p0⟩] : List (View.Piece (Elt F) S1024x1 .f32)), y ∈ pc.1.set :=
  View.cover_of_tiled [⟨r2_1, p0⟩] S1024x1.size (by rfl) y

set_option maxHeartbeats 1000000 in
/-- The kernel body on whole staging memrefs, the inputs' at read contents `x` and the output's at anything, runs to
    the continuation holding the inputs' as they were and the output's at `out2_1` of the inputs': the printed
    function is its skeleton of memory operations over the payload, run operation by operation. -/
theorem sound_kernel2 (c : Dev nD) (E : Set ℕ) (i : grid2.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__row_norm_kernel i arg0 harg0 arg1 harg1) K := by
  simp only [cc2__row_norm_kernel_eq_skeleton]; unfold cc2__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # REGION 3: the body of `cc3__row_norm_kernel`, at the entry contents `V` -/

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The body's one store tiles the output buffer, so it covers it. -/
theorem cover3_1 (p0 : Vec F S1024x1 .f32) (y : S1024x1.Idx) :
    ∃ pc ∈ ([⟨r3_1, p0⟩] : List (View.Piece (Elt F) S1024x1 .f32)), y ∈ pc.1.set :=
  View.cover_of_tiled [⟨r3_1, p0⟩] S1024x1.size (by rfl) y

set_option maxHeartbeats 1000000 in
/-- The kernel body on whole staging memrefs, the inputs' at read contents `x` and the output's at anything, runs to
    the continuation holding the inputs' as they were and the output's at `out3_1` of the inputs': the printed
    function is its skeleton of memory operations over the payload, run operation by operation. -/
theorem sound_kernel3 (c : Dev nD) (E : Set ℕ) (i : grid3.Coords) (arg0 : Memref sig .tc .vmem S1024x384 .f32) (harg0 : arg0.IsWhole) (arg1 : Memref sig .tc .vmem S1024x1 .f32) (harg1 : arg1.IsWhole)
    (x0 : Vec F S1024x384 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__row_norm_kernel i arg0 harg0 arg1 harg1) K := by
  simp only [cc3__row_norm_kernel_eq_skeleton]; unfold cc3__row_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KernelIdeal.Run.lean ====
/- The run of the kernel program: @main's host stretches and its four pipeline regions as segments over the thread
   state "every unscoped buffer at the boundary's contents, the generator register at some state, nothing owed";
   from any launch memory with zero counters every weakly fair execution terminates, and every final memory holds
   each unscoped buffer at the last boundary's contents — in particular the three result buffers, and each argument
   as launched. -/
import proofs.«122344_j23716809409278_2_alg».proof.Proof.KernelIdeal.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The same rest beside the buffers at every boundary. -/
abbrev E : Fin 5 → Dev nD → sProp 𝕄 := fun _ c => R (F := F) c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

/-- Region 0's exit contents: the entry contents with `main_v53` at what the write-backs leave. -/
abbrev Wx0 (c : Dev nD) : Valuation τ sig (Elt F) := Function.update (Gen.V9 m c) main_v53 (X0 m c)
/-- The same read at the TensorCore's references. -/
abbrev Vx0 : (c : Dev nD) → (b : Ref sig .tc) → Buf (Elt F) ((c : Thread nD τ).loc b) := fun c b => Wx0 m c b

/-- At region 0's exit each of its arrays holds what the pipeline leaves: an input array as entered (never written),
    the output array its write-backs folded. -/
theorem hF0 (c : Dev nD) : ∀ w : Fin cfg0.W, (dat0 (Ve0 m) c).arrAt w cfg0.N = Vx0 m c (Pipeline.arrRef spec0 w)
  | ⟨0, _⟩ => (((dat0 (Ve0 m) c).arrAt_in 0 rfl _).trans (A_eq0 (Ve0 m) c 0)).trans
      (Function.update_of_ne (StableHlo.devRef_ne_of_ne (by decide)) _ _).symm
  | ⟨1, _⟩ => (((dat0 (Ve0 m) c).arrAt_in 1 rfl _).trans (A_eq0 (Ve0 m) c 1)).trans
      (Function.update_of_ne (StableHlo.devRef_ne_of_ne (by decide)) _ _).symm
  | ⟨2, _⟩ => show X0 m c = Function.update (Gen.V9 m c) main_v53 (X0 m c) main_v53 from by rw [Function.update_self]
/-- Every other buffer holds what it held at entry. -/
theorem hrest0 (c : Dev nD) : ∀ b, b ∉ Finset.univ.image (Pipeline.arrRef spec0) → Vx0 m c b = Ve0 m c b :=
  fun b hb => Function.update_of_ne (StableHlo.devRef_ne_of_ne fun e => hb (Finset.mem_image.mpr ⟨2, Finset.mem_univ _, e.symm⟩)) _ _

-- a library lemma stated over the pinned configuration unifies with the printed one only when unification may
-- unfold plain definitions in a metavariable's type
set_option backward.isDefEq.respectTransparency.types false in
/-- REGION 0 (custom_call 0) over the thread state: entered from every unscoped buffer at the entry contents,
    left at the exit contents, which differ from them at `main_v53` only. Its arrays split out of the unscoped
    buffers and put back at the exit contents; the generator register into the class invariant and out; nothing
    owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (Wx0 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- Region 1's exit contents: the entry contents with `main_v59` at what the write-backs leave. -/
abbrev Wx1 (c : Dev nD) : Valuation τ sig (Elt F) := Function.update (We1 m c) main_v59 (X1 m c)
/-- The same read at the TensorCore's references. -/
abbrev Vx1 : (c : Dev nD) → (b : Ref sig .tc) → Buf (Elt F) ((c : Thread nD τ).loc b) := fun c b => Wx1 m c b

/-- At region 1's exit each of its arrays holds what the pipeline leaves: an input array as entered (never written),
    the output array its write-backs folded. -/
theorem hF1 (c : Dev nD) : ∀ w : Fin cfg1.W, (dat1 (Ve1 m) c).arrAt w cfg1.N = Vx1 m c (Pipeline.arrRef spec1 w)
  | ⟨0, _⟩ => (((dat1 (Ve1 m) c).arrAt_in 0 rfl _).trans (A_eq1 (Ve1 m) c 0)).trans
      (Function.update_of_ne (StableHlo.devRef_ne_of_ne (by decide)) _ _).symm
  | ⟨1, _⟩ => show X1 m c = Function.update (We1 m c) main_v59 (X1 m c) main_v59 from by rw [Function.update_self]
/-- Every other buffer holds what it held at entry. -/
theorem hrest1 (c : Dev nD) : ∀ b, b ∉ Finset.univ.image (Pipeline.arrRef spec1) → Vx1 m c b = Ve1 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 1 (custom_call 1) over the thread state: entered from every unscoped buffer at the entry contents,
    left at the exit contents, which differ from them at `main_v59` only. Its arrays split out of the unscoped
    buffers and put back at the exit contents; the generator register into the class invariant and out; nothing
    owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wx1 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- Region 2's exit contents: the entry contents with `main_v61` at what the write-backs leave. -/
abbrev Wx2 (c : Dev nD) : Valuation τ sig (Elt F) := Function.update (We2 m c) main_v61 (X2 m c)
/-- The same read at the TensorCore's references. -/
abbrev Vx2 : (c : Dev nD) → (b : Ref sig .tc) → Buf (Elt F) ((c : Thread nD τ).loc b) := fun c b => Wx2 m c b

/-- At region 2's exit each of its arrays holds what the pipeline leaves: an input array as entered (never written),
    the output array its write-backs folded. -/
theorem hF2 (c : Dev nD) : ∀ w : Fin cfg2.W, (dat2 (Ve2 m) c).arrAt w cfg2.N = Vx2 m c (Pipeline.arrRef spec2 w)
  | ⟨0, _⟩ => (((dat2 (Ve2 m) c).arrAt_in 0 rfl _).trans (A_eq2 (Ve2 m) c 0)).trans
      (Function.update_of_ne (StableHlo.devRef_ne_of_ne (by decide)) _ _).symm
  | ⟨1, _⟩ => show X2 m c = Function.update (We2 m c) main_v61 (X2 m c) main_v61 from by rw [Function.update_self]
/-- Every other buffer holds what it held at entry. -/
theorem hrest2 (c : Dev nD) : ∀ b, b ∉ Finset.univ.image (Pipeline.arrRef spec2) → Vx2 m c b = Ve2 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 2 (custom_call 2) over the thread state: entered from every unscoped buffer at the entry contents,
    left at the exit contents, which differ from them at `main_v61` only. Its arrays split out of the unscoped
    buffers and put back at the exit contents; the generator register into the class invariant and out; nothing
    owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wx2 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- Region 3's exit contents: the entry contents with `main_v63` at what the write-backs leave. -/
abbrev Wx3 (c : Dev nD) : Valuation τ sig (Elt F) := Function.update (We3 m c) main_v63 (X3 m c)
/-- The same read at the TensorCore's references. -/
abbrev Vx3 : (c : Dev nD) → (b : Ref sig .tc) → Buf (Elt F) ((c : Thread nD τ).loc b) := fun c b => Wx3 m c b

/-- At region 3's exit each of its arrays holds what the pipeline leaves: an input array as entered (never written),
    the output array its write-backs folded. -/
theorem hF3 (c : Dev nD) : ∀ w : Fin cfg3.W, (dat3 (Ve3 m) c).arrAt w cfg3.N = Vx3 m c (Pipeline.arrRef spec3 w)
  | ⟨0, _⟩ => (((dat3 (Ve3 m) c).arrAt_in 0 rfl _).trans (A_eq3 (Ve3 m) c 0)).trans
      (Function.update_of_ne (StableHlo.devRef_ne_of_ne (by decide)) _ _).symm
  | ⟨1, _⟩ => show X3 m c = Function.update (We3 m c) main_v63 (X3 m c) main_v63 from by rw [Function.update_self]
/-- Every other buffer holds what it held at entry. -/
theorem hrest3 (c : Dev nD) : ∀ b, b ∉ Finset.univ.image (Pipeline.arrRef spec3) → Vx3 m c b = Ve3 m c b :=
  fun b hb => Function.update_of_ne (StableHlo.devRef_ne_of_ne fun e => hb (Finset.mem_image.mpr ⟨1, Finset.mem_univ _, e.symm⟩)) _ _

-- a library lemma stated over the pinned configuration unifies with the printed one only when unification may
-- unfold plain definitions in a metavariable's type
set_option backward.isDefEq.respectTransparency.types false in
/-- REGION 3 (custom_call 3) over the thread state: entered from every unscoped buffer at the entry contents,
    left at the exit contents, which differ from them at `main_v63` only. Its arrays split out of the unscoped
    buffers and put back at the exit contents; the generator register into the class invariant and out; nothing
    owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wx3 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chaining: the generated boundary contents at `outs m` are the regions' entry and exit contents -/

theorem V10_eq (c : Dev nD) : Gen.V10 m (outs m) c = Wx0 m c :=
  congrArg (fun x => Function.update (Gen.V9 m c) main_v53 x) (outs_v53 m c)
theorem V12_eq (c : Dev nD) : Gen.V12 m (outs m) c = Wx1 m c := by
  unfold Gen.V12; rw [V11_eq, outs_v59]
theorem V14_eq (c : Dev nD) : Gen.V14 m (outs m) c = Wx2 m c := by
  unfold Gen.V14; rw [V13_eq, outs_v61]
theorem V16_eq (c : Dev nD) : Gen.V16 m (outs m) c = Wx3 m c := by
  unfold Gen.V16; rw [V15_eq, outs_v63]

theorem hpre0 (c : Dev nD) : iprop(StableHlo.held (c : Thread nD τ) (Pipeline.ucRefs τ sig) (Gen.V9 m c) ∗ E (F := F) 0 c) ⊢ (reg0 m).pre c := .rfl
theorem hpost0 (c : Dev nD) : (reg0 m).post c ⊢ iprop(StableHlo.held (c : Thread nD τ) (Pipeline.ucRefs τ sig) (Gen.V10 m (outs m) c) ∗ E (F := F) 1 c) := by
  rw [V10_eq]; exact .rfl
theorem hpre1 (c : Dev nD) : iprop(StableHlo.held (c : Thread nD τ) (Pipeline.ucRefs τ sig) (Gen.V11 m (outs m) c) ∗ E (F := F) 1 c) ⊢ (reg1 m).pre c := by
  rw [V11_eq]; exact .rfl
theorem hpost1 (c : Dev nD) : (reg1 m).post c ⊢ iprop(StableHlo.held (c : Thread nD τ) (Pipeline.ucRefs τ sig) (Gen.V12 m (outs m) c) ∗ E (F := F) 2 c) := by
  rw [V12_eq]; exact .rfl
theorem hpre2 (c : Dev nD) : iprop(StableHlo.held (c : Thread nD τ) (Pipeline.ucRefs τ sig) (Gen.V13 m (outs m) c) ∗ E (F := F) 2 c) ⊢ (reg2 m).pre c := by
  rw [V13_eq]; exact .rfl
theorem hpost2 (c : Dev nD) : (reg2 m).post c ⊢ iprop(StableHlo.held (c : Thread nD τ) (Pipeline.ucRefs τ sig) (Gen.V14 m (outs m) c) ∗ E (F := F) 3 c) := by
  rw [V14_eq]; exact .rfl
theorem hpre3 (c : Dev nD) : iprop(StableHlo.held (c : Thread nD τ) (Pipeline.ucRefs τ sig) (Gen.V15 m (outs m) c) ∗ E (F := F) 3 c) ⊢ (reg3 m).pre c := by
  rw [V15_eq]; exact .rfl
theorem hpost3 (c : Dev nD) : (reg3 m).post c ⊢ iprop(StableHlo.held (c : Thread nD τ) (Pipeline.ucRefs τ sig) (Gen.V16 m (outs m) c) ∗ E (F := F) 4 c) := by
  rw [V16_eq]; exact .rfl
/-- The last rest ends owing nothing. -/
theorem hE4 (c : Dev nD) : E (F := F) 4 c ⊢ (iprop(∃ W, owes (c : Thread nD τ) (0 : CellTallies nD τ sig Unit) W) : sProp 𝕄) := by
  iintro ⟨-, H⟩; iexact H

/-! ## The run -/

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds the three result buffers at the last
    boundary's contents and each argument as launched: the launch over the segments, the last thread state
    read against the final state. -/
theorem run (ρ : Dev nD → PrngReg) : θ_run defs (onTc (τ := τ) (main (F := F))) ⟨m, fun _ => 0, ρ⟩ (fun r => ∀ c : Dev nD,
      r.2.mem ((c.tc : Thread nD τ).loc main_v55) = Gen.V17 m (outs m) c main_v55
      ∧ r.2.mem ((c.tc : Thread nD τ).loc main_v56) = Gen.V17 m (outs m) c main_v56
      ∧ r.2.mem ((c.tc : Thread nD τ).loc main_v65) = Gen.V17 m (outs m) c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m))
    (fun c Q => by
      rewrite [main_chain c, Seg.run_eq_chain,
        show ((Gen.segs m (outs m) 𝒱₀ L lv (E (F := F)) () (pdats m) (reg0 m) (reg1 m) (reg2 m) (reg3 m)) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outs m) c))
    (hch := fun c => ⟨.rfl, .rfl, .rfl, .rfl, .rfl, .rfl, .rfl, .rfl, .rfl, hpre0 m c, hpost0 m c, hpre1 m c, hpost1 m c,
      hpre2 m c, hpost2 m c, hpre3 m c, hpost3 m c, sep_mono .rfl (hE4 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V17 m (outs m) c b)
    (hfin := fun c s' => by
      iintro ⟨Hh, HSI⟩
      unfold StableHlo.held
      imodintro
      iapply (pointsTo_read_all (Pipeline.ucRefs τ sig) (fun b => (((c : Thread nD τ)).1, b)) (Gen.V17 m (outs m) c) s')
      isplitl [Hh] <;> iassumption)
    (hQ := fun s h c =>
      ⟨h c _ (mem_uc main_v55 (by decide)), h c _ (mem_uc main_v56 (by decide)), h c _ (mem_uc main_v65 (by decide)),
        (h c _ (mem_uc main_arg0 (by decide))).trans (Gen.V17_main_arg0 m (outs m) c),
        (h c _ (mem_uc main_arg1 (by decide))).trans (Gen.V17_main_arg1 m (outs m) c),
        (h c _ (mem_uc main_arg2 (by decide))).trans (Gen.V17_main_arg2 m (outs m) c),
        (h c _ (mem_uc main_arg3 (by decide))).trans (Gen.V17_main_arg3 m (outs m) c),
        (h c _ (mem_uc main_arg4 (by decide))).trans (Gen.V17_main_arg4 m (outs m) c),
        (h c _ (mem_uc main_arg5 (by decide))).trans (Gen.V17_main_arg5 m (outs m) c),
        (h c _ (mem_uc main_arg6 (by decide))).trans (Gen.V17_main_arg6 m (outs m) c),
        (h c _ (mem_uc main_arg7 (by decide))).trans (Gen.V17_main_arg7 m (outs m) c),
        (h c _ (mem_uc main_arg8 (by decide))).trans (Gen.V17_main_arg8 m (outs m) c),
        (h c _ (mem_uc main_arg9 (by decide))).trans (Gen.V17_main_arg9 m (outs m) c),
        (h c _ (mem_uc main_arg10 (by decide))).trans (Gen.V17_main_arg10 m (outs m) c),
        (h c _ (mem_uc main_arg11 (by decide))).trans (Gen.V17_main_arg11 m (outs m) c)⟩)

/-- THE FRAME: every weakly fair execution of @main terminates, nothing faulting, and every final memory holds each
    argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c => (hr c).2.2.2) (run m ρ)

end Cert.KernelIdeal.Hand

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.KernelIdeal.Payload.lean ====
/-
  The two kernel bodies' stored values on the extended reals, entry by entry.

  The affinity body's block: row `r` of the [512, 1] block is the largest, over the 4096 context rows `n`, of the inner
  product of query row `r` with context row `n` — the matrix product into the zero accumulator read as a sum, the lane
  maximum as the fold of `max` from minus infinity, the kept axis a cast of a vector to a column.

  The norm body's block: row `r` of the [1024, 1] block is the square root of the sum of the squares of input row `r`.
-/
import proofs.«122344_j23716809409278_2_alg».proof.Proof.Gen.KernelIdeal.Skeleton
import proofs.«122344_j23716809409278_2_alg».proof.Proof.LibRowMax
import proofs.«122344_j23716809409278_2_alg».proof.Proof.LibTransposedMatmul
import proofs.«122344_j23716809409278_2_alg».proof.Proof.LibKeepdims
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-- The printed contraction record is the library's "both operands contracted on their columns". -/
theorem dot_eq : dot_S512x384_S4096x384_S512x4096_1_1_0_0_n_n = DotDims.transposedRhs 512 384 4096 := rfl

/-- Row `r` of the affinity block: the largest inner product of query row `r` with a context row. -/
theorem affinity_at (x0 : Vec Ideal S512x384 .bf16) (x1 : Vec Ideal S4096x384 .bf16) (r : Fin 512) (u : Fin 1) :
    k0_pay1 (F := Ideal) x0 x1 (ix2 r u)
      = (Finset.univ : Finset (Fin 4096)).fold max (Ideal.ofBits .f32 0xFF800000#32)
          (fun n => ∑ d : Fin 384, x0 (ix2 r d) * x1 (ix2 n d)) := by
  unfold k0_pay1
  refine (Cert.LibKeepdims.shapeCast_a_a1_apply _ _ r u).trans ?_
  refine (Cert.LibRowMax.multiReduction_maximumf_rows _ _ _ _ _ r).trans ?_
  refine congrArg (fun f => (Finset.univ : Finset (Fin 4096)).fold max (Ideal.ofBits .f32 0xFF800000#32) f) (funext fun n => ?_)
  rw [shapeCast_self, shapeCast_self]
  exact Cert.LibTransposedMatmul.matmul_zero_apply (a := 512) (n := 384) (b := 4096) none x0 x1 r n

/-- Row `r` of a norm block: the square root of the sum of the squares of input row `r`. -/
theorem norm1_at (x : Vec Ideal S1024x384 .f32) (r : Fin 1024) (u : Fin 1) :
    k1_pay1 (F := Ideal) x (ix2 r u) = Ideal.sqrt (∑ d : Fin 384, x (ix2 r d) * x (ix2 r d)) := by
  unfold k1_pay1
  show Ideal.sqrt _ = _
  refine congrArg Ideal.sqrt ?_
  refine (Cert.LibKeepdims.shapeCast_a_a1_apply _ _ r u).trans ?_
  refine (Cert.LibKeepdims.multiReduction_add_rows _ _ _ _ _ r).trans ?_
  rw [shapeCast_self]
  rfl

theorem norm2_at (x : Vec Ideal S1024x384 .f32) (r : Fin 1024) (u : Fin 1) :
    k2_pay1 (F := Ideal) x (ix2 r u) = Ideal.sqrt (∑ d : Fin 384, x (ix2 r d) * x (ix2 r d)) := by
  unfold k2_pay1
  show Ideal.sqrt _ = _
  refine congrArg Ideal.sqrt ?_
  refine (Cert.LibKeepdims.shapeCast_a_a1_apply _ _ r u).trans ?_
  refine (Cert.LibKeepdims.multiReduction_add_rows _ _ _ _ _ r).trans ?_
  rw [shapeCast_self]
  rfl

theorem norm3_at (x : Vec Ideal S1024x384 .f32) (r : Fin 1024) (u : Fin 1) :
    k3_pay1 (F := Ideal) x (ix2 r u) = Ideal.sqrt (∑ d : Fin 384, x (ix2 r d) * x (ix2 r d)) := by
  unfold k3_pay1
  show Ideal.sqrt _ = _
  refine congrArg Ideal.sqrt ?_
  refine (Cert.LibKeepdims.shapeCast_a_a1_apply _ _ r u).trans ?_
  refine (Cert.LibKeepdims.multiReduction_add_rows _ _ _ _ _ r).trans ?_
  rw [shapeCast_self]
  rfl

end Cert.KernelIdeal.Payload

end
-- ==== Proof.KernelIdeal.Arrays.lean ====
/-
  The four regions' output arrays as whole-array functions of their entry contents, on the extended reals.

  Row `i` of the affinity region's [10240, 1] array is the largest, over the 4096 context rows `n`, of the inner
  product of query row `i` with context row `n`; row `i` of a norm region's [rows, 1] array is the square root of
  the sum of the squares of input row `i`. Each grid point writes back one block of rows of that function — the body's
  payload of the input blocks at the point, the query block moving with the output block, the context array whole —
  and the blocks tile the array.
-/
import proofs.«122344_j23716809409278_2_alg».proof.Proof.KernelIdeal.Stages
import proofs.«122344_j23716809409278_2_alg».proof.Proof.KernelIdeal.Payload
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The whole-block rectangles start at the origin. -/
theorem hz : (![0, 0] : Fin 2 → Nat) = fun _ => 0 := funext fun a => by fin_cases a <;> rfl

/-! ## Region 0: the row maxima of the affinities of `main_v52` against `main_v51` into `main_v53` -/

/-- Row `i` of the output array: the largest, over the context rows `n`, of the inner product of query row `i` with
    context row `n`. -/
def G0 (a0 : S10240x384.Idx → EReal) (a1 : S4096x384.Idx → EReal) : S10240x1.Idx → EReal :=
  fun i => (Finset.univ : Finset (Fin 4096)).fold max (Ideal.ofBits .f32 0xFF800000#32)
    (fun n => ∑ d : Fin 384, a0 (ix2 (i 0 : Fin 10240) d) * a1 (ix2 n d))

/-- The printed index maps, decided over the grid: the query block moves with the output block along the rows, at
    column block 0; the context array is one block, always at the origin; the output's row block is the point's
    coordinate. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

section
variable (V : (c : Dev nD) → (b : Ref sig .tc) → Buf (Elt Ideal) ((c : Thread nD τ).loc b))

/-- An entry of the query block at point `t` is the query array's entry at the block's row offset. -/
theorem iblk0_0_read (c : Dev nD) (t : Fin cfg0.N) (p : Fin 512) (d : Fin 384) (r : Fin 10240)
    (hr : r.val = win0_0.index t (0 : Fin 2) * 512 + p.val) (h1 : win0_0.index t (1 : Fin 2) = 0) :
    iblk0 V c 0 t (ix2 p d) = (V c main_v52 : S10240x384.Idx → EReal) (ix2 r d) := by
  show (V c main_v52 : S10240x384.Idx → EReal) (((cfg0.win 0).blk t).view.emb (ix2 p d)) = _
  refine congrArg (V c main_v52 : S10240x384.Idx → EReal) ?_
  funext a; apply Fin.ext
  match a with
  | ⟨0, _⟩ => show win0_0.index t (0 : Fin 2) * 512 + 1 * p.val = r.val; omega
  | ⟨1, _⟩ => show win0_0.index t (1 : Fin 2) * 384 + 1 * d.val = d.val; omega

/-- An entry of the context block at any point is the context array's entry: the block is the whole array. -/
theorem iblk0_1_read (c : Dev nD) (t : Fin cfg0.N) (n : Fin 4096) (d : Fin 384)
    (h0 : win0_1.index t (0 : Fin 2) = 0) (h1 : win0_1.index t (1 : Fin 2) = 0) :
    iblk0 V c 1 t (ix2 n d) = (V c main_v51 : S4096x384.Idx → EReal) (ix2 n d) := by
  show (V c main_v51 : S4096x384.Idx → EReal) (((cfg0.win 1).blk t).view.emb (ix2 n d)) = _
  refine congrArg (V c main_v51 : S4096x384.Idx → EReal) ?_
  funext a; apply Fin.ext
  match a with
  | ⟨0, _⟩ => show win0_1.index t (0 : Fin 2) * 4096 + 1 * n.val = n.val; omega
  | ⟨1, _⟩ => show win0_1.index t (1 : Fin 2) * 384 + 1 * d.val = d.val; omega

/-- What point `t` writes back is block `t` of `G0` of the query and context arrays as the region finds them. -/
theorem flushed0_eq (c : Dev nD) (t : Fin cfg0.N) :
    (dat0 V c).flushed 2 t = ((cfg0.win 2).blk t).view.read (Elt Ideal) (G0 (V c main_v52) (V c main_v51)) := by
  show (cfg0.win 2).cut (grid0.coords t) ((dat0 V c).after 2 t) = _
  rw [after0_2]
  unfold out0_2
  rw [View.canon_unit_zero hz]
  simp only [View.ld_unit_zero (S := S512x384) hz, View.ld_unit_zero (S := S4096x384) hz]
  obtain ⟨e0, e1, e2, e3, e4, e5⟩ := idx_facts0 t
  funext j
  obtain ⟨p, q, rfl⟩ : ∃ (p : Fin 512) (q : Fin 1), j = ix2 p q := ⟨j 0, j 1, eq_ix2 j⟩
  show k0_pay1 (F := Ideal) (iblk0 V c 0 t) (iblk0 V c 1 t) (ix2 p q)
    = G0 (V c main_v52) (V c main_v51) (((cfg0.win 2).blk t).view.emb (ix2 p q))
  refine (Payload.affinity_at _ _ p q).trans ?_
  have hlt : win0_2.index t (0 : Fin 2) * 512 + 1 * p.val < 10240 := by have := p.isLt; omega
  have hrow : (((cfg0.win 2).blk t).view.emb (ix2 p q) 0 : Fin 10240) = ⟨win0_2.index t (0 : Fin 2) * 512 + 1 * p.val, hlt⟩ := Fin.ext rfl
  unfold G0
  rw [hrow]
  refine congrArg (fun f => (Finset.univ : Finset (Fin 4096)).fold max (Ideal.ofBits .f32 0xFF800000#32) f)
    (funext fun n => Finset.sum_congr rfl fun d _ => ?_)
  have hq := iblk0_0_read V c t p d ⟨win0_2.index t (0 : Fin 2) * 512 + 1 * p.val, hlt⟩
    (by show win0_2.index t (0 : Fin 2) * 512 + 1 * p.val = win0_0.index t (0 : Fin 2) * 512 + p.val; omega) e1
  have hk := iblk0_1_read V c t n d e2 e3
  rw [hq, hk]
  rfl

end

/-- An index of the output array is in point `t`'s block iff each coordinate is in the block's range on its axis. -/
theorem mem_blk0 (t : Fin cfg0.N) (i : S10240x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v53).slice (win0_2.rect t)).set ↔ _
  rw [View.set_slice_whole, Rect.mem_set_unit]
  exact Iff.rfl

/-- The blocks tile the output array: row `r` is in the block of the point `r / 512`. -/
theorem cover0_arr (i : S10240x1.Idx) : ∃ t : Fin cfg0.N, (cfg0.win 2).flush t = true ∧ i ∈ ((cfg0.win 2).blk t).view.set := by
  have hi0 : (i 0).val < 10240 := (i 0).isLt
  have hi1 : (i 1).val < 1 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- The output array after the region: `G0` of the query and context arrays as the region finds them. -/
theorem arr0_eq (V : (c : Dev nD) → (b : Ref sig .tc) → Buf (Elt Ideal) ((c : Thread nD τ).loc b)) (c : Dev nD) :
    (dat0 V c).arrAt 2 cfg0.N = G0 (V c main_v52) (V c main_v51) :=
  (dat0 V c).arrAt_eq_of_cover 2 (G0 (V c main_v52) (V c main_v51)) (fun t _ => flushed0_eq V c t) cover0_arr

/-- `G0` at a row. -/
theorem G0_apply (a0 : S10240x384.Idx → EReal) (a1 : S4096x384.Idx → EReal) (i : Fin 10240) (u : Fin 1) :
    G0 a0 a1 (ix2 i u) = (Finset.univ : Finset (Fin 4096)).fold max (Ideal.ofBits .f32 0xFF800000#32)
      (fun n => ∑ d : Fin 384, a0 (ix2 i d) * a1 (ix2 n d)) := rfl

/-! ## Region 1: the row norms of `main_v23` into `main_v59` -/

/-- Row `i` of the output array: the square root of the sum of the squares of input row `i`. -/
def G1 (a : S4096x384.Idx → EReal) : S4096x1.Idx → EReal :=
  fun i => Ideal.sqrt (∑ d : Fin 384, a (ix2 (i 0 : Fin 4096) d) * a (ix2 (i 0 : Fin 4096) d))

/-- The printed index maps, decided over the grid: the input block moves with the output block along the rows, both
    at column block 0, and the output's row block is the point's coordinate. -/
theorem idx_facts1 : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 3 :=
  (by decide +kernel : ∀ t : Fin grid1.N, _)

/-- Every row block is some point's. -/
theorem idx_onto1 : ∀ q0 : Fin 4, ∃ t : Fin cfg1.N, win1_1.index t = ![q0.val, 0] :=
  (by decide +kernel : ∀ q0 : Fin 4, ∃ t : Fin grid1.N, win1_1.index t = ![q0.val, 0])

section
variable (V : (c : Dev nD) → (b : Ref sig .tc) → Buf (Elt Ideal) ((c : Thread nD τ).loc b))

/-- An entry of the input block at point `t` is the input array's entry at the block's row offset. -/
theorem iblk1_read (c : Dev nD) (t : Fin cfg1.N) (p : Fin 1024) (d : Fin 384) (r : Fin 4096)
    (hr : r.val = win1_0.index t (0 : Fin 2) * 1024 + p.val) (h1 : win1_0.index t (1 : Fin 2) = 0) :
    iblk1 V c 0 t (ix2 p d) = (V c main_v23 : S4096x384.Idx → EReal) (ix2 r d) := by
  show (V c main_v23 : S4096x384.Idx → EReal) (((cfg1.win 0).blk t).view.emb (ix2 p d)) = _
  refine congrArg (V c main_v23 : S4096x384.Idx → EReal) ?_
  funext a; apply Fin.ext
  match a with
  | ⟨0, _⟩ => show win1_0.index t (0 : Fin 2) * 1024 + 1 * p.val = r.val; omega
  | ⟨1, _⟩ => show win1_0.index t (1 : Fin 2) * 384 + 1 * d.val = d.val; omega

/-- What point `t` writes back is block `t` of `G1` of the input array as the region finds it. -/
theorem flushed1_eq (c : Dev nD) (t : Fin cfg1.N) :
    (dat1 V c).flushed 1 t = ((cfg1.win 1).blk t).view.read (Elt Ideal) (G1 (V c main_v23)) := by
  show (cfg1.win 1).cut (grid1.coords t) ((dat1 V c).after 1 t) = _
  rw [after1_1]
  unfold out1_1
  rw [View.canon_unit_zero hz]
  simp only [View.ld_unit_zero (S := S1024x384) hz]
  obtain ⟨e0, e1, e2, e3⟩ := idx_facts1 t
  funext j
  obtain ⟨p, q, rfl⟩ : ∃ (p : Fin 1024) (q : Fin 1), j = ix2 p q := ⟨j 0, j 1, eq_ix2 j⟩
  show k1_pay1 (F := Ideal) (iblk1 V c 0 t) (ix2 p q) = G1 (V c main_v23) (((cfg1.win 1).blk t).view.emb (ix2 p q))
  refine (Payload.norm1_at _ p q).trans ?_
  have hlt : win1_1.index t (0 : Fin 2) * 1024 + 1 * p.val < 4096 := by have := p.isLt; omega
  have hrow : (((cfg1.win 1).blk t).view.emb (ix2 p q) 0 : Fin 4096) = ⟨win1_1.index t (0 : Fin 2) * 1024 + 1 * p.val, hlt⟩ := Fin.ext rfl
  unfold G1
  rw [hrow]
  refine congrArg Ideal.sqrt (Finset.sum_congr rfl fun d _ => ?_)
  have hd := iblk1_read V c t p d ⟨win1_1.index t (0 : Fin 2) * 1024 + 1 * p.val, hlt⟩
    (by show win1_1.index t (0 : Fin 2) * 1024 + 1 * p.val = win1_0.index t (0 : Fin 2) * 1024 + p.val; omega) e1
  rw [hd]
  rfl

end

/-- An index of the output array is in point `t`'s block iff each coordinate is in the block's range on its axis. -/
theorem mem_blk1 (t : Fin cfg1.N) (i : S4096x1.Idx) :
    i ∈ ((cfg1.win 1).blk t).view.set ↔ ∀ a : Fin 2, win1_1.index t a * S1024x1.size a ≤ (i a).val ∧ (i a).val < win1_1.index t a * S1024x1.size a + S1024x1.size a := by
  show i ∈ ((View.whole main_v59).slice (win1_1.rect t)).set ↔ _
  rw [View.set_slice_whole, Rect.mem_set_unit]
  exact Iff.rfl

/-- The blocks tile the output array: row `r` is in the block of the point `r / 1024`. -/
theorem cover1_arr (i : S4096x1.Idx) : ∃ t : Fin cfg1.N, (cfg1.win 1).flush t = true ∧ i ∈ ((cfg1.win 1).blk t).view.set := by
  have hi0 : (i 0).val < 4096 := (i 0).isLt
  have hi1 : (i 1).val < 1 := (i 1).isLt
  obtain ⟨t, ht⟩ := idx_onto1 ⟨(i 0).val / 1024, by omega⟩
  have q0 : win1_1.index t (0 : Fin 2) = (i 0).val / 1024 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1 ≤ (i 1).val ∧ (i 1).val < win1_1.index t (1 : Fin 2) * 1 + 1; omega

/-- The output array after the region: `G1` of the input array as the region finds it. -/
theorem arr1_eq (V : (c : Dev nD) → (b : Ref sig .tc) → Buf (Elt Ideal) ((c : Thread nD τ).loc b)) (c : Dev nD) :
    (dat1 V c).arrAt 1 cfg1.N = G1 (V c main_v23) :=
  (dat1 V c).arrAt_eq_of_cover 1 (G1 (V c main_v23)) (fun t _ => flushed1_eq V c t) cover1_arr

/-- `G1` at a row. -/
theorem G1_apply (a : S4096x384.Idx → EReal) (i : Fin 4096) (u : Fin 1) :
    G1 a (ix2 i u) = Ideal.sqrt (∑ d : Fin 384, a (ix2 i d) * a (ix2 i d)) := rfl

/-! ## Region 2: the row norms of `main_v57` into `main_v61` -/

/-- Row `i` of the output array: the square root of the sum of the squares of input row `i`. -/
def G2 (a : S2048x384.Idx → EReal) : S2048x1.Idx → EReal :=
  fun i => Ideal.sqrt (∑ d : Fin 384, a (ix2 (i 0 : Fin 2048) d) * a (ix2 (i 0 : Fin 2048) d))

/-- The printed index maps, decided over the grid: the input block moves with the output block along the rows, both
    at column block 0, and the output's row block is the point's coordinate. -/
theorem idx_facts2 : ∀ t : Fin cfg2.N, win2_0.index t (0 : Fin 2) = win2_1.index t (0 : Fin 2)
    ∧ win2_0.index t (1 : Fin 2) = 0
    ∧ win2_1.index t (1 : Fin 2) = 0
    ∧ win2_1.index t (0 : Fin 2) ≤ 1 :=
  (by decide +kernel : ∀ t : Fin grid2.N, _)

/-- Every row block is some point's. -/
theorem idx_onto2 : ∀ q0 : Fin 2, ∃ t : Fin cfg2.N, win2_1.index t = ![q0.val, 0] :=
  (by decide +kernel : ∀ q0 : Fin 2, ∃ t : Fin grid2.N, win2_1.index t = ![q0.val, 0])

section
variable (V : (c : Dev nD) → (b : Ref sig .tc) → Buf (Elt Ideal) ((c : Thread nD τ).loc b))

/-- An entry of the input block at point `t` is the input array's entry at the block's row offset. -/
theorem iblk2_read (c : Dev nD) (t : Fin cfg2.N) (p : Fin 1024) (d : Fin 384) (r : Fin 2048)
    (hr : r.val = win2_0.index t (0 : Fin 2) * 1024 + p.val) (h1 : win2_0.index t (1 : Fin 2) = 0) :
    iblk2 V c 0 t (ix2 p d) = (V c main_v57 : S2048x384.Idx → EReal) (ix2 r d) := by
  show (V c main_v57 : S2048x384.Idx → EReal) (((cfg2.win 0).blk t).view.emb (ix2 p d)) = _
  refine congrArg (V c main_v57 : S2048x384.Idx → EReal) ?_
  funext a; apply Fin.ext
  match a with
  | ⟨0, _⟩ => show win2_0.index t (0 : Fin 2) * 1024 + 1 * p.val = r.val; omega
  | ⟨1, _⟩ => show win2_0.index t (1 : Fin 2) * 384 + 1 * d.val = d.val; omega

/-- What point `t` writes back is block `t` of `G2` of the input array as the region finds it. -/
theorem flushed2_eq (c : Dev nD) (t : Fin cfg2.N) :
    (dat2 V c).flushed 1 t = ((cfg2.win 1).blk t).view.read (Elt Ideal) (G2 (V c main_v57)) := by
  show (cfg2.win 1).cut (grid2.coords t) ((dat2 V c).after 1 t) = _
  rw [after2_1]
  unfold out2_1
  rw [View.canon_unit_zero hz]
  simp only [View.ld_unit_zero (S := S1024x384) hz]
  obtain ⟨e0, e1, e2, e3⟩ := idx_facts2 t
  funext j
  obtain ⟨p, q, rfl⟩ : ∃ (p : Fin 1024) (q : Fin 1), j = ix2 p q := ⟨j 0, j 1, eq_ix2 j⟩
  show k2_pay1 (F := Ideal) (iblk2 V c 0 t) (ix2 p q) = G2 (V c main_v57) (((cfg2.win 1).blk t).view.emb (ix2 p q))
  refine (Payload.norm2_at _ p q).trans ?_
  have hlt : win2_1.index t (0 : Fin 2) * 1024 + 1 * p.val < 2048 := by have := p.isLt; omega
  have hrow : (((cfg2.win 1).blk t).view.emb (ix2 p q) 0 : Fin 2048) = ⟨win2_1.index t (0 : Fin 2) * 1024 + 1 * p.val, hlt⟩ := Fin.ext rfl
  unfold G2
  rw [hrow]
  refine congrArg Ideal.sqrt (Finset.sum_congr rfl fun d _ => ?_)
  have hd := iblk2_read V c t p d ⟨win2_1.index t (0 : Fin 2) * 1024 + 1 * p.val, hlt⟩
    (by show win2_1.index t (0 : Fin 2) * 1024 + 1 * p.val = win2_0.index t (0 : Fin 2) * 1024 + p.val; omega) e1
  rw [hd]
  rfl

end

/-- An index of the output array is in point `t`'s block iff each coordinate is in the block's range on its axis. -/
theorem mem_blk2 (t : Fin cfg2.N) (i : S2048x1.Idx) :
    i ∈ ((cfg2.win 1).blk t).view.set ↔ ∀ a : Fin 2, win2_1.index t a * S1024x1.size a ≤ (i a).val ∧ (i a).val < win2_1.index t a * S1024x1.size a + S1024x1.size a := by
  show i ∈ ((View.whole main_v61).slice (win2_1.rect t)).set ↔ _
  rw [View.set_slice_whole, Rect.mem_set_unit]
  exact Iff.rfl

/-- The blocks tile the output array: row `r` is in the block of the point `r / 1024`. -/
theorem cover2_arr (i : S2048x1.Idx) : ∃ t : Fin cfg2.N, (cfg2.win 1).flush t = true ∧ i ∈ ((cfg2.win 1).blk t).view.set := by
  have hi0 : (i 0).val < 2048 := (i 0).isLt
  have hi1 : (i 1).val < 1 := (i 1).isLt
  obtain ⟨t, ht⟩ := idx_onto2 ⟨(i 0).val / 1024, by omega⟩
  have q0 : win2_1.index t (0 : Fin 2) = (i 0).val / 1024 := congrFun ht 0
  have q1 : win2_1.index t (1 : Fin 2) = 0 := congrFun ht 1
  refine ⟨t, flush2_1 t, ?_⟩
  rw [mem_blk2]
  intro a
  match a with
  | ⟨0, _⟩ => show win2_1.index t (0 : Fin 2) * 1024 ≤ (i 0).val ∧ (i 0).val < win2_1.index t (0 : Fin 2) * 1024 + 1024; omega
  | ⟨1, _⟩ => show win2_1.index t (1 : Fin 2) * 1 ≤ (i 1).val ∧ (i 1).val < win2_1.index t (1 : Fin 2) * 1 + 1; omega

/-- The output array after the region: `G2` of the input array as the region finds it. -/
theorem arr2_eq (V : (c : Dev nD) → (b : Ref sig .tc) → Buf (Elt Ideal) ((c : Thread nD τ).loc b)) (c : Dev nD) :
    (dat2 V c).arrAt 1 cfg2.N = G2 (V c main_v57) :=
  (dat2 V c).arrAt_eq_of_cover 1 (G2 (V c main_v57)) (fun t _ => flushed2_eq V c t) cover2_arr

/-- `G2` at a row. -/
theorem G2_apply (a : S2048x384.Idx → EReal) (i : Fin 2048) (u : Fin 1) :
    G2 a (ix2 i u) = Ideal.sqrt (∑ d : Fin 384, a (ix2 i d) * a (ix2 i d)) := rfl

/-! ## Region 3: the row norms of `main_v58` into `main_v63` -/

/-- Row `i` of the output array: the square root of the sum of the squares of input row `i`. -/
def G3 (a : S8192x384.Idx → EReal) : S8192x1.Idx → EReal :=
  fun i => Ideal.sqrt (∑ d : Fin 384, a (ix2 (i 0 : Fin 8192) d) * a (ix2 (i 0 : Fin 8192) d))

/-- The printed index maps, decided over the grid: the input block moves with the output block along the rows, both
    at column block 0, and the output's row block is the point's coordinate. -/
theorem idx_facts3 : ∀ t : Fin cfg3.N, win3_0.index t (0 : Fin 2) = win3_1.index t (0 : Fin 2)
    ∧ win3_0.index t (1 : Fin 2) = 0
    ∧ win3_1.index t (1 : Fin 2) = 0
    ∧ win3_1.index t (0 : Fin 2) ≤ 7 :=
  (by decide +kernel : ∀ t : Fin grid3.N, _)

/-- Every row block is some point's. -/
theorem idx_onto3 : ∀ q0 : Fin 8, ∃ t : Fin cfg3.N, win3_1.index t = ![q0.val, 0] :=
  (by decide +kernel : ∀ q0 : Fin 8, ∃ t : Fin grid3.N, win3_1.index t = ![q0.val, 0])

section
variable (V : (c : Dev nD) → (b : Ref sig .tc) → Buf (Elt Ideal) ((c : Thread nD τ).loc b))

/-- An entry of the input block at point `t` is the input array's entry at the block's row offset. -/
theorem iblk3_read (c : Dev nD) (t : Fin cfg3.N) (p : Fin 1024) (d : Fin 384) (r : Fin 8192)
    (hr : r.val = win3_0.index t (0 : Fin 2) * 1024 + p.val) (h1 : win3_0.index t (1 : Fin 2) = 0) :
    iblk3 V c 0 t (ix2 p d) = (V c main_v58 : S8192x384.Idx → EReal) (ix2 r d) := by
  show (V c main_v58 : S8192x384.Idx → EReal) (((cfg3.win 0).blk t).view.emb (ix2 p d)) = _
  refine congrArg (V c main_v58 : S8192x384.Idx → EReal) ?_
  funext a; apply Fin.ext
  match a with
  | ⟨0, _⟩ => show win3_0.index t (0 : Fin 2) * 1024 + 1 * p.val = r.val; omega
  | ⟨1, _⟩ => show win3_0.index t (1 : Fin 2) * 384 + 1 * d.val = d.val; omega

/-- What point `t` writes back is block `t` of `G3` of the input array as the region finds it. -/
theorem flushed3_eq (c : Dev nD) (t : Fin cfg3.N) :
    (dat3 V c).flushed 1 t = ((cfg3.win 1).blk t).view.read (Elt Ideal) (G3 (V c main_v58)) := by
  show (cfg3.win 1).cut (grid3.coords t) ((dat3 V c).after 1 t) = _
  rw [after3_1]
  unfold out3_1
  rw [View.canon_unit_zero hz]
  simp only [View.ld_unit_zero (S := S1024x384) hz]
  obtain ⟨e0, e1, e2, e3⟩ := idx_facts3 t
  funext j
  obtain ⟨p, q, rfl⟩ : ∃ (p : Fin 1024) (q : Fin 1), j = ix2 p q := ⟨j 0, j 1, eq_ix2 j⟩
  show k3_pay1 (F := Ideal) (iblk3 V c 0 t) (ix2 p q) = G3 (V c main_v58) (((cfg3.win 1).blk t).view.emb (ix2 p q))
  refine (Payload.norm3_at _ p q).trans ?_
  have hlt : win3_1.index t (0 : Fin 2) * 1024 + 1 * p.val < 8192 := by have := p.isLt; omega
  have hrow : (((cfg3.win 1).blk t).view.emb (ix2 p q) 0 : Fin 8192) = ⟨win3_1.index t (0 : Fin 2) * 1024 + 1 * p.val, hlt⟩ := Fin.ext rfl
  unfold G3
  rw [hrow]
  refine congrArg Ideal.sqrt (Finset.sum_congr rfl fun d _ => ?_)
  have hd := iblk3_read V c t p d ⟨win3_1.index t (0 : Fin 2) * 1024 + 1 * p.val, hlt⟩
    (by show win3_1.index t (0 : Fin 2) * 1024 + 1 * p.val = win3_0.index t (0 : Fin 2) * 1024 + p.val; omega) e1
  rw [hd]
  rfl

end

/-- An index of the output array is in point `t`'s block iff each coordinate is in the block's range on its axis. -/
theorem mem_blk3 (t : Fin cfg3.N) (i : S8192x1.Idx) :
    i ∈ ((cfg3.win 1).blk t).view.set ↔ ∀ a : Fin 2, win3_1.index t a * S1024x1.size a ≤ (i a).val ∧ (i a).val < win3_1.index t a * S1024x1.size a + S1024x1.size a := by
  show i ∈ ((View.whole main_v63).slice (win3_1.rect t)).set ↔ _
  rw [View.set_slice_whole, Rect.mem_set_unit]
  exact Iff.rfl

/-- The blocks tile the output array: row `r` is in the block of the point `r / 1024`. -/
theorem cover3_arr (i : S8192x1.Idx) : ∃ t : Fin cfg3.N, (cfg3.win 1).flush t = true ∧ i ∈ ((cfg3.win 1).blk t).view.set := by
  have hi0 : (i 0).val < 8192 := (i 0).isLt
  have hi1 : (i 1).val < 1 := (i 1).isLt
  obtain ⟨t, ht⟩ := idx_onto3 ⟨(i 0).val / 1024, by omega⟩
  have q0 : win3_1.index t (0 : Fin 2) = (i 0).val / 1024 := congrFun ht 0
  have q1 : win3_1.index t (1 : Fin 2) = 0 := congrFun ht 1
  refine ⟨t, flush3_1 t, ?_⟩
  rw [mem_blk3]
  intro a
  match a with
  | ⟨0, _⟩ => show win3_1.index t (0 : Fin 2) * 1024 ≤ (i 0).val ∧ (i 0).val < win3_1.index t (0 : Fin 2) * 1024 + 1024; omega
  | ⟨1, _⟩ => show win3_1.index t (1 : Fin 2) * 1 ≤ (i 1).val ∧ (i 1).val < win3_1.index t (1 : Fin 2) * 1 + 1; omega

/-- The output array after the region: `G3` of the input array as the region finds it. -/
theorem arr3_eq (V : (c : Dev nD) → (b : Ref sig .tc) → Buf (Elt Ideal) ((c : Thread nD τ).loc b)) (c : Dev nD) :
    (dat3 V c).arrAt 1 cfg3.N = G3 (V c main_v58) :=
  (dat3 V c).arrAt_eq_of_cover 1 (G3 (V c main_v58)) (fun t _ => flushed3_eq V c t) cover3_arr

/-- `G3` at a row. -/
theorem G3_apply (a : S8192x384.Idx → EReal) (i : Fin 8192) (u : Fin 1) :
    G3 a (ix2 i u) = Ideal.sqrt (∑ d : Fin 384, a (ix2 i d) * a (ix2 i d)) := rfl

/-! ## What each region leaves, along @main -/

variable (m : (ℓ : Loc nD τ sig) → Buf (Elt Ideal) ℓ)

/-- What region 0 leaves in `main_v53`: the row maxima of the affinities of `main_v52` against `main_v51` as the
    region finds them. -/
theorem X0_eq (c : Dev nD) : X0 m c = G0 (Gen.V9 m c main_v52) (Gen.V9 m c main_v51) := arr0_eq (Ve0 m) c
/-- What region 1 leaves in `main_v59`: the row norms of `main_v23` as the region finds it. -/
theorem X1_eq (c : Dev nD) : X1 m c = G1 (We1 m c main_v23) := arr1_eq (Ve1 m) c
/-- What region 2 leaves in `main_v61`: the row norms of `main_v57` as the region finds it. -/
theorem X2_eq (c : Dev nD) : X2 m c = G2 (We2 m c main_v57) := arr2_eq (Ve2 m) c
/-- What region 3 leaves in `main_v63`: the row norms of `main_v58` as the region finds it. -/
theorem X3_eq (c : Dev nD) : X3 m c = G3 (We3 m c main_v58) := arr3_eq (Ve3 m) c

/-- The same, at a row. -/
theorem X0_apply (c : Dev nD) (i : Fin 10240) (u : Fin 1) :
    (X0 m c : S10240x1.Idx → EReal) (ix2 i u) = G0 (Gen.V9 m c main_v52) (Gen.V9 m c main_v51) (ix2 i u) :=
  congrFun (X0_eq m c) (ix2 i u)
theorem X1_apply (c : Dev nD) (i : Fin 4096) (u : Fin 1) :
    (X1 m c : S4096x1.Idx → EReal) (ix2 i u) = G1 (We1 m c main_v23) (ix2 i u) :=
  congrFun (X1_eq m c) (ix2 i u)
theorem X2_apply (c : Dev nD) (i : Fin 2048) (u : Fin 1) :
    (X2 m c : S2048x1.Idx → EReal) (ix2 i u) = G2 (We2 m c main_v57) (ix2 i u) :=
  congrFun (X2_eq m c) (ix2 i u)
theorem X3_apply (c : Dev nD) (i : Fin 8192) (u : Fin 1) :
    (X3 m c : S8192x1.Idx → EReal) (ix2 i u) = G3 (We3 m c main_v58) (ix2 i u) :=
  congrFun (X3_eq m c) (ix2 i u)

end Cert.KernelIdeal.Hand

end
-- ==== Proof.LibCongr.lean ====
import Idealize.ShloMosaic.Lib.StableHlo.Run

/-! The congruence lemma of a host operation of any operand count (equal operand families, equal functions and equal
result references give equal operations), as the simplifier uses it on goals that hold such an operation. -/

namespace Cert.LibCongr

open Idealize.ShloMosaic

theorem nary_congr_simp_realized : True := by
  have := @StableHlo.nary.congr_simp
  trivial

end Cert.LibCongr
-- ==== Proof.LibAfterRw.lean ====
/-
  Reading a straight line of host operations at one buffer: a closing pass.  An operation's result at the buffer it
  writes is its function's value, and at any other buffer what was there.  Rewriting with these two facts, one operation
  and one reference at a time (the two references compared by computation), reaches every place — in particular the
  operands of a concatenation, which sit in a list of shape–array pairs where a single simplification pass leaves the
  operations' results standing.  `after_results_rw` repeats the rewriting until no operation's result is left; it does
  nothing when none is there.
-/
import Idealize.ShloMosaic.Lib.StableHlo.Run

/-- Rewrites every remaining `HloOp.result` of a literal operation at a literal reference, until none is left. -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))
-- ==== Proof.KernelIdeal.Tail.lean ====
/-
  The host operations after the first kernel region, stretch by stretch, at an arbitrary incoming valuation `W`: the
  affinity column flattened and cut into its first 2048 and last 8192 entries, the query matrix cut into its first
  2048 and last 8192 rows, each norm column flattened, and the three norm vectors laid end to end; each read at an
  index.
-/
import proofs.«122344_j23716809409278_2_alg».proof.Proof.Gen.KernelIdeal.Regions
import proofs.«122344_j23716809409278_2_alg».proof.Proof.LibCongr
import proofs.«122344_j23716809409278_2_alg».proof.Proof.LibAfterRw
import Idealize.ShloMosaic.Lib.StableHlo.Run
import Idealize.ShloMosaic.Lib.Pipeline.Value
import Idealize.ShloMosaic.Lib.ValueIdx

noncomputable section

open scoped BigOperators

namespace Cert.KernelIdeal.Tail

open Idealize.ShloMosaic Idealize.ShloMosaic.ValueIdx Idealize.ShloMosaic.TcCoe Idealize.ShloMosaic.StableHlo
open Cert.KernelIdeal Cert.KernelIdeal.Gen

/-- A column `[a, 1]` flattened to `[a]` reads, at `i`, the column at `(i, 0)`. -/
theorem flat_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (W : Valuation τ sig (Elt Ideal))

/-- Entry `i` of the first result is entry `(i, 0)` of the affinity column. -/
theorem v55_at (i : Fin 2048) :
    (StableHlo.after (hostOps1 (F := Ideal)) W (Proc.devRef .tc main_v55) : S2048.Idx → EReal) (ix1 i)
      = (W (Proc.devRef .tc main_v53) : S10240x1.Idx → EReal) (ix2 (⟨i.val, by omega⟩ : Fin 10240) (0 : Fin 1)) := by
  after_results_simp
  refine (extractStridedSlice_apply _ _ _ (ix1 i) (ix1 (⟨i.val, by omega⟩ : Fin 10240)) (fun a => ?_)).trans ?_
  · match a with
    | ⟨0, _⟩ => show i.val = 0 + i.val; omega
  · exact flat_apply (a := 10240) _ _ _

/-- Entry `i` of the second result is entry `(2048 + i, 0)` of the affinity column. -/
theorem v56_at (i : Fin 8192) :
    (StableHlo.after (hostOps1 (F := Ideal)) W (Proc.devRef .tc main_v56) : S8192.Idx → EReal) (ix1 i)
      = (W (Proc.devRef .tc main_v53) : S10240x1.Idx → EReal) (ix2 (⟨2048 + i.val, by omega⟩ : Fin 10240) (0 : Fin 1)) := by
  after_results_simp
  refine (extractStridedSlice_apply _ _ _ (ix1 i) (ix1 (⟨2048 + i.val, by omega⟩ : Fin 10240)) (fun a => ?_)).trans ?_
  · match a with
    | ⟨0, _⟩ => rfl
  · exact flat_apply (a := 10240) _ _ _

/-- Row `i` of the next matrix is row `i` of the query matrix. -/
theorem v57_at (i : Fin 2048) (d : Fin 384) :
    (StableHlo.after (hostOps1 (F := Ideal)) W (Proc.devRef .tc main_v57) : S2048x384.Idx → EReal) (ix2 i d)
      = (W (Proc.devRef .tc main_v50) : S10240x384.Idx → EReal) (ix2 (⟨i.val, by omega⟩ : Fin 10240) d) := by
  after_results_simp
  refine extractStridedSlice_apply _ _ _ (ix2 i d) (ix2 (⟨i.val, by omega⟩ : Fin 10240) d) (fun a => ?_)
  match a with
  | ⟨0, _⟩ => show i.val = 0 + i.val; omega
  | ⟨1, _⟩ => show d.val = 0 + d.val; omega

/-- Row `i` of the negative matrix is row `2048 + i` of the query matrix. -/
theorem v58_at (i : Fin 8192) (d : Fin 384) :
    (StableHlo.after (hostOps1 (F := Ideal)) W (Proc.devRef .tc main_v58) : S8192x384.Idx → EReal) (ix2 i d)
      = (W (Proc.devRef .tc main_v50) : S10240x384.Idx → EReal) (ix2 (⟨2048 + i.val, by omega⟩ : Fin 10240) d) := by
  after_results_simp
  refine extractStridedSlice_apply _ _ _ (ix2 i d) (ix2 (⟨2048 + i.val, by omega⟩ : Fin 10240) d) (fun a => ?_)
  match a with
  | ⟨0, _⟩ => rfl
  | ⟨1, _⟩ => show d.val = 0 + d.val; omega

/-- The three norm columns flattened. -/
theorem v60_at (i : Fin 4096) :
    (StableHlo.after (hostOps2 (F := Ideal)) W (Proc.devRef .tc main_v60) : S4096.Idx → EReal) (ix1 i)
      = (W (Proc.devRef .tc main_v59) : S4096x1.Idx → EReal) (ix2 i (0 : Fin 1)) := by
  after_results_simp
  exact flat_apply (a := 4096) _ _ _
theorem v62_at (i : Fin 2048) :
    (StableHlo.after (hostOps3 (F := Ideal)) W (Proc.devRef .tc main_v62) : S2048.Idx → EReal) (ix1 i)
      = (W (Proc.devRef .tc main_v61) : S2048x1.Idx → EReal) (ix2 i (0 : Fin 1)) := by
  after_results_simp
  exact flat_apply (a := 2048) _ _ _

/-- The third result: the three flattened norm vectors end to end. -/
theorem v65_eq :
    (StableHlo.after (hostOps4 (F := Ideal)) W (Proc.devRef .tc main_v65) : S14336.Idx → EReal)
      = concatenate S14336 0 [⟨S4096, (W (Proc.devRef .tc main_v60) : S4096.Idx → EReal)⟩, ⟨S2048, (W (Proc.devRef .tc main_v62) : S2048.Idx → EReal)⟩,
          ⟨S8192, (fun i => shapeCast S8192 (W (Proc.devRef .tc main_v63) : S8192x1.Idx → EReal) shapeCasts_S8192x1_S8192 i)⟩]
          concatenates_S4096_S2048_S8192_S14336_d0 := by
  after_results_simp
  after_results_rw
  rfl

end Cert.KernelIdeal.Tail

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.Spec.lean ====
/-
  The specification both programs are compared with, on the extended reals.

  An embedding row is three table rows side by side: columns 0–127 from the track table, 128–255 from the album table,
  256–383 from the artist table. The track and album rows are named by the index word reduced modulo 100000 the way
  `jnp.mod` does it (truncated remainder, moved into the divisor's sign), the artist row by the raw index word; each
  is then wrapped once if negative and clamped into the table, as an indexing gather does.

  The affinity of a query row with the context matrix is the largest inner product of the query row with a context row
  (the fold of `max` from minus infinity), and the norm of a row is the square root of the sum of its squares.
-/
import Idealize.ShloMosaic.Lib.ValueIdx
import Idealize.ShloMosaic.PureOps.Ideal
import proofs.«122344_j23716809409278_2_alg».proof.Proof.LibGatherFlatRows

noncomputable section

open scoped BigOperators

namespace Cert.Spec

open Idealize.ShloMosaic Idealize.ShloMosaic.ValueIdx Cert.LibGatherFlatRows

/-- The divisor `jnp.mod` really divides by: 1 in place of a zero modulus. -/
def divisor (c : BitVec 32) : BitVec 32 := Scalar.select (IntOp.cmpi .eq c 0#32) 1#32 c

/-- `jnp.mod x c` on 32-bit words: the truncated remainder, plus the divisor when it is not zero and its sign differs
    from the divisor's. -/
def pyMod (x c : BitVec 32) : BitVec 32 :=
  Scalar.select
    (IntOp.andi
      (IntOp.cmpi .ne (IntOp.cmpi .slt (IntOp.remsi .host x (divisor c)) 0#32) (IntOp.cmpi .slt (divisor c) 0#32))
      (IntOp.cmpi .ne (IntOp.remsi .host x (divisor c)) 0#32))
    (IntOp.addi (IntOp.remsi .host x (divisor c)) (divisor c))
    (IntOp.remsi .host x (divisor c))

/-- A negative index counts from the end of an axis of extent `n`. -/
def wrap (x n : BitVec 32) : BitVec 32 := Scalar.select (IntOp.cmpi .slt x 0#32) (IntOp.addi x n) x

/-- The row of a 100000-row table that an index word names after `jnp.mod`. -/
def modRow (w : BitVec 32) : Fin 100000 := rowOf 100000 (by decide) (wrap (pyMod w 100000#32) 100000#32)

/-- The row of the 295861-row table that a raw index word names. -/
def rawRow (w : BitVec 32) : Fin 295861 := rowOf 295861 (by decide) (wrap w 295861#32)

abbrev TabA : Shape := ⟨2, ![100000, 128]⟩
abbrev TabR : Shape := ⟨2, ![295861, 128]⟩
abbrev V4096 : Shape := ⟨1, ![4096]⟩
abbrev V2048 : Shape := ⟨1, ![2048]⟩
abbrev V8192 : Shape := ⟨1, ![8192]⟩
abbrev V14336 : Shape := ⟨1, ![14336]⟩

/-- The twelve argument arrays. -/
structure Args where
  a0 : V4096.Idx → BitVec 32
  a1 : V4096.Idx → BitVec 32
  a2 : V4096.Idx → BitVec 32
  a3 : V2048.Idx → BitVec 32
  a4 : V2048.Idx → BitVec 32
  a5 : V2048.Idx → BitVec 32
  a6 : V8192.Idx → BitVec 32
  a7 : V8192.Idx → BitVec 32
  a8 : V8192.Idx → BitVec 32
  tt : TabA.Idx → EReal
  ta : TabA.Idx → EReal
  tr : TabR.Idx → EReal

/-- Entry `k` of the embedding row of a (track, album, artist) index triple. -/
def emb (tt ta : TabA.Idx → EReal) (tr : TabR.Idx → EReal) (wt wa wr : BitVec 32) (k : Fin 384) : EReal :=
  if h : k.val < 128 then tt (ix2 (modRow wt) (⟨k.val, h⟩ : Fin 128))
  else if h2 : k.val < 256 then ta (ix2 (modRow wa) (⟨k.val - 128, by omega⟩ : Fin 128))
  else tr (ix2 (rawRow wr) (⟨k.val - 256, by omega⟩ : Fin 128))

variable (A : Args)

/-- The context, next and negative embedding matrices. -/
def ctx (n : Fin 4096) (k : Fin 384) : EReal := emb A.tt A.ta A.tr (A.a0 (ix1 n)) (A.a1 (ix1 n)) (A.a2 (ix1 n)) k
def nxt (i : Fin 2048) (k : Fin 384) : EReal := emb A.tt A.ta A.tr (A.a3 (ix1 i)) (A.a4 (ix1 i)) (A.a5 (ix1 i)) k
def neg (i : Fin 8192) (k : Fin 384) : EReal := emb A.tt A.ta A.tr (A.a6 (ix1 i)) (A.a7 (ix1 i)) (A.a8 (ix1 i)) k

/-- The largest inner product of a query row with a context row. -/
def aff (q : Fin 384 → EReal) (C : Fin 4096 → Fin 384 → EReal) : EReal :=
  (Finset.univ : Finset (Fin 4096)).fold max (Ideal.ofBits .f32 0xFF800000#32) (fun n => ∑ d : Fin 384, q d * C n d)

/-- The Euclidean norm of a row. -/
def norm (x : Fin 384 → EReal) : EReal := Ideal.sqrt (∑ d : Fin 384, x d * x d)

/-- The three results. -/
def res0 : V2048.Idx → EReal := fun i => aff (nxt A (i 0)) (ctx A)
def res1 : V8192.Idx → EReal := fun i => aff (neg A (i 0)) (ctx A)
def res2 : V14336.Idx → EReal := fun j =>
  if h : (j 0).val < 4096 then norm (ctx A ⟨(j 0).val, h⟩)
  else if h2 : (j 0).val < 6144 then norm (nxt A ⟨(j 0).val - 4096, by omega⟩)
  else norm (neg A ⟨(j 0).val - 6144, by have h3 : (j 0).val < 14336 := (j 0).isLt; omega⟩)

end Cert.Spec

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.EmbRead.lean ====
/-
  Reading one embedding matrix at an entry, for any number of rows `E`.

  The index arithmetic of both programs is spelt on whole vectors: `jnp.mod` as a truncated remainder corrected into
  the divisor's sign, a wrap of negative indices, a vector turned into a column of start indices, a gather of whole
  table rows, and three [E, 128] pieces laid side by side. Here each vector spelling is named once, for any shape, and
  read at an index as the scalar function of the specification; then a gather of rows at such a column is the table
  row the specification names, and the three pieces side by side are read at a column `k` by thirds.
-/
import Idealize.ShloMosaic.Lib.ValueIdx
import Idealize.ShloMosaic.Lib.IdealHost
import Idealize.ShloMosaic.Lib.Pipeline.Value
import proofs.«122344_j23716809409278_2_alg».proof.Proof.Spec
import proofs.«122344_j23716809409278_2_alg».proof.Proof.LibGatherFlatRows
import proofs.«122344_j23716809409278_2_alg».proof.Proof.LibHostRows
import proofs.«122344_j23716809409278_2_alg».proof.Proof.LibConcatSame

noncomputable section

namespace Cert.EmbRead

open Idealize.ShloMosaic Idealize.ShloMosaic.ValueIdx Cert.LibGatherFlatRows

abbrev S0 : Shape := ⟨0, ![]⟩

variable {s : Shape} {α : Type}

/-- A scalar spread over any shape reads the scalar everywhere. -/
theorem spread_apply (hb : S0.BroadcastsInDim s ![]) (y : S0.Idx → α) (i : s.Idx) :
    broadcastInDim s ![] hb y i = y ix0 := broadcastInDim_scalar_apply hb y i

/-- `jnp.mod x c` on a vector `x` with a scalar modulus `c`, in the programs' spelling. -/
def pyModV (hb : S0.BroadcastsInDim s ![]) (x : s.Idx → BitVec 32) (c : S0.Idx → BitVec 32) : s.Idx → BitVec 32 :=
  select
    (andi
      (cmpi .ne
        (cmpi .slt
          (Host.remsi x (broadcastInDim s ![] hb (select (cmpi .eq (id c) (constantI S0 32 0#32)) (constantI S0 32 1#32) (id c))))
          (broadcastInDim s ![] hb (constantI S0 32 0#32)))
        (broadcastInDim s ![] hb
          (cmpi .slt (select (cmpi .eq (id c) (constantI S0 32 0#32)) (constantI S0 32 1#32) (id c)) (constantI S0 32 0#32))))
      (cmpi .ne
        (Host.remsi x (broadcastInDim s ![] hb (select (cmpi .eq (id c) (constantI S0 32 0#32)) (constantI S0 32 1#32) (id c))))
        (broadcastInDim s ![] hb (constantI S0 32 0#32))))
    (addi
      (Host.remsi x (broadcastInDim s ![] hb (select (cmpi .eq (id c) (constantI S0 32 0#32)) (constantI S0 32 1#32) (id c))))
      (broadcastInDim s ![] hb (select (cmpi .eq (id c) (constantI S0 32 0#32)) (constantI S0 32 1#32) (id c))))
    (Host.remsi x (broadcastInDim s ![] hb (select (cmpi .eq (id c) (constantI S0 32 0#32)) (constantI S0 32 1#32) (id c))))

/-- Entry by entry it is the specification's scalar `pyMod`. -/
theorem pyModV_apply (hb : S0.BroadcastsInDim s ![]) (x : s.Idx → BitVec 32) (c : S0.Idx → BitVec 32) (i : s.Idx) :
    pyModV hb x c i = Cert.Spec.pyMod (x i) (c ix0) := by
  unfold pyModV Cert.Spec.pyMod Cert.Spec.divisor
  simp only [select, andi, cmpi, addi, Host.remsi, spread_apply, constantI, id]

/-- A negative index counted from the end of an axis of extent `n`, on a vector, in the programs' spelling. -/
def wrapV (hb : S0.BroadcastsInDim s ![]) (x : s.Idx → BitVec 32) (n : BitVec 32) : s.Idx → BitVec 32 :=
  select (cmpi .slt x (broadcastInDim s ![] hb (constantI S0 32 0#32)))
    (addi x (broadcastInDim s ![] hb (constantI S0 32 n))) x

theorem wrapV_apply (hb : S0.BroadcastsInDim s ![]) (x : s.Idx → BitVec 32) (n : BitVec 32) (i : s.Idx) :
    wrapV hb x n i = Cert.Spec.wrap (x i) n := by
  unfold wrapV Cert.Spec.wrap
  simp only [select, cmpi, addi, spread_apply, constantI]

variable {E : ℕ}

/-- A gather of whole rows of a 100000-row table at the column of the wrapped `jnp.mod` of an index vector reads, at
    `(e, d)`, column `d` of the row the specification names for index word `e`. -/
theorem modGather_apply (hb : S0.BroadcastsInDim ⟨1, ![E]⟩ ![])
    (dims : Fin (⟨1, ![E]⟩ : Shape).rank → Fin (⟨2, ![E, 1]⟩ : Shape).rank) (hd : dims 0 = 0)
    (hcol : (⟨1, ![E]⟩ : Shape).BroadcastsInDim ⟨2, ![E, 1]⟩ dims)
    (wf : GatherDims.WF ⟨2, ![100000, 128]⟩ ⟨2, ![E, 1]⟩ ⟨2, ![E, 128]⟩ [1] [0] [] [0] [] 1 ![1, 128])
    (T : (⟨2, ![100000, 128]⟩ : Shape).Idx → α) (x : (⟨1, ![E]⟩ : Shape).Idx → BitVec 32) (c : S0.Idx → BitVec 32)
    (hc : c ix0 = 100000#32) (e : Fin E) (d : Fin 128) :
    Host.gather (rowDims 100000 128 E wf) T
        (broadcastInDim ⟨2, ![E, 1]⟩ dims hcol (wrapV hb (pyModV hb x c) 100000#32)) (ix2 e d)
      = T (ix2 (Cert.Spec.modRow (x (ix1 e))) d) := by
  rw [gather_rows_apply (by decide : 0 < 100000) wf, Cert.LibHostRows.bcast_a_a1_at dims hd hcol, wrapV_apply, pyModV_apply, hc]
  rfl

/-- The same for the 295861-row table at the column of the wrapped raw index vector. -/
theorem rawGather_apply (hb : S0.BroadcastsInDim ⟨1, ![E]⟩ ![])
    (dims : Fin (⟨1, ![E]⟩ : Shape).rank → Fin (⟨2, ![E, 1]⟩ : Shape).rank) (hd : dims 0 = 0)
    (hcol : (⟨1, ![E]⟩ : Shape).BroadcastsInDim ⟨2, ![E, 1]⟩ dims)
    (wf : GatherDims.WF ⟨2, ![295861, 128]⟩ ⟨2, ![E, 1]⟩ ⟨2, ![E, 128]⟩ [1] [0] [] [0] [] 1 ![1, 128])
    (T : (⟨2, ![295861, 128]⟩ : Shape).Idx → α) (x : (⟨1, ![E]⟩ : Shape).Idx → BitVec 32) (e : Fin E) (d : Fin 128) :
    Host.gather (rowDims 295861 128 E wf) T
        (broadcastInDim ⟨2, ![E, 1]⟩ dims hcol (wrapV hb x 295861#32)) (ix2 e d)
      = T (ix2 (Cert.Spec.rawRow (x (ix1 e))) d) := by
  rw [gather_rows_apply (by decide : 0 < 295861) wf, Cert.LibHostRows.bcast_a_a1_at dims hd hcol, wrapV_apply]
  rfl

/-- Three [E, 128] pieces side by side, read at `(e, k)`: the piece is `k / 128`, its column `k % 128`. -/
theorem cat3_apply (p0 p1 p2 : (⟨2, ![E, 128]⟩ : Shape).Idx → α)
    (h : Shape.Concatenates (([⟨⟨2, ![E, 128]⟩, p0⟩, ⟨⟨2, ![E, 128]⟩, p1⟩, ⟨⟨2, ![E, 128]⟩, p2⟩] :
      List ((s : Shape) × (s.Idx → α))).map (·.1)) ⟨2, ![E, 384]⟩ 1) (e : Fin E) (k : Fin 384) :
    concatenate ⟨2, ![E, 384]⟩ 1 [⟨⟨2, ![E, 128]⟩, p0⟩, ⟨⟨2, ![E, 128]⟩, p1⟩, ⟨⟨2, ![E, 128]⟩, p2⟩] h (ix2 e k)
      = if h1 : k.val < 128 then p0 (ix2 e (⟨k.val, h1⟩ : Fin 128))
        else if h2 : k.val < 256 then p1 (ix2 e (⟨k.val - 128, by omega⟩ : Fin 128))
        else p2 (ix2 e (⟨k.val - 256, by omega⟩ : Fin 128)) := by
  have hk := k.isLt
  by_cases h1 : k.val < 128
  · rw [dif_pos h1]
    refine Cert.LibConcatSame.concat3_apply (t := ⟨2, ![E, 384]⟩) (s₁ := ⟨2, ![E, 128]⟩) (1 : Fin 2) p0 p1 p2 h rfl 128 rfl (ix2 e k) 0 ?_ _ ?_ ?_
    · show k.val / 128 = 0; omega
    · show k.val = k.val % 128; omega
    · intro b hb; match b with
      | ⟨0, _⟩ => rfl
      | ⟨1, _⟩ => exact absurd rfl hb
  · rw [dif_neg h1]
    by_cases h2 : k.val < 256
    · rw [dif_pos h2]
      refine Cert.LibConcatSame.concat3_apply (t := ⟨2, ![E, 384]⟩) (s₁ := ⟨2, ![E, 128]⟩) (1 : Fin 2) p0 p1 p2 h rfl 128 rfl (ix2 e k) 1 ?_ _ ?_ ?_
      · show k.val / 128 = 1; omega
      · show k.val - 128 = k.val % 128; omega
      · intro b hb; match b with
        | ⟨0, _⟩ => rfl
        | ⟨1, _⟩ => exact absurd rfl hb
    · rw [dif_neg h2]
      refine Cert.LibConcatSame.concat3_apply (t := ⟨2, ![E, 384]⟩) (s₁ := ⟨2, ![E, 128]⟩) (1 : Fin 2) p0 p1 p2 h rfl 128 rfl (ix2 e k) 2 ?_ _ ?_ ?_
      · show k.val / 128 = 2; omega
      · show k.val - 256 = k.val % 128; omega
      · intro b hb; match b with
        | ⟨0, _⟩ => rfl
        | ⟨1, _⟩ => exact absurd rfl hb

/-- A whole embedding matrix read at `(e, k)`: the three row gathers side by side are the specification's embedding row of
    the index words at `e`. -/
theorem emb_apply (hb : S0.BroadcastsInDim ⟨1, ![E]⟩ ![])
    (dims : Fin (⟨1, ![E]⟩ : Shape).rank → Fin (⟨2, ![E, 1]⟩ : Shape).rank) (hd : dims 0 = 0)
    (hcol : (⟨1, ![E]⟩ : Shape).BroadcastsInDim ⟨2, ![E, 1]⟩ dims)
    (wfA : GatherDims.WF ⟨2, ![100000, 128]⟩ ⟨2, ![E, 1]⟩ ⟨2, ![E, 128]⟩ [1] [0] [] [0] [] 1 ![1, 128])
    (wfR : GatherDims.WF ⟨2, ![295861, 128]⟩ ⟨2, ![E, 1]⟩ ⟨2, ![E, 128]⟩ [1] [0] [] [0] [] 1 ![1, 128])
    (tt ta : (⟨2, ![100000, 128]⟩ : Shape).Idx → EReal) (tr : (⟨2, ![295861, 128]⟩ : Shape).Idx → EReal)
    (xt xa xr : (⟨1, ![E]⟩ : Shape).Idx → BitVec 32) (c1 c2 : S0.Idx → BitVec 32)
    (hc1 : c1 ix0 = 100000#32) (hc2 : c2 ix0 = 100000#32)
    (h : Shape.Concatenates (([⟨⟨2, ![E, 128]⟩, Host.gather (rowDims 100000 128 E wfA) tt (broadcastInDim ⟨2, ![E, 1]⟩ dims hcol (wrapV hb (pyModV hb xt c1) 100000#32))⟩,
        ⟨⟨2, ![E, 128]⟩, Host.gather (rowDims 100000 128 E wfA) ta (broadcastInDim ⟨2, ![E, 1]⟩ dims hcol (wrapV hb (pyModV hb xa c2) 100000#32))⟩,
        ⟨⟨2, ![E, 128]⟩, Host.gather (rowDims 295861 128 E wfR) tr (broadcastInDim ⟨2, ![E, 1]⟩ dims hcol (wrapV hb xr 295861#32))⟩] :
      List ((s : Shape) × (s.Idx → EReal))).map (·.1)) ⟨2, ![E, 384]⟩ 1) (e : Fin E) (k : Fin 384) :
    concatenate ⟨2, ![E, 384]⟩ 1
        [⟨⟨2, ![E, 128]⟩, Host.gather (rowDims 100000 128 E wfA) tt (broadcastInDim ⟨2, ![E, 1]⟩ dims hcol (wrapV hb (pyModV hb xt c1) 100000#32))⟩,
         ⟨⟨2, ![E, 128]⟩, Host.gather (rowDims 100000 128 E wfA) ta (broadcastInDim ⟨2, ![E, 1]⟩ dims hcol (wrapV hb (pyModV hb xa c2) 100000#32))⟩,
         ⟨⟨2, ![E, 128]⟩, Host.gather (rowDims 295861 128 E wfR) tr (broadcastInDim ⟨2, ![E, 1]⟩ dims hcol (wrapV hb xr 295861#32))⟩] h (ix2 e k)
      = Cert.Spec.emb tt ta tr (xt (ix1 e)) (xa (ix1 e)) (xr (ix1 e)) k := by
  rw [cat3_apply]
  unfold Cert.Spec.emb
  by_cases h1 : k.val < 128
  · rw [dif_pos h1, dif_pos h1]
    exact modGather_apply hb dims hd hcol wfA tt xt c1 hc1 e _
  · rw [dif_neg h1, dif_neg h1]
    by_cases h2 : k.val < 256
    · rw [dif_pos h2, dif_pos h2]
      exact modGather_apply hb dims hd hcol wfA ta xa c2 hc2 e _
    · rw [dif_neg h2, dif_neg h2]
      exact rawGather_apply hb dims hd hcol wfR tr xr e _

end Cert.EmbRead

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelIdeal.HostStretch.lean ====
/-
  The host operations before the first kernel region, stretch by stretch, at an arbitrary incoming valuation `W`: what
  each stretch leaves in the buffers later stretches read, as the vector spellings of the embedding arithmetic
  (`pyModV`, `wrapV`, a gather at a column of start indices, three pieces side by side).
-/
import proofs.«122344_j23716809409278_2_alg».proof.Proof.Gen.KernelIdeal.Regions
import proofs.«122344_j23716809409278_2_alg».proof.Proof.EmbRead
import proofs.«122344_j23716809409278_2_alg».proof.Proof.LibTypedRef
import proofs.«122344_j23716809409278_2_alg».proof.Proof.LibCongr
import proofs.«122344_j23716809409278_2_alg».proof.Proof.LibAfterRw
import Idealize.ShloMosaic.Lib.StableHlo.Run

noncomputable section

open scoped BigOperators

namespace Cert.KernelIdeal.HostStretch

open Idealize.ShloMosaic Idealize.ShloMosaic.ValueIdx Idealize.ShloMosaic.TcCoe Idealize.ShloMosaic.StableHlo
open Cert.KernelIdeal Cert.KernelIdeal.Gen Cert.EmbRead

variable (W : Valuation τ sig (Elt Ideal))

local notation "colA" => broadcastInDim S4096x1 ![0] bcast_S4096_S4096x1_0
local notation "colQ" => broadcastInDim S10240x1 ![0] bcast_S10240_S10240x1_0

/-- The modulus constant. -/
theorem c_eq : (StableHlo.after (hostOps0 (F := Ideal)) W (Proc.devRef .tc main_c) : S_.Idx → BitVec 32) = constantI S_ 32 100000#32 := by
  after_results_simp

/-- The track indices of the context rows, reduced. -/
theorem v0_eq : (StableHlo.after (hostOps0_1 (F := Ideal)) W (Proc.devRef .tc main_v0) : S4096.Idx → BitVec 32)
    = pyModV bcast_S_S4096 (W (Proc.devRef .tc main_arg0)) (W (Proc.devRef .tc main_c)) := by
  after_results_simp
  simp only [Cert.LibTypedRef.ofBuf_toBuf]
  rfl

/-- The track rows of the context matrix, and the next modulus constant. -/
theorem v7_eq : (StableHlo.after (hostOps0_2 (F := Ideal)) W (Proc.devRef .tc main_v7) : S4096x128.Idx → EReal)
    = Host.gather gather_S100000x128_S4096x1_S4096x128_1_0_n_n_0_1_1128 (W (Proc.devRef .tc main_arg9))
        (colA (wrapV bcast_S_S4096 (W (Proc.devRef .tc main_v0)) 100000#32)) := by
  after_results_simp
  rfl
theorem c2_eq : (StableHlo.after (hostOps0_2 (F := Ideal)) W (Proc.devRef .tc main_c_2) : S_.Idx → BitVec 32) = constantI S_ 32 100000#32 := by
  after_results_simp

/-- The album indices of the context rows, reduced. -/
theorem v8_eq : (StableHlo.after (hostOps0_3 (F := Ideal)) W (Proc.devRef .tc main_v8) : S4096.Idx → BitVec 32)
    = pyModV bcast_S_S4096 (W (Proc.devRef .tc main_arg1)) (W (Proc.devRef .tc main_c_2)) := by
  after_results_simp
  simp only [Cert.LibTypedRef.ofBuf_toBuf]
  rfl

end Cert.KernelIdeal.HostStretch

end
-- ==== Proof.LibAfterAt.lean ====
/-
  A straight line of host operations in single-assignment form, read one operation at a time. When every operation
  writes one buffer, no buffer is written twice, and every operand is written before it is read, the contents after
  the WHOLE line satisfy one equation per operation: the buffer it writes holds its function of what its operand
  buffers hold. The side conditions are stated over the list of written references, place by place, so that each is a
  decidable statement about references. General in the signature, the values and the operations.
-/
import Idealize.ShloMosaic.Lib.StableHlo.Run

noncomputable section

namespace Cert.LibAfterAt

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Place by place, the operation writes at most the buffer the reference at that place names. -/
abbrev Writes (ops : List (HloOp τ sig Val)) (ws : List (Ref sig .tc)) : Prop :=
  List.Forall₂ (fun op w => op.writes ⊆ {Proc.devRef (τ := τ) .tc w}) ops ws

/-- Every operation of the line writes inside the listed references. -/
theorem Writes.forall_sub : ∀ {ops : List (HloOp τ sig Val)} {ws : List (Ref sig .tc)}, Writes ops ws →
    ∀ op ∈ ops, op.writes ⊆ (ws.map (Proc.devRef (τ := τ) .tc)).toFinset
  | _, _, .nil, _, h => nomatch h
  | _, _, .cons (b := b) hab t, op, h => by
    rcases List.mem_cons.mp h with rfl | h
    · intro x hx
      have hx' := Finset.mem_singleton.mp (hab hx)
      subst hx'
      simp only [List.map_cons, List.toFinset_cons, Finset.mem_insert, true_or]
    · intro x hx
      have := Writes.forall_sub t op h hx
      simp only [List.map_cons, List.toFinset_cons, Finset.mem_insert]
      exact Or.inr this

/-- The two lists of a line and of what it writes, joined. -/
theorem Writes.append {l₁ l₂ : List (HloOp τ sig Val)} {w₁ w₂ : List (Ref sig .tc)} (h₁ : Writes l₁ w₁)
    (h₂ : Writes l₂ w₂) : Writes (l₁ ++ l₂) (w₁ ++ w₂) := List.rel_append h₁ h₂

/-- A reference that no operation from place `k` on writes holds, after the whole line, what it held after the first
    `k` operations. -/
theorem after_eq_take {ops : List (HloOp τ sig Val)} {ws : List (Ref sig .tc)} (h : Writes ops ws) (k : Nat)
    (V : Valuation τ sig Val) {r : Ref sig .tc} (hr : r ∉ ws.drop k) :
    after ops V (Proc.devRef .tc r) = after (ops.take k) V (Proc.devRef .tc r) := by
  conv_lhs => rw [← List.take_append_drop k ops]
  rw [after_append]
  exact after_of_writes_sub _ _ (List.forall_iff_forall_mem.mpr (Writes.forall_sub (List.forall₂_drop k h))) hr

/-- A reference that no operation after place `k` writes holds, after the whole line, what the operation at place `k`
    leaves there. -/
theorem after_at {ops : List (HloOp τ sig Val)} {ws : List (Ref sig .tc)} (h : Writes ops ws) (k : Nat)
    {op : HloOp τ sig Val} (hk : ops[k]? = some op) (V : Valuation τ sig Val) {r : Ref sig .tc}
    (hr : r ∉ ws.drop (k + 1)) :
    after ops V (Proc.devRef .tc r) = op.result (after (ops.take k) V) (Proc.devRef .tc r) := by
  rw [after_eq_take h (k + 1) V hr]
  have e : ops.take (k + 1) = ops.take k ++ [op] := by rw [List.take_succ, hk]; rfl
  rw [e, after_append]; rfl

/-- A reference the line never writes keeps what it held. -/
theorem after_of_not_mem {ops : List (HloOp τ sig Val)} {ws : List (Ref sig .tc)} (h : Writes ops ws)
    (V : Valuation τ sig Val) {r : Ref sig .tc} (hr : r ∉ ws) :
    after ops V (Proc.devRef .tc r) = V (Proc.devRef .tc r) :=
  after_of_writes_sub _ _ (List.forall_iff_forall_mem.mpr (Writes.forall_sub h)) hr

section Kinds

variable {ops : List (HloOp τ sig Val)} {ws : List (Ref sig .tc)}

/-- The operation at place `k` has no operand: its buffer holds its value. -/
theorem nullary_at (h : Writes ops ws) (k : Nat) (y : Ref sig .tc) (v : y.ty.Contents Val) (hy)
    (hk : ops[k]? = some (nullary y v hy)) (V : Valuation τ sig Val) (hy' : y ∉ ws.drop (k + 1)) :
    after ops V (Proc.devRef .tc y) = v := by
  rw [after_at h k hk V hy', nullary_result]

/-- The operation at place `k` has one operand, written before place `k` or never. -/
theorem unary_at (h : Writes ops ws) (k : Nat) (x y : Ref sig .tc) (f : x.ty.Contents Val → y.ty.Contents Val) (hx hy)
    (hk : ops[k]? = some (unary x y f hx hy)) (V : Valuation τ sig Val) (hy' : y ∉ ws.drop (k + 1))
    (hx' : x ∉ ws.drop k) :
    after ops V (Proc.devRef .tc y) = f (after ops V (Proc.devRef .tc x)) := by
  rw [after_at h k hk V hy', unary_result, ← after_eq_take h k V hx']

/-- The operation at place `k` has two operands. -/
theorem binary_at (h : Writes ops ws) (k : Nat) (a b y : Ref sig .tc) (f : a.ty.Contents Val → b.ty.Contents Val → y.ty.Contents Val) (ha hb hy)
    (hk : ops[k]? = some (binary a b y f ha hb hy)) (V : Valuation τ sig Val) (hy' : y ∉ ws.drop (k + 1))
    (ha' : a ∉ ws.drop k) (hb' : b ∉ ws.drop k) :
    after ops V (Proc.devRef .tc y) = f (after ops V (Proc.devRef .tc a)) (after ops V (Proc.devRef .tc b)) := by
  rw [after_at h k hk V hy', binary_result, ← after_eq_take h k V ha', ← after_eq_take h k V hb']

/-- The operation at place `k` has three operands. -/
theorem ternary_at (h : Writes ops ws) (k : Nat) (c a b y : Ref sig .tc)
    (f : c.ty.Contents Val → a.ty.Contents Val → b.ty.Contents Val → y.ty.Contents Val) (hc ha hb hy)
    (hk : ops[k]? = some (ternary c a b y f hc ha hb hy)) (V : Valuation τ sig Val) (hy' : y ∉ ws.drop (k + 1))
    (hc' : c ∉ ws.drop k) (ha' : a ∉ ws.drop k) (hb' : b ∉ ws.drop k) :
    after ops V (Proc.devRef .tc y)
      = f (after ops V (Proc.devRef .tc c)) (after ops V (Proc.devRef .tc a)) (after ops V (Proc.devRef .tc b)) := by
  rw [after_at h k hk V hy', ternary_result, ← after_eq_take h k V hc', ← after_eq_take h k V ha',
    ← after_eq_take h k V hb']

/-- The operation at place `k` is a change of shape. -/
theorem reshape_at (h : Writes ops ws) (k : Nat) (x y : Ref sig .tc) (he hn hx hy)
    (hk : ops[k]? = some (reshape (Val := Val) x y he hn hx hy)) (V : Valuation τ sig Val)
    (hy' : y ∉ ws.drop (k + 1)) (hx' : x ∉ ws.drop k) :
    after ops V (Proc.devRef .tc y)
      = fun i => he ▸ shapeCast y.ty.shape (after ops V (Proc.devRef .tc x)) hn i := by
  rw [after_at h k hk V hy', reshape_result, ← after_eq_take h k V hx']

/-- The operation at place `k` reads a literal family of three operands. -/
theorem nary3_at (h : Writes ops ws) (k : Nat) (x a b y : Ref sig .tc)
    (f : ((j : Fin 3) → ((![x, a, b] : Fin 3 → Ref sig .tc) j).ty.Contents Val) → y.ty.Contents Val) (hxs hy)
    (hk : ops[k]? = some (nary ![x, a, b] y f hxs hy)) (V : Valuation τ sig Val) (hy' : y ∉ ws.drop (k + 1))
    (hx' : x ∉ ws.drop k) (ha' : a ∉ ws.drop k) (hb' : b ∉ ws.drop k) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_at h k hk V hy', nary_result]
  congr 1; funext j; fin_cases j
  · exact (after_eq_take h k V hx').symm
  · exact (after_eq_take h k V ha').symm
  · exact (after_eq_take h k V hb').symm

end Kinds

end Cert.LibAfterAt

end
-- ==== Proof.KernelIdeal.HostStretch2.lean ====
/-
  The later host stretches before the first kernel region, at an arbitrary incoming valuation `W`: the album and
  artist rows and the context matrix, the index vectors of the next and negative rows laid end to end, their reduced
  track and album indices, the three row gathers of the query matrix, the query matrix, and the two matrices the
  affinity kernel is given (the format change is the identity on the extended reals).
-/
import proofs.«122344_j23716809409278_2_alg».proof.Proof.Gen.KernelIdeal.Regions
import proofs.«122344_j23716809409278_2_alg».proof.Proof.EmbRead
import proofs.«122344_j23716809409278_2_alg».proof.Proof.LibTypedRef
import proofs.«122344_j23716809409278_2_alg».proof.Proof.LibCongr
import proofs.«122344_j23716809409278_2_alg».proof.Proof.LibAfterRw
import proofs.«122344_j23716809409278_2_alg».proof.Proof.LibAfterAt
import Idealize.ShloMosaic.Lib.StableHlo.Run

noncomputable section

open scoped BigOperators

namespace Cert.KernelIdeal.HostStretch

open Idealize.ShloMosaic Idealize.ShloMosaic.ValueIdx Idealize.ShloMosaic.TcCoe Idealize.ShloMosaic.StableHlo
open Cert.KernelIdeal Cert.KernelIdeal.Gen Cert.EmbRead

variable (W : Valuation τ sig (Elt Ideal))

local notation "colA" => broadcastInDim S4096x1 ![0] bcast_S4096_S4096x1_0
local notation "colQ" => broadcastInDim S10240x1 ![0] bcast_S10240_S10240x1_0

/-- The album rows and the artist rows of the context matrix. -/
def v15t : S4096x128.Idx → EReal :=
  Host.gather gather_S100000x128_S4096x1_S4096x128_1_0_n_n_0_1_1128 (W (Proc.devRef .tc main_arg10))
    (colA (wrapV bcast_S_S4096 (W (Proc.devRef .tc main_v8)) 100000#32))
def v22t : S4096x128.Idx → EReal :=
  Host.gather gather_S295861x128_S4096x1_S4096x128_1_0_n_n_0_1_1128 (W (Proc.devRef .tc main_arg11))
    (colA (wrapV bcast_S_S4096 (W (Proc.devRef .tc main_arg2)) 295861#32))

/-- Place by place, each operation of this stretch writes the one listed buffer. -/
theorem writes4 : Cert.LibAfterAt.Writes (hostOps0_4 (F := Ideal)) hostOps0_4_W := by
  repeat (first | exact List.Forall₂.nil | refine List.Forall₂.cons (Finset.Subset.refl _) ?_)

theorem v15_eq : (StableHlo.after (hostOps0_4 (F := Ideal)) W (Proc.devRef .tc main_v15) : S4096x128.Idx → EReal) = v15t W := by
  rw [Cert.LibAfterAt.after_eq_take writes4 18 W (r := main_v15) (by decide)]
  simp only [hostOps0_4, List.take_succ_cons, List.take_zero]
  after_results_simp
  rfl
theorem v22_eq : (StableHlo.after (hostOps0_4 (F := Ideal)) W (Proc.devRef .tc main_v22) : S4096x128.Idx → EReal) = v22t W := by
  rw [Cert.LibAfterAt.after_eq_take writes4 18 W (r := main_v22) (by decide)]
  simp only [hostOps0_4, List.take_succ_cons, List.take_zero]
  after_results_simp
  rfl

/-- The context matrix: the three row gathers side by side. -/
theorem v23_eq : (StableHlo.after (hostOps0_4 (F := Ideal)) W (Proc.devRef .tc main_v23) : S4096x384.Idx → EReal)
    = concatenate S4096x384 1 [⟨S4096x128, (W (Proc.devRef .tc main_v7) : S4096x128.Idx → EReal)⟩, ⟨S4096x128, v15t W⟩, ⟨S4096x128, v22t W⟩]
        concatenates_S4096x128_S4096x128_S4096x128_S4096x384_d1 := by
  refine (Cert.LibAfterAt.nary3_at writes4 18 main_v7 main_v15 main_v22 main_v23 _ _ _ rfl W (by decide) (by decide) (by decide) (by decide)).trans ?_
  show concatenate S4096x384 1 [⟨S4096x128, StableHlo.after (hostOps0_4 (F := Ideal)) W (Proc.devRef .tc main_v7)⟩,
      ⟨S4096x128, StableHlo.after (hostOps0_4 (F := Ideal)) W (Proc.devRef .tc main_v15)⟩,
      ⟨S4096x128, StableHlo.after (hostOps0_4 (F := Ideal)) W (Proc.devRef .tc main_v22)⟩] _ = _
  rw [v15_eq, v22_eq, Cert.LibAfterAt.after_of_not_mem writes4 W (r := main_v7) (by decide)]

/-- The index vectors of the next rows and of the negative rows, end to end. -/
theorem v24_eq : (StableHlo.after (hostOps0_4 (F := Ideal)) W (Proc.devRef .tc main_v24) : S10240.Idx → BitVec 32)
    = concatenate S10240 0 [⟨S2048, (W (Proc.devRef .tc main_arg3) : S2048.Idx → BitVec 32)⟩, ⟨S8192, (W (Proc.devRef .tc main_arg6) : S8192.Idx → BitVec 32)⟩] concatenates_S2048_S8192_S10240_d0 := by
  refine (Cert.LibAfterAt.binary_at writes4 19 main_arg3 main_arg6 main_v24 _ _ _ _ rfl W (by decide) (by decide) (by decide)).trans ?_
  rw [Cert.LibAfterAt.after_of_not_mem writes4 W (r := main_arg3) (by decide), Cert.LibAfterAt.after_of_not_mem writes4 W (r := main_arg6) (by decide)]
theorem v25_eq : (StableHlo.after (hostOps0_4 (F := Ideal)) W (Proc.devRef .tc main_v25) : S10240.Idx → BitVec 32)
    = concatenate S10240 0 [⟨S2048, (W (Proc.devRef .tc main_arg4) : S2048.Idx → BitVec 32)⟩, ⟨S8192, (W (Proc.devRef .tc main_arg7) : S8192.Idx → BitVec 32)⟩] concatenates_S2048_S8192_S10240_d0 := by
  refine (Cert.LibAfterAt.binary_at writes4 20 main_arg4 main_arg7 main_v25 _ _ _ _ rfl W (by decide) (by decide) (by decide)).trans ?_
  rw [Cert.LibAfterAt.after_of_not_mem writes4 W (r := main_arg4) (by decide), Cert.LibAfterAt.after_of_not_mem writes4 W (r := main_arg7) (by decide)]
theorem v26_eq : (StableHlo.after (hostOps0_4 (F := Ideal)) W (Proc.devRef .tc main_v26) : S10240.Idx → BitVec 32)
    = concatenate S10240 0 [⟨S2048, (W (Proc.devRef .tc main_arg5) : S2048.Idx → BitVec 32)⟩, ⟨S8192, (W (Proc.devRef .tc main_arg8) : S8192.Idx → BitVec 32)⟩] concatenates_S2048_S8192_S10240_d0 := by
  refine (Cert.LibAfterAt.binary_at writes4 21 main_arg5 main_arg8 main_v26 _ _ _ _ rfl W (by decide) (by decide) (by decide)).trans ?_
  rw [Cert.LibAfterAt.after_of_not_mem writes4 W (r := main_arg5) (by decide), Cert.LibAfterAt.after_of_not_mem writes4 W (r := main_arg8) (by decide)]
theorem c7_eq : (StableHlo.after (hostOps0_4 (F := Ideal)) W (Proc.devRef .tc main_c_7) : S_.Idx → BitVec 32) = constantI S_ 32 100000#32 :=
  Cert.LibAfterAt.nullary_at writes4 22 main_c_7 _ _ rfl W (by decide)

/-- The track indices of the query rows, reduced. -/
theorem v27_eq : (StableHlo.after (hostOps0_5 (F := Ideal)) W (Proc.devRef .tc main_v27) : S10240.Idx → BitVec 32)
    = pyModV bcast_S_S10240 (W (Proc.devRef .tc main_v24)) (W (Proc.devRef .tc main_c_7)) := by
  after_results_simp
  simp only [Cert.LibTypedRef.ofBuf_toBuf]
  rfl

/-- The track rows of the query matrix, and the next modulus constant. -/
theorem v34_eq : (StableHlo.after (hostOps0_6 (F := Ideal)) W (Proc.devRef .tc main_v34) : S10240x128.Idx → EReal)
    = Host.gather gather_S100000x128_S10240x1_S10240x128_1_0_n_n_0_1_1128 (W (Proc.devRef .tc main_arg9))
        (colQ (wrapV bcast_S_S10240 (W (Proc.devRef .tc main_v27)) 100000#32)) := by
  after_results_simp
  rfl
theorem c10_eq : (StableHlo.after (hostOps0_6 (F := Ideal)) W (Proc.devRef .tc main_c_10) : S_.Idx → BitVec 32) = constantI S_ 32 100000#32 := by
  after_results_simp

/-- The album indices of the query rows, reduced. -/
theorem v35_eq : (StableHlo.after (hostOps0_7 (F := Ideal)) W (Proc.devRef .tc main_v35) : S10240.Idx → BitVec 32)
    = pyModV bcast_S_S10240 (W (Proc.devRef .tc main_v25)) (W (Proc.devRef .tc main_c_10)) := by
  after_results_simp
  simp only [Cert.LibTypedRef.ofBuf_toBuf]
  rfl

/-- The album rows and the artist rows of the query matrix. -/
def v42t : S10240x128.Idx → EReal :=
  Host.gather gather_S100000x128_S10240x1_S10240x128_1_0_n_n_0_1_1128 (W (Proc.devRef .tc main_arg10))
    (colQ (wrapV bcast_S_S10240 (W (Proc.devRef .tc main_v35)) 100000#32))
def v49t : S10240x128.Idx → EReal :=
  Host.gather gather_S295861x128_S10240x1_S10240x128_1_0_n_n_0_1_1128 (W (Proc.devRef .tc main_arg11))
    (colQ (wrapV bcast_S_S10240 (W (Proc.devRef .tc main_v26)) 295861#32))

/-- The query matrix: the three row gathers side by side. -/
def v50t : S10240x384.Idx → EReal :=
  concatenate S10240x384 1 [⟨S10240x128, (W (Proc.devRef .tc main_v34) : S10240x128.Idx → EReal)⟩, ⟨S10240x128, v42t W⟩, ⟨S10240x128, v49t W⟩]
    concatenates_S10240x128_S10240x128_S10240x128_S10240x384_d1

theorem v50_eq : (StableHlo.after (hostOps0_8 (F := Ideal)) W (Proc.devRef .tc main_v50) : S10240x384.Idx → EReal) = v50t W := by
  after_results_simp
  after_results_rw
  rfl

/-- What the affinity kernel is given: the context matrix and the query matrix, entry for entry. -/
theorem v51_at (i : S4096x384.Idx) : (StableHlo.after (hostOps0_8 (F := Ideal)) W (Proc.devRef .tc main_v51) : S4096x384.Idx → EReal) i
    = (W (Proc.devRef .tc main_v23) : S4096x384.Idx → EReal) i := by
  after_results_simp
  rfl
theorem v52_at (i : S10240x384.Idx) : (StableHlo.after (hostOps0_8 (F := Ideal)) W (Proc.devRef .tc main_v52) : S10240x384.Idx → EReal) i
    = v50t W i := by
  after_results_simp
  after_results_rw
  rfl

end Cert.KernelIdeal.HostStretch

end
-- ==== Proof.KernelIdeal.HostValue.lean ====
/-
  The matrices the kernel regions are given, entry by entry, as the specification's embedding matrices.

  Walking the host stretches before the first region from the launch memory: the context matrix `main_v23` is the
  specification's `ctx`; the query matrix `main_v50` gathers at the next rows' index vectors followed by the negative
  rows' index vectors, so its first 2048 rows are `nxt` and its last 8192 rows are `neg`; the two matrices handed to
  the affinity region are these, the change of float format being the identity on the extended reals.
-/
import proofs.«122344_j23716809409278_2_alg».proof.Proof.KernelIdeal.HostStretch
import proofs.«122344_j23716809409278_2_alg».proof.Proof.KernelIdeal.HostStretch2
import proofs.«122344_j23716809409278_2_alg».proof.Proof.Spec
import proofs.«122344_j23716809409278_2_alg».proof.Proof.EmbRead
import Idealize.ShloMosaic.Lib.Pipeline.Value

noncomputable section

open scoped BigOperators

namespace Cert.KernelIdeal.HostValue

open Idealize.ShloMosaic Idealize.ShloMosaic.ValueIdx Idealize.ShloMosaic.TcCoe Idealize.ShloMosaic.StableHlo
open Cert.KernelIdeal Cert.KernelIdeal.Gen Cert.EmbRead Cert.LibGatherFlatRows Cert.KernelIdeal.HostStretch

variable (m : (ℓ : Loc nD τ sig) → Buf (Elt Ideal) ℓ) (c : Dev nD)

/-- The twelve argument arrays as launched. -/
def args : Cert.Spec.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  tt := m ((c.tc : Thread nD τ).loc main_arg9)
  ta := m ((c.tc : Thread nD τ).loc main_arg10)
  tr := m ((c.tc : Thread nD τ).loc main_arg11)

/-! ## A buffer no stretch so far writes holds its launch contents -/

theorem keep1 (r : Ref sig .tc) (h1 : r ∉ hostOps0_W := by decide) : Gen.V1 m c r = m ((c.tc : Thread nD τ).loc r) :=
  V1_of m c r h1
theorem keep2 (r : Ref sig .tc) (h2 : r ∉ hostOps0_1_W := by decide) (h1 : r ∉ hostOps0_W := by decide) :
    Gen.V2 m c r = m ((c.tc : Thread nD τ).loc r) := (V2_of m c r h2).trans (keep1 m c r h1)
theorem keep3 (r : Ref sig .tc) (h3 : r ∉ hostOps0_2_W := by decide) (h2 : r ∉ hostOps0_1_W := by decide) (h1 : r ∉ hostOps0_W := by decide) :
    Gen.V3 m c r = m ((c.tc : Thread nD τ).loc r) := (V3_of m c r h3).trans (keep2 m c r h2 h1)
theorem keep4 (r : Ref sig .tc) (h4 : r ∉ hostOps0_3_W := by decide) (h3 : r ∉ hostOps0_2_W := by decide) (h2 : r ∉ hostOps0_1_W := by decide) (h1 : r ∉ hostOps0_W := by decide) :
    Gen.V4 m c r = m ((c.tc : Thread nD τ).loc r) := (V4_of m c r h4).trans (keep3 m c r h3 h2 h1)
theorem keep5 (r : Ref sig .tc) (h5 : r ∉ hostOps0_4_W := by decide) (h4 : r ∉ hostOps0_3_W := by decide) (h3 : r ∉ hostOps0_2_W := by decide) (h2 : r ∉ hostOps0_1_W := by decide) (h1 : r ∉ hostOps0_W := by decide) :
    Gen.V5 m c r = m ((c.tc : Thread nD τ).loc r) := (V5_of m c r h5).trans (keep4 m c r h4 h3 h2 h1)
theorem keep6 (r : Ref sig .tc) (h6 : r ∉ hostOps0_5_W := by decide) (h5 : r ∉ hostOps0_4_W := by decide) (h4 : r ∉ hostOps0_3_W := by decide) (h3 : r ∉ hostOps0_2_W := by decide) (h2 : r ∉ hostOps0_1_W := by decide) (h1 : r ∉ hostOps0_W := by decide) :
    Gen.V6 m c r = m ((c.tc : Thread nD τ).loc r) := (V6_of m c r h6).trans (keep5 m c r h5 h4 h3 h2 h1)
theorem keep7 (r : Ref sig .tc) (h7 : r ∉ hostOps0_6_W := by decide) (h6 : r ∉ hostOps0_5_W := by decide) (h5 : r ∉ hostOps0_4_W := by decide) (h4 : r ∉ hostOps0_3_W := by decide) (h3 : r ∉ hostOps0_2_W := by decide) (h2 : r ∉ hostOps0_1_W := by decide) (h1 : r ∉ hostOps0_W := by decide) :
    Gen.V7 m c r = m ((c.tc : Thread nD τ).loc r) := (V7_of m c r h7).trans (keep6 m c r h6 h5 h4 h3 h2 h1)
theorem keep8 (r : Ref sig .tc) (h8 : r ∉ hostOps0_7_W := by decide) (h7 : r ∉ hostOps0_6_W := by decide) (h6 : r ∉ hostOps0_5_W := by decide) (h5 : r ∉ hostOps0_4_W := by decide) (h4 : r ∉ hostOps0_3_W := by decide) (h3 : r ∉ hostOps0_2_W := by decide) (h2 : r ∉ hostOps0_1_W := by decide) (h1 : r ∉ hostOps0_W := by decide) :
    Gen.V8 m c r = m ((c.tc : Thread nD τ).loc r) := (V8_of m c r h8).trans (keep7 m c r h7 h6 h5 h4 h3 h2 h1)

/-! ## The context matrix -/

local notation "colA" => broadcastInDim S4096x1 ![0] bcast_S4096_S4096x1_0
local notation "colQ" => broadcastInDim S10240x1 ![0] bcast_S10240_S10240x1_0

/-- The context matrix as the three row gathers of the launch arrays, side by side. -/
theorem v23_fn : (Gen.V9 m c main_v23 : S4096x384.Idx → EReal)
    = concatenate S4096x384 1
        [⟨S4096x128, Host.gather gather_S100000x128_S4096x1_S4096x128_1_0_n_n_0_1_1128 (m ((c.tc : Thread nD τ).loc main_arg9))
            (colA (wrapV bcast_S_S4096 (pyModV bcast_S_S4096 (m ((c.tc : Thread nD τ).loc main_arg0)) (constantI S_ 32 100000#32)) 100000#32))⟩,
         ⟨S4096x128, Host.gather gather_S100000x128_S4096x1_S4096x128_1_0_n_n_0_1_1128 (m ((c.tc : Thread nD τ).loc main_arg10))
            (colA (wrapV bcast_S_S4096 (pyModV bcast_S_S4096 (m ((c.tc : Thread nD τ).loc main_arg1)) (constantI S_ 32 100000#32)) 100000#32))⟩,
         ⟨S4096x128, Host.gather gather_S295861x128_S4096x1_S4096x128_1_0_n_n_0_1_1128 (m ((c.tc : Thread nD τ).loc main_arg11))
            (colA (wrapV bcast_S_S4096 (m ((c.tc : Thread nD τ).loc main_arg2)) 295861#32))⟩]
        concatenates_S4096x128_S4096x128_S4096x128_S4096x384_d1 := by
  have e9 : Gen.V9 m c main_v23 = Gen.V5 m c main_v23 :=
    (V9_of m c main_v23 (by decide)).trans <| (V8_of m c main_v23 (by decide)).trans <|
      (V7_of m c main_v23 (by decide)).trans (V6_of m c main_v23 (by decide))
  rw [e9]
  refine (v23_eq (Gen.V4 m c)).trans ?_
  unfold v15t v22t
  have h7 : Gen.V4 m c main_v7 = Gen.V3 m c main_v7 := V4_of m c main_v7 (by decide)
  rw [h7]
  rw [show Gen.V3 m c (Proc.devRef .tc main_v7) = _ from v7_eq (Gen.V2 m c)]
  rw [show Gen.V2 m c (Proc.devRef .tc main_v0) = _ from v0_eq (Gen.V1 m c)]
  rw [show Gen.V1 m c (Proc.devRef .tc main_c) = _ from c_eq (Gen.V0 m c)]
  rw [show Gen.V4 m c (Proc.devRef .tc main_v8) = _ from v8_eq (Gen.V3 m c)]
  rw [show Gen.V3 m c (Proc.devRef .tc main_c_2) = _ from c2_eq (Gen.V2 m c)]
  rw [keep1 m c main_arg0, keep2 m c main_arg9, keep3 m c main_arg1, keep4 m c main_arg10, keep4 m c main_arg11, keep4 m c main_arg2]

/-- Entry `(n, k)` of the context matrix is the specification's. -/
theorem ctx_at (n : Fin 4096) (k : Fin 384) :
    (Gen.V9 m c main_v23 : S4096x384.Idx → EReal) (ix2 n k) = Cert.Spec.ctx (args m c) n k := by
  rw [v23_fn]
  exact emb_apply (E := 4096) bcast_S_S4096 ![0] rfl bcast_S4096_S4096x1_0
    gather_S100000x128_S4096x1_S4096x128_1_0_n_n_0_1_1128_wf gather_S295861x128_S4096x1_S4096x128_1_0_n_n_0_1_1128_wf
    _ _ _ _ _ _ _ _ rfl rfl _ n k

/-! ## The query matrix -/

/-- The three index vectors of the query rows: the next rows' followed by the negative rows'. -/
def q24 : S10240.Idx → BitVec 32 := concatenate S10240 0 [⟨S2048, (m ((c.tc : Thread nD τ).loc main_arg3) : S2048.Idx → BitVec 32)⟩, ⟨S8192, (m ((c.tc : Thread nD τ).loc main_arg6) : S8192.Idx → BitVec 32)⟩] concatenates_S2048_S8192_S10240_d0
def q25 : S10240.Idx → BitVec 32 := concatenate S10240 0 [⟨S2048, (m ((c.tc : Thread nD τ).loc main_arg4) : S2048.Idx → BitVec 32)⟩, ⟨S8192, (m ((c.tc : Thread nD τ).loc main_arg7) : S8192.Idx → BitVec 32)⟩] concatenates_S2048_S8192_S10240_d0
def q26 : S10240.Idx → BitVec 32 := concatenate S10240 0 [⟨S2048, (m ((c.tc : Thread nD τ).loc main_arg5) : S2048.Idx → BitVec 32)⟩, ⟨S8192, (m ((c.tc : Thread nD τ).loc main_arg8) : S8192.Idx → BitVec 32)⟩] concatenates_S2048_S8192_S10240_d0

/-- Two vectors end to end, read in the first and in the second. -/
theorem cat2_lo (a : S2048.Idx → BitVec 32) (b : S8192.Idx → BitVec 32) (i : Fin 2048) :
    concatenate S10240 0 [⟨S2048, a⟩, ⟨S8192, b⟩] concatenates_S2048_S8192_S10240_d0 (ix1 (⟨i.val, by omega⟩ : Fin 10240)) = a (ix1 i) :=
  concatenate_pair_apply_left (t := S10240) (s₁ := S2048) (s₂ := S8192) (0 : Fin 1) a b concatenates_S2048_S8192_S10240_d0 (ix1 (⟨i.val, by omega⟩ : Fin 10240)) rfl (ix1 i) (fun b => by
    match b with
    | ⟨0, _⟩ => rfl)
theorem cat2_hi (a : S2048.Idx → BitVec 32) (b : S8192.Idx → BitVec 32) (i : Fin 8192) :
    concatenate S10240 0 [⟨S2048, a⟩, ⟨S8192, b⟩] concatenates_S2048_S8192_S10240_d0 (ix1 (⟨2048 + i.val, by omega⟩ : Fin 10240)) = b (ix1 i) :=
  concatenate_pair_apply_right (t := S10240) (s₁ := S2048) (s₂ := S8192) (0 : Fin 1) a b concatenates_S2048_S8192_S10240_d0 (ix1 (⟨2048 + i.val, by omega⟩ : Fin 10240)) rfl rfl (ix1 i)
    (fun b hb => by
      match b with
      | ⟨0, _⟩ => exact absurd rfl hb)
    (by show i.val + 2048 = 2048 + i.val; omega)

/-- The query matrix as the three row gathers of the launch arrays at those index vectors, side by side. -/
theorem v50_fn : (Gen.V9 m c main_v50 : S10240x384.Idx → EReal)
    = concatenate S10240x384 1
        [⟨S10240x128, Host.gather gather_S100000x128_S10240x1_S10240x128_1_0_n_n_0_1_1128 (m ((c.tc : Thread nD τ).loc main_arg9))
            (colQ (wrapV bcast_S_S10240 (pyModV bcast_S_S10240 (q24 m c) (constantI S_ 32 100000#32)) 100000#32))⟩,
         ⟨S10240x128, Host.gather gather_S100000x128_S10240x1_S10240x128_1_0_n_n_0_1_1128 (m ((c.tc : Thread nD τ).loc main_arg10))
            (colQ (wrapV bcast_S_S10240 (pyModV bcast_S_S10240 (q25 m c) (constantI S_ 32 100000#32)) 100000#32))⟩,
         ⟨S10240x128, Host.gather gather_S295861x128_S10240x1_S10240x128_1_0_n_n_0_1_1128 (m ((c.tc : Thread nD τ).loc main_arg11))
            (colQ (wrapV bcast_S_S10240 (q26 m c) 295861#32))⟩]
        concatenates_S10240x128_S10240x128_S10240x128_S10240x384_d1 := by
  refine (v50_eq (Gen.V8 m c)).trans ?_
  unfold v50t v42t v49t q24 q25 q26
  rw [show Gen.V8 m c (Proc.devRef .tc main_v34) = Gen.V7 m c (Proc.devRef .tc main_v34) from V8_of m c main_v34 (by decide)]
  rw [show Gen.V7 m c (Proc.devRef .tc main_v34) = _ from v34_eq (Gen.V6 m c)]
  rw [show Gen.V6 m c (Proc.devRef .tc main_v27) = _ from v27_eq (Gen.V5 m c)]
  rw [show Gen.V5 m c (Proc.devRef .tc main_v24) = _ from v24_eq (Gen.V4 m c)]
  rw [show Gen.V5 m c (Proc.devRef .tc main_c_7) = _ from c7_eq (Gen.V4 m c)]
  rw [show Gen.V8 m c (Proc.devRef .tc main_v35) = _ from v35_eq (Gen.V7 m c)]
  rw [show Gen.V7 m c (Proc.devRef .tc main_c_10) = _ from c10_eq (Gen.V6 m c)]
  rw [show Gen.V7 m c (Proc.devRef .tc main_v25) = Gen.V5 m c (Proc.devRef .tc main_v25) from
    (V7_of m c main_v25 (by decide)).trans (V6_of m c main_v25 (by decide))]
  rw [show Gen.V5 m c (Proc.devRef .tc main_v25) = _ from v25_eq (Gen.V4 m c)]
  rw [show Gen.V8 m c (Proc.devRef .tc main_v26) = Gen.V5 m c (Proc.devRef .tc main_v26) from
    (V8_of m c main_v26 (by decide)).trans <| (V7_of m c main_v26 (by decide)).trans (V6_of m c main_v26 (by decide))]
  rw [show Gen.V5 m c (Proc.devRef .tc main_v26) = _ from v26_eq (Gen.V4 m c)]
  rw [keep6 m c main_arg9, keep8 m c main_arg10, keep8 m c main_arg11, keep4 m c main_arg3, keep4 m c main_arg6,
    keep4 m c main_arg4, keep4 m c main_arg7, keep4 m c main_arg5, keep4 m c main_arg8]

/-- Entry `(e, k)` of the query matrix: the embedding row of the index words at `e`. -/
theorem qn_at (e : Fin 10240) (k : Fin 384) :
    (Gen.V9 m c main_v50 : S10240x384.Idx → EReal) (ix2 e k)
      = Cert.Spec.emb (args m c).tt (args m c).ta (args m c).tr (q24 m c (ix1 e)) (q25 m c (ix1 e)) (q26 m c (ix1 e)) k := by
  rw [v50_fn]
  exact emb_apply (E := 10240) bcast_S_S10240 ![0] rfl bcast_S10240_S10240x1_0
    gather_S100000x128_S10240x1_S10240x128_1_0_n_n_0_1_1128_wf gather_S295861x128_S10240x1_S10240x128_1_0_n_n_0_1_1128_wf
    _ _ _ _ _ _ _ _ rfl rfl _ e k

/-- Its first 2048 rows are the next rows … -/
theorem qn_lo (i : Fin 2048) (k : Fin 384) :
    (Gen.V9 m c main_v50 : S10240x384.Idx → EReal) (ix2 (⟨i.val, by omega⟩ : Fin 10240) k) = Cert.Spec.nxt (args m c) i k := by
  rw [qn_at]
  unfold q24 q25 q26 Cert.Spec.nxt
  rw [cat2_lo, cat2_lo, cat2_lo]
  rfl

/-- … and its last 8192 rows the negative rows. -/
theorem qn_hi (i : Fin 8192) (k : Fin 384) :
    (Gen.V9 m c main_v50 : S10240x384.Idx → EReal) (ix2 (⟨2048 + i.val, by omega⟩ : Fin 10240) k) = Cert.Spec.neg (args m c) i k := by
  rw [qn_at]
  unfold q24 q25 q26 Cert.Spec.neg
  rw [cat2_hi, cat2_hi, cat2_hi]
  rfl

/-! ## What the affinity region is given -/

theorem v51_at' (n : Fin 4096) (k : Fin 384) :
    (Gen.V9 m c main_v51 : S4096x384.Idx → EReal) (ix2 n k) = Cert.Spec.ctx (args m c) n k := by
  refine (v51_at (Gen.V8 m c) (ix2 n k)).trans ?_
  rw [← show Gen.V9 m c (Proc.devRef .tc main_v23) = Gen.V8 m c (Proc.devRef .tc main_v23) from V9_of m c main_v23 (by decide)]
  exact ctx_at m c n k

theorem v52_at' (e : Fin 10240) (k : Fin 384) :
    (Gen.V9 m c main_v52 : S10240x384.Idx → EReal) (ix2 e k) = (Gen.V9 m c main_v50 : S10240x384.Idx → EReal) (ix2 e k) := by
  refine (v52_at (Gen.V8 m c) (ix2 e k)).trans ?_
  exact (congrFun (v50_eq (Gen.V8 m c)) (ix2 e k)).symm

end Cert.KernelIdeal.HostValue

end
-- ==== Proof.KernelIdeal.Value.lean ====
/-
  The kernel program's three results as the specification's, on the extended reals.

  From the last valuation back: the first two results are the affinity column's first 2048 and last 8192 entries; the
  affinity column is what the first region leaves — row by row the largest inner product of a query row with a
  context row; the query matrix's first 2048 rows are the next rows and its last 8192 the negative rows. The third
  result lays the three norm columns end to end, and each region's norm column is, row by row, the norm of the
  matching embedding row.
-/
import proofs.«122344_j23716809409278_2_alg».proof.Proof.KernelIdeal.Stages
import proofs.«122344_j23716809409278_2_alg».proof.Proof.KernelIdeal.Arrays
import proofs.«122344_j23716809409278_2_alg».proof.Proof.KernelIdeal.Tail
import proofs.«122344_j23716809409278_2_alg».proof.Proof.KernelIdeal.HostValue
import proofs.«122344_j23716809409278_2_alg».proof.Proof.Spec
import Idealize.ShloMosaic.Lib.Pipeline.Value

noncomputable section

open scoped BigOperators

namespace Cert.KernelIdeal.Value

open Idealize.ShloMosaic Idealize.ShloMosaic.ValueIdx Idealize.ShloMosaic.TcCoe Idealize.ShloMosaic.StableHlo
open Cert.KernelIdeal Cert.KernelIdeal.Gen Cert.KernelIdeal.Hand Cert.KernelIdeal.HostValue Cert.KernelIdeal.Tail

variable (m : (ℓ : Loc nD τ sig) → Buf (Elt Ideal) ℓ) (c : Dev nD)

/-! ## The affinity column -/

/-- After the first region the affinity column holds what the region leaves. -/
theorem V10_v53 : Gen.V10 m (outs m) c main_v53 = X0 m c := by
  show Function.update (Gen.V9 m c) (Proc.devRef .tc main_v53) (outs m 10 main_v53 c) (Proc.devRef .tc main_v53) = _
  rw [Function.update_self, outs_v53]

/-- Row `e` of the affinity column: the affinity of query row `e` with the context matrix. -/
theorem aff_row (e : Fin 10240) (u : Fin 1) (q : Fin 384 → EReal)
    (hq : ∀ d, (Gen.V9 m c main_v50 : S10240x384.Idx → EReal) (ix2 e d) = q d) :
    (X0 m c : S10240x1.Idx → EReal) (ix2 e u) = Cert.Spec.aff q (Cert.Spec.ctx (args m c)) := by
  rw [X0_apply, G0_apply]
  unfold Cert.Spec.aff
  refine congrArg (fun f => (Finset.univ : Finset (Fin 4096)).fold max (Ideal.ofBits .f32 0xFF800000#32) f) (funext fun n => ?_)
  refine Finset.sum_congr rfl fun d _ => ?_
  rw [v52_at', hq d, v51_at']

theorem res0_eq : (Gen.V17 m (outs m) c main_v55 : S2048.Idx → EReal) = Cert.Spec.res0 (args m c) := by
  funext j
  obtain ⟨i, rfl⟩ : ∃ i : Fin 2048, j = ix1 i := ⟨j 0, eq_ix1 j⟩
  have e : Gen.V17 m (outs m) c main_v55 = Gen.V11 m (outs m) c main_v55 :=
    (V17_of m (outs m) c main_v55 (by decide)).trans <| (V16_of m (outs m) c main_v55 (by decide)).trans <|
      (V15_of m (outs m) c main_v55 (by decide)).trans <| (V14_of m (outs m) c main_v55 (by decide)).trans <|
        (V13_of m (outs m) c main_v55 (by decide)).trans (V12_of m (outs m) c main_v55 (by decide))
  rw [e]
  refine (v55_at (Gen.V10 m (outs m) c) i).trans ?_
  rw [V10_v53]
  exact aff_row m c _ _ _ (fun d => qn_lo m c i d)

theorem res1_eq : (Gen.V17 m (outs m) c main_v56 : S8192.Idx → EReal) = Cert.Spec.res1 (args m c) := by
  funext j
  obtain ⟨i, rfl⟩ : ∃ i : Fin 8192, j = ix1 i := ⟨j 0, eq_ix1 j⟩
  have e : Gen.V17 m (outs m) c main_v56 = Gen.V11 m (outs m) c main_v56 :=
    (V17_of m (outs m) c main_v56 (by decide)).trans <| (V16_of m (outs m) c main_v56 (by decide)).trans <|
      (V15_of m (outs m) c main_v56 (by decide)).trans <| (V14_of m (outs m) c main_v56 (by decide)).trans <|
        (V13_of m (outs m) c main_v56 (by decide)).trans (V12_of m (outs m) c main_v56 (by decide))
  rw [e]
  refine (v56_at (Gen.V10 m (outs m) c) i).trans ?_
  rw [V10_v53]
  exact aff_row m c _ _ _ (fun d => qn_hi m c i d)

/-! ## The norm columns -/

theorem V12_v59 : Gen.V12 m (outs m) c main_v59 = X1 m c := by
  show Function.update (Gen.V11 m (outs m) c) (Proc.devRef .tc main_v59) (outs m 12 main_v59 c) (Proc.devRef .tc main_v59) = _
  rw [Function.update_self, outs_v59]
theorem V14_v61 : Gen.V14 m (outs m) c main_v61 = X2 m c := by
  show Function.update (Gen.V13 m (outs m) c) (Proc.devRef .tc main_v61) (outs m 14 main_v61 c) (Proc.devRef .tc main_v61) = _
  rw [Function.update_self, outs_v61]
theorem V16_v63 : Gen.V16 m (outs m) c main_v63 = X3 m c := by
  show Function.update (Gen.V15 m (outs m) c) (Proc.devRef .tc main_v63) (outs m 16 main_v63 c) (Proc.devRef .tc main_v63) = _
  rw [Function.update_self, outs_v63]

/-- The second region reads the context matrix. -/
theorem We1_v23 : We1 m c main_v23 = Gen.V9 m c main_v23 := by
  rw [← V11_eq]
  exact (V11_of m (outs m) c main_v23 (by decide)).trans (V10_of m (outs m) c main_v23 (by decide))

/-- The third region reads the first 2048 rows of the query matrix. -/
theorem We2_v57 (i : Fin 2048) (d : Fin 384) :
    (We2 m c main_v57 : S2048x384.Idx → EReal) (ix2 i d) = Cert.Spec.nxt (args m c) i d := by
  rw [← V13_eq]
  have e : Gen.V13 m (outs m) c main_v57 = Gen.V11 m (outs m) c main_v57 :=
    (V13_of m (outs m) c main_v57 (by decide)).trans (V12_of m (outs m) c main_v57 (by decide))
  rw [e]
  refine (v57_at (Gen.V10 m (outs m) c) i d).trans ?_
  rw [V10_of m (outs m) c main_v50 (by decide)]
  exact qn_lo m c i d

/-- The fourth region reads the last 8192 rows of the query matrix. -/
theorem We3_v58 (i : Fin 8192) (d : Fin 384) :
    (We3 m c main_v58 : S8192x384.Idx → EReal) (ix2 i d) = Cert.Spec.neg (args m c) i d := by
  rw [← V15_eq]
  have e : Gen.V15 m (outs m) c main_v58 = Gen.V11 m (outs m) c main_v58 :=
    (V15_of m (outs m) c main_v58 (by decide)).trans <| (V14_of m (outs m) c main_v58 (by decide)).trans <|
      (V13_of m (outs m) c main_v58 (by decide)).trans (V12_of m (outs m) c main_v58 (by decide))
  rw [e]
  refine (v58_at (Gen.V10 m (outs m) c) i d).trans ?_
  rw [V10_of m (outs m) c main_v50 (by decide)]
  exact qn_hi m c i d

/-- The three norm columns, row by row. -/
theorem X1_norm (i : Fin 4096) (u : Fin 1) : (X1 m c : S4096x1.Idx → EReal) (ix2 i u) = Cert.Spec.norm (Cert.Spec.ctx (args m c) i) := by
  rw [X1_apply, G1_apply, We1_v23]
  unfold Cert.Spec.norm
  refine congrArg Ideal.sqrt (Finset.sum_congr rfl fun d _ => ?_)
  rw [ctx_at]
theorem X2_norm (i : Fin 2048) (u : Fin 1) : (X2 m c : S2048x1.Idx → EReal) (ix2 i u) = Cert.Spec.norm (Cert.Spec.nxt (args m c) i) := by
  rw [X2_apply, G2_apply]
  unfold Cert.Spec.norm
  refine congrArg Ideal.sqrt (Finset.sum_congr rfl fun d _ => ?_)
  rw [We2_v57]
theorem X3_norm (i : Fin 8192) (u : Fin 1) : (X3 m c : S8192x1.Idx → EReal) (ix2 i u) = Cert.Spec.norm (Cert.Spec.neg (args m c) i) := by
  rw [X3_apply, G3_apply]
  unfold Cert.Spec.norm
  refine congrArg Ideal.sqrt (Finset.sum_congr rfl fun d _ => ?_)
  rw [We3_v58]

/-! ## The third result -/

/-- Three vectors of 4096, 2048 and 8192 entries end to end, read at an entry. -/
theorem stack3v_apply {α : Type} (x0 : S4096.Idx → α) (x1 : S2048.Idx → α) (x2 : S8192.Idx → α)
    (h : Shape.Concatenates (([⟨S4096, x0⟩, ⟨S2048, x1⟩, ⟨S8192, x2⟩] : List ((s : Shape) × (s.Idx → α))).map (·.1)) S14336 0)
    (j : S14336.Idx) :
    concatenate S14336 0 [⟨S4096, x0⟩, ⟨S2048, x1⟩, ⟨S8192, x2⟩] h j
      = if h1 : (j 0).val < 4096 then x0 (ix1 (⟨(j 0).val, h1⟩ : Fin 4096))
        else if h2 : (j 0).val < 6144 then x1 (ix1 (⟨(j 0).val - 4096, by omega⟩ : Fin 2048))
        else x2 (ix1 (⟨(j 0).val - 6144, by have h3 : (j 0).val < 14336 := (j 0).isLt; omega⟩ : Fin 8192)) := by
  have hj : (j 0).val < 14336 := (j 0).isLt
  by_cases h1 : (j 0).val < 4096
  · rw [dif_pos h1]
    refine concatenate_apply_piece (t := S14336) 0 _ h j 0 (by show (0 : ℕ) < 3; omega) S4096 x0 rfl rfl 0 rfl _ ?_ ?_
    · intro b hb; match b with
      | ⟨0, _⟩ => exact absurd rfl hb
    · show 0 + (j 0).val = (j 0).val; omega
  · rw [dif_neg h1]
    by_cases h2 : (j 0).val < 6144
    · rw [dif_pos h2]
      refine concatenate_apply_piece (t := S14336) 0 _ h j 1 (by show (1 : ℕ) < 3; omega) S2048 x1 rfl rfl 4096 rfl _ ?_ ?_
      · intro b hb; match b with
        | ⟨0, _⟩ => exact absurd rfl hb
      · show 4096 + ((j 0).val - 4096) = (j 0).val; omega
    · rw [dif_neg h2]
      refine concatenate_apply_piece (t := S14336) 0 _ h j 2 (by show (2 : ℕ) < 3; omega) S8192 x2 rfl rfl 6144 rfl _ ?_ ?_
      · intro b hb; match b with
        | ⟨0, _⟩ => exact absurd rfl hb
      · show 6144 + ((j 0).val - 6144) = (j 0).val; omega

theorem res2_eq : (Gen.V17 m (outs m) c main_v65 : S14336.Idx → EReal) = Cert.Spec.res2 (args m c) := by
  funext j
  refine (congrFun (v65_eq (Gen.V16 m (outs m) c)) j).trans ?_
  rw [stack3v_apply]
  unfold Cert.Spec.res2
  by_cases h1 : (j 0).val < 4096
  · rw [dif_pos h1, dif_pos h1]
    have e : Gen.V16 m (outs m) c main_v60 = Gen.V13 m (outs m) c main_v60 :=
      (V16_of m (outs m) c main_v60 (by decide)).trans <| (V15_of m (outs m) c main_v60 (by decide)).trans (V14_of m (outs m) c main_v60 (by decide))
    rw [e]
    refine (v60_at (Gen.V12 m (outs m) c) _).trans ?_
    rw [V12_v59]
    exact X1_norm m c _ _
  · rw [dif_neg h1, dif_neg h1]
    by_cases h2 : (j 0).val < 6144
    · rw [dif_pos h2, dif_pos h2]
      rw [V16_of m (outs m) c main_v62 (by decide)]
      refine (v62_at (Gen.V14 m (outs m) c) _).trans ?_
      rw [V14_v61]
      exact X2_norm m c _ _
    · rw [dif_neg h2, dif_neg h2]
      refine (flat_apply (a := 8192) _ _ _).trans ?_
      rw [V16_v63]
      exact X3_norm m c _ _

end Cert.KernelIdeal.Value

end
-- ==== Proof.Reference.Ops.lean ====
/- The reference program's @main as one straight line: its host operations in program order, each call of
   @remainder / @remainder_0 / @remainder_1 replaced by the twenty-one operations of its body (the nested
   @_where's one select among them) over that call's own buffers — the substitution inlining performs. -/
import proofs.«122344_j23716809409278_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's 227 operations in order, the six calls unfolded at their call sites: each call contributes the
    conversion of the divisor, the guard against a zero divisor (compare, the constant one, @_where's select),
    the truncated remainder, and the sign correction (three comparisons, their conjunction, the addition of the
    divisor, the final select). Around them: per index vector the wrap of negative indices, the column of start
    indices and the gather of whole rows; per embedding matrix the concatenation of its three gathers along the
    columns; then the two products with their row maxima, and the row norms of the three matrices stacked. -/
abbrev ops : List (HloOp τ sig (Elt F)) :=
  [ StableHlo.nullary main_c (constantI S_ 32 100000#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S4096, .i32⟩) (broadcastInDim S4096 ![] bcast_S_S4096),
    StableHlo.TRef.binary (.of main_arg0 : StableHlo.TRef sig ⟨S4096, .i32⟩) (.of main_call0_v3 : StableHlo.TRef sig ⟨S4096, .i32⟩) (.of main_call0_v4 : StableHlo.TRef sig ⟨S4096, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S4096, .i32⟩) (broadcastInDim S4096 ![] bcast_S_S4096),
    StableHlo.TRef.binary (.of main_call0_v4 : StableHlo.TRef sig ⟨S4096, .i32⟩) (.of main_call0_v5 : StableHlo.TRef sig ⟨S4096, .i32⟩) (.of main_call0_v6 : StableHlo.TRef sig ⟨S4096, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S4096, .i32⟩) (broadcastInDim S4096 ![] bcast_S_S4096),
    StableHlo.TRef.binary (.of main_call0_v4 : StableHlo.TRef sig ⟨S4096, .i32⟩) (.of main_call0_v7 : StableHlo.TRef sig ⟨S4096, .i32⟩) (.of main_call0_v8 : StableHlo.TRef sig ⟨S4096, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S4096, .i1⟩) (broadcastInDim S4096 ![] bcast_S_S4096),
    StableHlo.TRef.binary (.of main_call0_v8 : StableHlo.TRef sig ⟨S4096, .i1⟩) (.of main_call0_v10 : StableHlo.TRef sig ⟨S4096, .i1⟩) (.of main_call0_v11 : StableHlo.TRef sig ⟨S4096, .i1⟩) (cmpi .ne),
    StableHlo.TRef.binary (.of main_call0_v11 : StableHlo.TRef sig ⟨S4096, .i1⟩) (.of main_call0_v6 : StableHlo.TRef sig ⟨S4096, .i1⟩) (.of main_call0_v12 : StableHlo.TRef sig ⟨S4096, .i1⟩) andi,
    StableHlo.TRef.unary (.of main_call0_v2 : StableHlo.TRef sig ⟨S_, .i32⟩) (.of main_call0_v13 : StableHlo.TRef sig ⟨S4096, .i32⟩) (broadcastInDim S4096 ![] bcast_S_S4096),
    StableHlo.TRef.binary (.of main_call0_v4 : StableHlo.TRef sig ⟨S4096, .i32⟩) (.of main_call0_v13 : StableHlo.TRef sig ⟨S4096, .i32⟩) (.of main_call0_v14 : StableHlo.TRef sig ⟨S4096, .i32⟩) addi,
    StableHlo.TRef.ternary (.of main_call0_v12 : StableHlo.TRef sig ⟨S4096, .i1⟩) (.of main_call0_v14 : StableHlo.TRef sig ⟨S4096, .i32⟩) (.of main_call0_v4 : StableHlo.TRef sig ⟨S4096, .i32⟩) (.of main_v0 : StableHlo.TRef sig ⟨S4096, .i32⟩) select,
    StableHlo.nullary main_c_0 (constantI S_ 32 0#32),
    StableHlo.unary main_c_0 main_v1 (broadcastInDim S4096 ![] bcast_S_S4096 : (⟨S_, .i32⟩ : BufTy).Contents (Elt F) → (⟨S4096, .i32⟩ : BufTy).Contents (Elt F)),
    StableHlo.binary main_v0 main_v1 main_v2 (cmpi .slt : (⟨S4096, .i32⟩ : BufTy).Contents (Elt F) → (⟨S4096, .i32⟩ : BufTy).Contents (Elt F) → (⟨S4096, .i1⟩ : BufTy).Contents (Elt F)),
    StableHlo.nullary main_c_1 (constantI S_ 32 100000#32),
    StableHlo.unary main_c_1 main_v3 (broadcastInDim S4096 ![] bcast_S_S4096 : (⟨S_, .i32⟩ : BufTy).Contents (Elt F) → (⟨S4096, .i32⟩ : BufTy).Contents (Elt F)),
    StableHlo.binary main_v0 main_v3 main_v4 (addi : (⟨S4096, .i32⟩ : BufTy).Contents (Elt F) → (⟨S4096, .i32⟩ : BufTy).Contents (Elt F) → (⟨S4096, .i32⟩ : BufTy).Contents (Elt F)),
    StableHlo.ternary main_v2 main_v4 main_v0 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v5 main_v6 (broadcastInDim S4096x1 ![0] bcast_S4096_S4096x1_0 : (⟨S4096, .i32⟩ : BufTy).Contents (Elt F) → (⟨S4096x1, .i32⟩ : BufTy).Contents (Elt F)),
    StableHlo.binary main_arg9 main_v6 main_v7 ((fun x i => Host.gather gather_S100000x128_S4096x1_S4096x128_1_0_n_n_0_1_1128 x i) : (⟨S100000x128, .f32⟩ : BufTy).Contents (Elt F) → (⟨S4096x1, .i32⟩ : BufTy).Contents (Elt F) → (⟨S4096x128, .f32⟩ : BufTy).Contents (Elt F)),
    StableHlo.nullary main_c_2 (constantI S_ 32 100000#32),
    StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S4096, .i32⟩) (broadcastInDim S4096 ![] bcast_S_S4096),
    StableHlo.TRef.binary (.of main_arg1 : StableHlo.TRef sig ⟨S4096, .i32⟩) (.of main_call1_v3 : StableHlo.TRef sig ⟨S4096, .i32⟩) (.of main_call1_v4 : StableHlo.TRef sig ⟨S4096, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S4096, .i32⟩) (broadcastInDim S4096 ![] bcast_S_S4096),
    StableHlo.TRef.binary (.of main_call1_v4 : StableHlo.TRef sig ⟨S4096, .i32⟩) (.of main_call1_v5 : StableHlo.TRef sig ⟨S4096, .i32⟩) (.of main_call1_v6 : StableHlo.TRef sig ⟨S4096, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S4096, .i32⟩) (broadcastInDim S4096 ![] bcast_S_S4096),
    StableHlo.TRef.binary (.of main_call1_v4 : StableHlo.TRef sig ⟨S4096, .i32⟩) (.of main_call1_v7 : StableHlo.TRef sig ⟨S4096, .i32⟩) (.of main_call1_v8 : StableHlo.TRef sig ⟨S4096, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S4096, .i1⟩) (broadcastInDim S4096 ![] bcast_S_S4096),
    StableHlo.TRef.binary (.of main_call1_v8 : StableHlo.TRef sig ⟨S4096, .i1⟩) (.of main_call1_v10 : StableHlo.TRef sig ⟨S4096, .i1⟩) (.of main_call1_v11 : StableHlo.TRef sig ⟨S4096, .i1⟩) (cmpi .ne),
    StableHlo.TRef.binary (.of main_call1_v11 : StableHlo.TRef sig ⟨S4096, .i1⟩) (.of main_call1_v6 : StableHlo.TRef sig ⟨S4096, .i1⟩) (.of main_call1_v12 : StableHlo.TRef sig ⟨S4096, .i1⟩) andi,
    StableHlo.TRef.unary (.of main_call1_v2 : StableHlo.TRef sig ⟨S_, .i32⟩) (.of main_call1_v13 : StableHlo.TRef sig ⟨S4096, .i32⟩) (broadcastInDim S4096 ![] bcast_S_S4096),
    StableHlo.TRef.binary (.of main_call1_v4 : StableHlo.TRef sig ⟨S4096, .i32⟩) (.of main_call1_v13 : StableHlo.TRef sig ⟨S4096, .i32⟩) (.of main_call1_v14 : StableHlo.TRef sig ⟨S4096, .i32⟩) addi,
    StableHlo.TRef.ternary (.of main_call1_v12 : StableHlo.TRef sig ⟨S4096, .i1⟩) (.of main_call1_v14 : StableHlo.TRef sig ⟨S4096, .i32⟩) (.of main_call1_v4 : StableHlo.TRef sig ⟨S4096, .i32⟩) (.of main_v8 : StableHlo.TRef sig ⟨S4096, .i32⟩) select,
    StableHlo.nullary main_c_3 (constantI S_ 32 0#32),
    StableHlo.unary main_c_3 main_v9 (broadcastInDim S4096 ![] bcast_S_S4096 : (⟨S_, .i32⟩ : BufTy).Contents (Elt F) → (⟨S4096, .i32⟩ : BufTy).Contents (Elt F)),
    StableHlo.binary main_v8 main_v9 main_v10 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 100000#32),
    StableHlo.unary main_c_4 main_v11 (broadcastInDim S4096 ![] bcast_S_S4096 : (⟨S_, .i32⟩ : BufTy).Contents (Elt F) → (⟨S4096, .i32⟩ : BufTy).Contents (Elt F)),
    StableHlo.binary main_v8 main_v11 main_v12 (addi : (⟨S4096, .i32⟩ : BufTy).Contents (Elt F) → (⟨S4096, .i32⟩ : BufTy).Contents (Elt F) → (⟨S4096, .i32⟩ : BufTy).Contents (Elt F)),
    StableHlo.ternary main_v10 main_v12 main_v8 main_v13 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v13 main_v14 (broadcastInDim S4096x1 ![0] bcast_S4096_S4096x1_0 : (⟨S4096, .i32⟩ : BufTy).Contents (Elt F) → (⟨S4096x1, .i32⟩ : BufTy).Contents (Elt F)),
    StableHlo.binary main_arg10 main_v14 main_v15 ((fun x i => Host.gather gather_S100000x128_S4096x1_S4096x128_1_0_n_n_0_1_1128 x i) : (⟨S100000x128, .f32⟩ : BufTy).Contents (Elt F) → (⟨S4096x1, .i32⟩ : BufTy).Contents (Elt F) → (⟨S4096x128, .f32⟩ : BufTy).Contents (Elt F)),
    StableHlo.nullary main_c_5 (constantI S_ 32 0#32),
    StableHlo.unary main_c_5 main_v16 (broadcastInDim S4096 ![] bcast_S_S4096 : (⟨S_, .i32⟩ : BufTy).Contents (Elt F) → (⟨S4096, .i32⟩ : BufTy).Contents (Elt F)),
    StableHlo.binary main_arg2 main_v16 main_v17 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 295861#32),
    StableHlo.unary main_c_6 main_v18 (broadcastInDim S4096 ![] bcast_S_S4096 : (⟨S_, .i32⟩ : BufTy).Contents (Elt F) → (⟨S4096, .i32⟩ : BufTy).Contents (Elt F)),
    StableHlo.binary main_arg2 main_v18 main_v19 (addi : (⟨S4096, .i32⟩ : BufTy).Contents (Elt F) → (⟨S4096, .i32⟩ : BufTy).Contents (Elt F) → (⟨S4096, .i32⟩ : BufTy).Contents (Elt F)),
    StableHlo.ternary main_v17 main_v19 main_arg2 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v20 main_v21 (broadcastInDim S4096x1 ![0] bcast_S4096_S4096x1_0 : (⟨S4096, .i32⟩ : BufTy).Contents (Elt F) → (⟨S4096x1, .i32⟩ : BufTy).Contents (Elt F)),
    StableHlo.binary main_arg11 main_v21 main_v22 ((fun x i => Host.gather gather_S295861x128_S4096x1_S4096x128_1_0_n_n_0_1_1128 x i) : (⟨S295861x128, .f32⟩ : BufTy).Contents (Elt F) → (⟨S4096x1, .i32⟩ : BufTy).Contents (Elt F) → (⟨S4096x128, .f32⟩ : BufTy).Contents (Elt F)),
    StableHlo.nary ![main_v7, main_v15, main_v22] main_v23 (fun u => concatenate S4096x384 1 [⟨S4096x128, u 0⟩, ⟨S4096x128, u 1⟩, ⟨S4096x128, u 2⟩] concatenates_S4096x128_S4096x128_S4096x128_S4096x384_d1),
    StableHlo.nullary main_c_7 (constantI S_ 32 100000#32),
    StableHlo.TRef.unary (.of main_c_7 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S2048, .i32⟩) (broadcastInDim S2048 ![] bcast_S_S2048),
    StableHlo.TRef.binary (.of main_arg3 : StableHlo.TRef sig ⟨S2048, .i32⟩) (.of main_call2_v3 : StableHlo.TRef sig ⟨S2048, .i32⟩) (.of main_call2_v4 : StableHlo.TRef sig ⟨S2048, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S2048, .i32⟩) (broadcastInDim S2048 ![] bcast_S_S2048),
    StableHlo.TRef.binary (.of main_call2_v4 : StableHlo.TRef sig ⟨S2048, .i32⟩) (.of main_call2_v5 : StableHlo.TRef sig ⟨S2048, .i32⟩) (.of main_call2_v6 : StableHlo.TRef sig ⟨S2048, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S2048, .i32⟩) (broadcastInDim S2048 ![] bcast_S_S2048),
    StableHlo.TRef.binary (.of main_call2_v4 : StableHlo.TRef sig ⟨S2048, .i32⟩) (.of main_call2_v7 : StableHlo.TRef sig ⟨S2048, .i32⟩) (.of main_call2_v8 : StableHlo.TRef sig ⟨S2048, .i1⟩) (cmpi .slt),
    StableHlo.TRef.nullary (.of main_call2_c_3 : StableHlo.TRef sig ⟨S_, .i32⟩) (constantI S_ 32 0#32),
    StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S2048, .i1⟩) (broadcastInDim S2048 ![] bcast_S_S2048),
    StableHlo.TRef.binary (.of main_call2_v8 : StableHlo.TRef sig ⟨S2048, .i1⟩) (.of main_call2_v10 : StableHlo.TRef sig ⟨S2048, .i1⟩) (.of main_call2_v11 : StableHlo.TRef sig ⟨S2048, .i1⟩) (cmpi .ne),
    StableHlo.TRef.binary (.of main_call2_v11 : StableHlo.TRef sig ⟨S2048, .i1⟩) (.of main_call2_v6 : StableHlo.TRef sig ⟨S2048, .i1⟩) (.of main_call2_v12 : StableHlo.TRef sig ⟨S2048, .i1⟩) andi,
    StableHlo.TRef.unary (.of main_call2_v2 : StableHlo.TRef sig ⟨S_, .i32⟩) (.of main_call2_v13 : StableHlo.TRef sig ⟨S2048, .i32⟩) (broadcastInDim S2048 ![] bcast_S_S2048),
    StableHlo.TRef.binary (.of main_call2_v4 : StableHlo.TRef sig ⟨S2048, .i32⟩) (.of main_call2_v13 : StableHlo.TRef sig ⟨S2048, .i32⟩) (.of main_call2_v14 : StableHlo.TRef sig ⟨S2048, .i32⟩) addi,
    StableHlo.TRef.ternary (.of main_call2_v12 : StableHlo.TRef sig ⟨S2048, .i1⟩) (.of main_call2_v14 : StableHlo.TRef sig ⟨S2048, .i32⟩) (.of main_call2_v4 : StableHlo.TRef sig ⟨S2048, .i32⟩) (.of main_v24 : StableHlo.TRef sig ⟨S2048, .i32⟩) select,
    StableHlo.nullary main_c_8 (constantI S_ 32 0#32),
    StableHlo.unary main_c_8 main_v25 (broadcastInDim S2048 ![] bcast_S_S2048 : (⟨S_, .i32⟩ : BufTy).Contents (Elt F) → (⟨S2048, .i32⟩ : BufTy).Contents (Elt F)),
    StableHlo.binary main_v24 main_v25 main_v26 (cmpi .slt : (⟨S2048, .i32⟩ : BufTy).Contents (Elt F) → (⟨S2048, .i32⟩ : BufTy).Contents (Elt F) → (⟨S2048, .i1⟩ : BufTy).Contents (Elt F)),
    StableHlo.nullary main_c_9 (constantI S_ 32 100000#32),
    StableHlo.unary main_c_9 main_v27 (broadcastInDim S2048 ![] bcast_S_S2048 : (⟨S_, .i32⟩ : BufTy).Contents (Elt F) → (⟨S2048, .i32⟩ : BufTy).Contents (Elt F)),
    StableHlo.binary main_v24 main_v27 main_v28 (addi : (⟨S2048, .i32⟩ : BufTy).Contents (Elt F) → (⟨S2048, .i32⟩ : BufTy).Contents (Elt F) → (⟨S2048, .i32⟩ : BufTy).Contents (Elt F)),
    StableHlo.ternary main_v26 main_v28 main_v24 main_v29 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v29 main_v30 (broadcastInDim S2048x1 ![0] bcast_S2048_S2048x1_0 : (⟨S2048, .i32⟩ : BufTy).Contents (Elt F) → (⟨S2048x1, .i32⟩ : BufTy).Contents (Elt F)),
    StableHlo.binary main_arg9 main_v30 main_v31 ((fun x i => Host.gather gather_S100000x128_S2048x1_S2048x128_1_0_n_n_0_1_1128 x i) : (⟨S100000x128, .f32⟩ : BufTy).Contents (Elt F) → (⟨S2048x1, .i32⟩ : BufTy).Contents (Elt F) → (⟨S2048x128, .f32⟩ : BufTy).Contents (Elt F)),
    StableHlo.nullary main_c_10 (constantI S_ 32 100000#32),
    StableHlo.TRef.unary (.of main_c_10 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S2048, .i32⟩) (broadcastInDim S2048 ![] bcast_S_S2048),
    StableHlo.TRef.binary (.of main_arg4 : StableHlo.TRef sig ⟨S2048, .i32⟩) (.of main_call3_v3 : StableHlo.TRef sig ⟨S2048, .i32⟩) (.of main_call3_v4 : StableHlo.TRef sig ⟨S2048, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S2048, .i32⟩) (broadcastInDim S2048 ![] bcast_S_S2048),
    StableHlo.TRef.binary (.of main_call3_v4 : StableHlo.TRef sig ⟨S2048, .i32⟩) (.of main_call3_v5 : StableHlo.TRef sig ⟨S2048, .i32⟩) (.of main_call3_v6 : StableHlo.TRef sig ⟨S2048, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S2048, .i32⟩) (broadcastInDim S2048 ![] bcast_S_S2048),
    StableHlo.TRef.binary (.of main_call3_v4 : StableHlo.TRef sig ⟨S2048, .i32⟩) (.of main_call3_v7 : StableHlo.TRef sig ⟨S2048, .i32⟩) (.of main_call3_v8 : StableHlo.TRef sig ⟨S2048, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S2048, .i1⟩) (broadcastInDim S2048 ![] bcast_S_S2048),
    StableHlo.TRef.binary (.of main_call3_v8 : StableHlo.TRef sig ⟨S2048, .i1⟩) (.of main_call3_v10 : StableHlo.TRef sig ⟨S2048, .i1⟩) (.of main_call3_v11 : StableHlo.TRef sig ⟨S2048, .i1⟩) (cmpi .ne),
    StableHlo.TRef.binary (.of main_call3_v11 : StableHlo.TRef sig ⟨S2048, .i1⟩) (.of main_call3_v6 : StableHlo.TRef sig ⟨S2048, .i1⟩) (.of main_call3_v12 : StableHlo.TRef sig ⟨S2048, .i1⟩) andi,
    StableHlo.TRef.unary (.of main_call3_v2 : StableHlo.TRef sig ⟨S_, .i32⟩) (.of main_call3_v13 : StableHlo.TRef sig ⟨S2048, .i32⟩) (broadcastInDim S2048 ![] bcast_S_S2048),
    StableHlo.TRef.binary (.of main_call3_v4 : StableHlo.TRef sig ⟨S2048, .i32⟩) (.of main_call3_v13 : StableHlo.TRef sig ⟨S2048, .i32⟩) (.of main_call3_v14 : StableHlo.TRef sig ⟨S2048, .i32⟩) addi,
    StableHlo.TRef.ternary (.of main_call3_v12 : StableHlo.TRef sig ⟨S2048, .i1⟩) (.of main_call3_v14 : StableHlo.TRef sig ⟨S2048, .i32⟩) (.of main_call3_v4 : StableHlo.TRef sig ⟨S2048, .i32⟩) (.of main_v32 : StableHlo.TRef sig ⟨S2048, .i32⟩) select,
    StableHlo.nullary main_c_11 (constantI S_ 32 0#32),
    StableHlo.unary main_c_11 main_v33 (broadcastInDim S2048 ![] bcast_S_S2048 : (⟨S_, .i32⟩ : BufTy).Contents (Elt F) → (⟨S2048, .i32⟩ : BufTy).Contents (Elt F)),
    StableHlo.binary main_v32 main_v33 main_v34 (cmpi .slt : (⟨S2048, .i32⟩ : BufTy).Contents (Elt F) → (⟨S2048, .i32⟩ : BufTy).Contents (Elt F) → (⟨S2048, .i1⟩ : BufTy).Contents (Elt F)),
    StableHlo.nullary main_c_12 (constantI S_ 32 100000#32),
    StableHlo.unary main_c_12 main_v35 (broadcastInDim S2048 ![] bcast_S_S2048 : (⟨S_, .i32⟩ : BufTy).Contents (Elt F) → (⟨S2048, .i32⟩ : BufTy).Contents (Elt F)),
    StableHlo.binary main_v32 main_v35 main_v36 (addi : (⟨S2048, .i32⟩ : BufTy).Contents (Elt F) → (⟨S2048, .i32⟩ : BufTy).Contents (Elt F) → (⟨S2048, .i32⟩ : BufTy).Contents (Elt F)),
    StableHlo.ternary main_v34 main_v36 main_v32 main_v37 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v37 main_v38 (broadcastInDim S2048x1 ![0] bcast_S2048_S2048x1_0 : (⟨S2048, .i32⟩ : BufTy).Contents (Elt F) → (⟨S2048x1, .i32⟩ : BufTy).Contents (Elt F)),
    StableHlo.binary main_arg10 main_v38 main_v39 ((fun x i => Host.gather gather_S100000x128_S2048x1_S2048x128_1_0_n_n_0_1_1128 x i) : (⟨S100000x128, .f32⟩ : BufTy).Contents (Elt F) → (⟨S2048x1, .i32⟩ : BufTy).Contents (Elt F) → (⟨S2048x128, .f32⟩ : BufTy).Contents (Elt F)),
    StableHlo.nullary main_c_13 (constantI S_ 32 0#32),
    StableHlo.unary main_c_13 main_v40 (broadcastInDim S2048 ![] bcast_S_S2048 : (⟨S_, .i32⟩ : BufTy).Contents (Elt F) → (⟨S2048, .i32⟩ : BufTy).Contents (Elt F)),
    StableHlo.binary main_arg5 main_v40 main_v41 (cmpi .slt : (⟨S2048, .i32⟩ : BufTy).Contents (Elt F) → (⟨S2048, .i32⟩ : BufTy).Contents (Elt F) → (⟨S2048, .i1⟩ : BufTy).Contents (Elt F)),
    StableHlo.nullary main_c_14 (constantI S_ 32 295861#32),
    StableHlo.unary main_c_14 main_v42 (broadcastInDim S2048 ![] bcast_S_S2048 : (⟨S_, .i32⟩ : BufTy).Contents (Elt F) → (⟨S2048, .i32⟩ : BufTy).Contents (Elt F)),
    StableHlo.binary main_arg5 main_v42 main_v43 (addi : (⟨S2048, .i32⟩ : BufTy).Contents (Elt F) → (⟨S2048, .i32⟩ : BufTy).Contents (Elt F) → (⟨S2048, .i32⟩ : BufTy).Contents (Elt F)),
    StableHlo.ternary main_v41 main_v43 main_arg5 main_v44 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v44 main_v45 (broadcastInDim S2048x1 ![0] bcast_S2048_S2048x1_0 : (⟨S2048, .i32⟩ : BufTy).Contents (Elt F) → (⟨S2048x1, .i32⟩ : BufTy).Contents (Elt F)),
    StableHlo.binary main_arg11 main_v45 main_v46 ((fun x i => Host.gather gather_S295861x128_S2048x1_S2048x128_1_0_n_n_0_1_1128 x i) : (⟨S295861x128, .f32⟩ : BufTy).Contents (Elt F) → (⟨S2048x1, .i32⟩ : BufTy).Contents (Elt F) → (⟨S2048x128, .f32⟩ : BufTy).Contents (Elt F)),
    StableHlo.nary ![main_v31, main_v39, main_v46] main_v47 (fun u => concatenate S2048x384 1 [⟨S2048x128, u 0⟩, ⟨S2048x128, u 1⟩, ⟨S2048x128, u 2⟩] concatenates_S2048x128_S2048x128_S2048x128_S2048x384_d1),
    StableHlo.nullary main_c_15 (constantI S_ 32 100000#32),
    StableHlo.TRef.unary (.of main_c_15 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S8192, .i32⟩) (broadcastInDim S8192 ![] bcast_S_S8192),
    StableHlo.TRef.binary (.of main_arg6 : StableHlo.TRef sig ⟨S8192, .i32⟩) (.of main_call4_v3 : StableHlo.TRef sig ⟨S8192, .i32⟩) (.of main_call4_v4 : StableHlo.TRef sig ⟨S8192, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S8192, .i32⟩) (broadcastInDim S8192 ![] bcast_S_S8192),
    StableHlo.TRef.binary (.of main_call4_v4 : StableHlo.TRef sig ⟨S8192, .i32⟩) (.of main_call4_v5 : StableHlo.TRef sig ⟨S8192, .i32⟩) (.of main_call4_v6 : StableHlo.TRef sig ⟨S8192, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S8192, .i32⟩) (broadcastInDim S8192 ![] bcast_S_S8192),
    StableHlo.TRef.binary (.of main_call4_v4 : StableHlo.TRef sig ⟨S8192, .i32⟩) (.of main_call4_v7 : StableHlo.TRef sig ⟨S8192, .i32⟩) (.of main_call4_v8 : StableHlo.TRef sig ⟨S8192, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S8192, .i1⟩) (broadcastInDim S8192 ![] bcast_S_S8192),
    StableHlo.TRef.binary (.of main_call4_v8 : StableHlo.TRef sig ⟨S8192, .i1⟩) (.of main_call4_v10 : StableHlo.TRef sig ⟨S8192, .i1⟩) (.of main_call4_v11 : StableHlo.TRef sig ⟨S8192, .i1⟩) (cmpi .ne),
    StableHlo.TRef.binary (.of main_call4_v11 : StableHlo.TRef sig ⟨S8192, .i1⟩) (.of main_call4_v6 : StableHlo.TRef sig ⟨S8192, .i1⟩) (.of main_call4_v12 : StableHlo.TRef sig ⟨S8192, .i1⟩) andi,
    StableHlo.TRef.unary (.of main_call4_v2 : StableHlo.TRef sig ⟨S_, .i32⟩) (.of main_call4_v13 : StableHlo.TRef sig ⟨S8192, .i32⟩) (broadcastInDim S8192 ![] bcast_S_S8192),
    StableHlo.TRef.binary (.of main_call4_v4 : StableHlo.TRef sig ⟨S8192, .i32⟩) (.of main_call4_v13 : StableHlo.TRef sig ⟨S8192, .i32⟩) (.of main_call4_v14 : StableHlo.TRef sig ⟨S8192, .i32⟩) addi,
    StableHlo.TRef.ternary (.of main_call4_v12 : StableHlo.TRef sig ⟨S8192, .i1⟩) (.of main_call4_v14 : StableHlo.TRef sig ⟨S8192, .i32⟩) (.of main_call4_v4 : StableHlo.TRef sig ⟨S8192, .i32⟩) (.of main_v48 : StableHlo.TRef sig ⟨S8192, .i32⟩) select,
    StableHlo.nullary main_c_16 (constantI S_ 32 0#32),
    StableHlo.unary main_c_16 main_v49 (broadcastInDim S8192 ![] bcast_S_S8192 : (⟨S_, .i32⟩ : BufTy).Contents (Elt F) → (⟨S8192, .i32⟩ : BufTy).Contents (Elt F)),
    StableHlo.binary main_v48 main_v49 main_v50 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 100000#32),
    StableHlo.unary main_c_17 main_v51 (broadcastInDim S8192 ![] bcast_S_S8192 : (⟨S_, .i32⟩ : BufTy).Contents (Elt F) → (⟨S8192, .i32⟩ : BufTy).Contents (Elt F)),
    StableHlo.binary main_v48 main_v51 main_v52 (addi : (⟨S8192, .i32⟩ : BufTy).Contents (Elt F) → (⟨S8192, .i32⟩ : BufTy).Contents (Elt F) → (⟨S8192, .i32⟩ : BufTy).Contents (Elt F)),
    StableHlo.ternary main_v50 main_v52 main_v48 main_v53 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v53 main_v54 (broadcastInDim S8192x1 ![0] bcast_S8192_S8192x1_0 : (⟨S8192, .i32⟩ : BufTy).Contents (Elt F) → (⟨S8192x1, .i32⟩ : BufTy).Contents (Elt F)),
    StableHlo.binary main_arg9 main_v54 main_v55 ((fun x i => Host.gather gather_S100000x128_S8192x1_S8192x128_1_0_n_n_0_1_1128 x i) : (⟨S100000x128, .f32⟩ : BufTy).Contents (Elt F) → (⟨S8192x1, .i32⟩ : BufTy).Contents (Elt F) → (⟨S8192x128, .f32⟩ : BufTy).Contents (Elt F)),
    StableHlo.nullary main_c_18 (constantI S_ 32 100000#32),
    StableHlo.TRef.unary (.of main_c_18 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S8192, .i32⟩) (broadcastInDim S8192 ![] bcast_S_S8192),
    StableHlo.TRef.binary (.of main_arg7 : StableHlo.TRef sig ⟨S8192, .i32⟩) (.of main_call5_v3 : StableHlo.TRef sig ⟨S8192, .i32⟩) (.of main_call5_v4 : StableHlo.TRef sig ⟨S8192, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S8192, .i32⟩) (broadcastInDim S8192 ![] bcast_S_S8192),
    StableHlo.TRef.binary (.of main_call5_v4 : StableHlo.TRef sig ⟨S8192, .i32⟩) (.of main_call5_v5 : StableHlo.TRef sig ⟨S8192, .i32⟩) (.of main_call5_v6 : StableHlo.TRef sig ⟨S8192, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S8192, .i32⟩) (broadcastInDim S8192 ![] bcast_S_S8192),
    StableHlo.TRef.binary (.of main_call5_v4 : StableHlo.TRef sig ⟨S8192, .i32⟩) (.of main_call5_v7 : StableHlo.TRef sig ⟨S8192, .i32⟩) (.of main_call5_v8 : StableHlo.TRef sig ⟨S8192, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S8192, .i1⟩) (broadcastInDim S8192 ![] bcast_S_S8192),
    StableHlo.TRef.binary (.of main_call5_v8 : StableHlo.TRef sig ⟨S8192, .i1⟩) (.of main_call5_v10 : StableHlo.TRef sig ⟨S8192, .i1⟩) (.of main_call5_v11 : StableHlo.TRef sig ⟨S8192, .i1⟩) (cmpi .ne),
    StableHlo.TRef.binary (.of main_call5_v11 : StableHlo.TRef sig ⟨S8192, .i1⟩) (.of main_call5_v6 : StableHlo.TRef sig ⟨S8192, .i1⟩) (.of main_call5_v12 : StableHlo.TRef sig ⟨S8192, .i1⟩) andi,
    StableHlo.TRef.unary (.of main_call5_v2 : StableHlo.TRef sig ⟨S_, .i32⟩) (.of main_call5_v13 : StableHlo.TRef sig ⟨S8192, .i32⟩) (broadcastInDim S8192 ![] bcast_S_S8192),
    StableHlo.TRef.binary (.of main_call5_v4 : StableHlo.TRef sig ⟨S8192, .i32⟩) (.of main_call5_v13 : StableHlo.TRef sig ⟨S8192, .i32⟩) (.of main_call5_v14 : StableHlo.TRef sig ⟨S8192, .i32⟩) addi,
    StableHlo.TRef.ternary (.of main_call5_v12 : StableHlo.TRef sig ⟨S8192, .i1⟩) (.of main_call5_v14 : StableHlo.TRef sig ⟨S8192, .i32⟩) (.of main_call5_v4 : StableHlo.TRef sig ⟨S8192, .i32⟩) (.of main_v56 : StableHlo.TRef sig ⟨S8192, .i32⟩) select,
    StableHlo.nullary main_c_19 (constantI S_ 32 0#32),
    StableHlo.unary main_c_19 main_v57 (broadcastInDim S8192 ![] bcast_S_S8192 : (⟨S_, .i32⟩ : BufTy).Contents (Elt F) → (⟨S8192, .i32⟩ : BufTy).Contents (Elt F)),
    StableHlo.binary main_v56 main_v57 main_v58 (cmpi .slt : (⟨S8192, .i32⟩ : BufTy).Contents (Elt F) → (⟨S8192, .i32⟩ : BufTy).Contents (Elt F) → (⟨S8192, .i1⟩ : BufTy).Contents (Elt F)),
    StableHlo.nullary main_c_20 (constantI S_ 32 100000#32),
    StableHlo.unary main_c_20 main_v59 (broadcastInDim S8192 ![] bcast_S_S8192 : (⟨S_, .i32⟩ : BufTy).Contents (Elt F) → (⟨S8192, .i32⟩ : BufTy).Contents (Elt F)),
    StableHlo.binary main_v56 main_v59 main_v60 (addi : (⟨S8192, .i32⟩ : BufTy).Contents (Elt F) → (⟨S8192, .i32⟩ : BufTy).Contents (Elt F) → (⟨S8192, .i32⟩ : BufTy).Contents (Elt F)),
    StableHlo.ternary main_v58 main_v60 main_v56 main_v61 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v61 main_v62 (broadcastInDim S8192x1 ![0] bcast_S8192_S8192x1_0 : (⟨S8192, .i32⟩ : BufTy).Contents (Elt F) → (⟨S8192x1, .i32⟩ : BufTy).Contents (Elt F)),
    StableHlo.binary main_arg10 main_v62 main_v63 ((fun x i => Host.gather gather_S100000x128_S8192x1_S8192x128_1_0_n_n_0_1_1128 x i) : (⟨S100000x128, .f32⟩ : BufTy).Contents (Elt F) → (⟨S8192x1, .i32⟩ : BufTy).Contents (Elt F) → (⟨S8192x128, .f32⟩ : BufTy).Contents (Elt F)),
    StableHlo.nullary main_c_21 (constantI S_ 32 0#32),
    StableHlo.unary main_c_21 main_v64 (broadcastInDim S8192 ![] bcast_S_S8192 : (⟨S_, .i32⟩ : BufTy).Contents (Elt F) → (⟨S8192, .i32⟩ : BufTy).Contents (Elt F)),
    StableHlo.binary main_arg8 main_v64 main_v65 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 295861#32),
    StableHlo.unary main_c_22 main_v66 (broadcastInDim S8192 ![] bcast_S_S8192 : (⟨S_, .i32⟩ : BufTy).Contents (Elt F) → (⟨S8192, .i32⟩ : BufTy).Contents (Elt F)),
    StableHlo.binary main_arg8 main_v66 main_v67 (addi : (⟨S8192, .i32⟩ : BufTy).Contents (Elt F) → (⟨S8192, .i32⟩ : BufTy).Contents (Elt F) → (⟨S8192, .i32⟩ : BufTy).Contents (Elt F)),
    StableHlo.ternary main_v65 main_v67 main_arg8 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v68 main_v69 (broadcastInDim S8192x1 ![0] bcast_S8192_S8192x1_0 : (⟨S8192, .i32⟩ : BufTy).Contents (Elt F) → (⟨S8192x1, .i32⟩ : BufTy).Contents (Elt F)),
    StableHlo.binary main_arg11 main_v69 main_v70 ((fun x i => Host.gather gather_S295861x128_S8192x1_S8192x128_1_0_n_n_0_1_1128 x i) : (⟨S295861x128, .f32⟩ : BufTy).Contents (Elt F) → (⟨S8192x1, .i32⟩ : BufTy).Contents (Elt F) → (⟨S8192x128, .f32⟩ : BufTy).Contents (Elt F)),
    StableHlo.nary ![main_v55, main_v63, main_v70] main_v71 (fun u => concatenate S8192x384 1 [⟨S8192x128, u 0⟩, ⟨S8192x128, u 1⟩, ⟨S8192x128, u 2⟩] concatenates_S8192x128_S8192x128_S8192x128_S8192x384_d1),
    StableHlo.binary main_v47 main_v23 main_v72 ((fun l r => Host.dotGeneral dot_S2048x384_S4096x384_S2048x4096_1_1_0_0_n_n none l r) : (⟨S2048x384, .f32⟩ : BufTy).Contents (Elt F) → (⟨S4096x384, .f32⟩ : BufTy).Contents (Elt F) → (⟨S2048x4096, .f32⟩ : BufTy).Contents (Elt F)),
    StableHlo.nullary main_cst (constant S_ .f32 0xFF800000#32),
    StableHlo.binary main_v72 main_cst main_v73 ((fun x v => Host.reduce FloatOps.maximumf x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    StableHlo.binary main_v71 main_v23 main_v74 ((fun l r => Host.dotGeneral dot_S8192x384_S4096x384_S8192x4096_1_1_0_0_n_n none l r) : (⟨S8192x384, .f32⟩ : BufTy).Contents (Elt F) → (⟨S4096x384, .f32⟩ : BufTy).Contents (Elt F) → (⟨S8192x4096, .f32⟩ : BufTy).Contents (Elt F)),
    StableHlo.nullary main_cst_23 (constant S_ .f32 0xFF800000#32),
    StableHlo.binary main_v74 main_cst_23 main_v75 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.nary ![main_v23, main_v47, main_v71] main_v76 (fun u => concatenate S14336x384 0 [⟨S4096x384, u 0⟩, ⟨S2048x384, u 1⟩, ⟨S8192x384, u 2⟩] concatenates_S4096x384_S2048x384_S8192x384_S14336x384_d0),
    StableHlo.binary main_v76 main_v76 main_v77 (mulf : (⟨S14336x384, .f32⟩ : BufTy).Contents (Elt F) → (⟨S14336x384, .f32⟩ : BufTy).Contents (Elt F) → (⟨S14336x384, .f32⟩ : BufTy).Contents (Elt F)),
    StableHlo.nullary main_cst_24 (constant S_ .f32 0x00000000#32),
    StableHlo.binary main_v77 main_cst_24 main_v78 ((fun x v => Host.reduceAdd x v reducesTo_S14336x384_S14336_d1 h_S_) : (⟨S14336x384, .f32⟩ : BufTy).Contents (Elt F) → (⟨S_, .f32⟩ : BufTy).Contents (Elt F) → (⟨S14336, .f32⟩ : BufTy).Contents (Elt F)),
    StableHlo.unary main_v78 main_v79 (Host.sqrt : (⟨S14336, .f32⟩ : BufTy).Contents (Elt F) → (⟨S14336, .f32⟩ : BufTy).Contents (Elt F)) ]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.unary_bufs_sub .., StableHlo.binary_bufs_sub ..,
    StableHlo.binary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nary_bufs_sub ..,
    StableHlo.nullary_bufs_sub .., StableHlo.unary_bufs_sub .., StableHlo.nullary_bufs_sub .., StableHlo.binary_bufs_sub .., StableHlo.nullary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.unary_bufs_sub .., StableHlo.binary_bufs_sub ..,
    StableHlo.binary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nary_bufs_sub ..,
    StableHlo.nullary_bufs_sub .., StableHlo.unary_bufs_sub .., StableHlo.nullary_bufs_sub .., StableHlo.binary_bufs_sub .., StableHlo.nullary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.unary_bufs_sub .., StableHlo.binary_bufs_sub ..,
    StableHlo.binary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nary_bufs_sub ..,
    StableHlo.binary_bufs_sub .., StableHlo.nullary_bufs_sub .., StableHlo.binary_bufs_sub .., StableHlo.binary_bufs_sub .., StableHlo.nullary_bufs_sub .., StableHlo.binary_bufs_sub ..,
    StableHlo.nary_bufs_sub .., StableHlo.binary_bufs_sub .., StableHlo.nullary_bufs_sub .., StableHlo.binary_bufs_sub .., StableHlo.unary_bufs_sub ..⟩

set_option maxRecDepth 8192 in
/-- Every operation determines its result: none leaves a buffer's contents open. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

end Cert.ReferenceIdeal.Hand

end
-- ==== Proof.Reference.MainEq.lean ====
/- The reference program's @main is the straight line of its operations: the called functions' bodies unfolded at
   their call sites, sequencing reassociated. -/
import proofs.«122344_j23716809409278_2_alg».proof.Proof.Reference.Ops

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- @main runs its two parts in order; each part is a chain of host steps in which a call is the callee's chain over
    the call's buffers. With the definitions unfolded and the chains reassociated, both sides are one chain of the
    same steps. -/
theorem main_eq (c : Dev nD) : main (F := F) c = StableHlo.seq ops := by
  simp only [main, main_part0, main_part1, fn_remainder.body, fn_remainder_0.body, fn_remainder_1.body, fn_where.body,
    StableHlo.seq, bind_assoc, pure_bind]

end Cert.ReferenceIdeal.Hand

end
-- ==== Proof.Reference.Writes.lean ====
/- The straight line is in single-assignment form: place by place, the buffer each operation writes. -/
import proofs.«122344_j23716809409278_2_alg».proof.Proof.Reference.Ops
import proofs.«122344_j23716809409278_2_alg».proof.Proof.LibAfterAt

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The buffer each operation of the line writes, in order: 227 distinct buffers, none of them an argument. -/
abbrev ws : List (Ref sig .tc) :=
  [ main_c, main_call0_v0, main_call0_c, main_call0_v1, main_call0_c_0, main_call0_v2, main_call0_v3, main_call0_v4,
    main_call0_c_1, main_call0_v5, main_call0_v6, main_call0_c_2, main_call0_v7, main_call0_v8, main_call0_c_3, main_call0_v9,
    main_call0_v10, main_call0_v11, main_call0_v12, main_call0_v13, main_call0_v14, main_v0, main_c_0, main_v1,
    main_v2, main_c_1, main_v3, main_v4, main_v5, main_v6, main_v7, main_c_2,
    main_call1_v0, main_call1_c, main_call1_v1, main_call1_c_0, main_call1_v2, main_call1_v3, main_call1_v4, main_call1_c_1,
    main_call1_v5, main_call1_v6, main_call1_c_2, main_call1_v7, main_call1_v8, main_call1_c_3, main_call1_v9, main_call1_v10,
    main_call1_v11, main_call1_v12, main_call1_v13, main_call1_v14, main_v8, main_c_3, main_v9, main_v10,
    main_c_4, main_v11, main_v12, main_v13, main_v14, main_v15, main_c_5, main_v16,
    main_v17, main_c_6, main_v18, main_v19, main_v20, main_v21, main_v22, main_v23,
    main_c_7, main_call2_v0, main_call2_c, main_call2_v1, main_call2_c_0, main_call2_v2, main_call2_v3, main_call2_v4,
    main_call2_c_1, main_call2_v5, main_call2_v6, main_call2_c_2, main_call2_v7, main_call2_v8, main_call2_c_3, main_call2_v9,
    main_call2_v10, main_call2_v11, main_call2_v12, main_call2_v13, main_call2_v14, main_v24, main_c_8, main_v25,
    main_v26, main_c_9, main_v27, main_v28, main_v29, main_v30, main_v31, main_c_10,
    main_call3_v0, main_call3_c, main_call3_v1, main_call3_c_0, main_call3_v2, main_call3_v3, main_call3_v4, main_call3_c_1,
    main_call3_v5, main_call3_v6, main_call3_c_2, main_call3_v7, main_call3_v8, main_call3_c_3, main_call3_v9, main_call3_v10,
    main_call3_v11, main_call3_v12, main_call3_v13, main_call3_v14, main_v32, main_c_11, main_v33, main_v34,
    main_c_12, main_v35, main_v36, main_v37, main_v38, main_v39, main_c_13, main_v40,
    main_v41, main_c_14, main_v42, main_v43, main_v44, main_v45, main_v46, main_v47,
    main_c_15, main_call4_v0, main_call4_c, main_call4_v1, main_call4_c_0, main_call4_v2, main_call4_v3, main_call4_v4,
    main_call4_c_1, main_call4_v5, main_call4_v6, main_call4_c_2, main_call4_v7, main_call4_v8, main_call4_c_3, main_call4_v9,
    main_call4_v10, main_call4_v11, main_call4_v12, main_call4_v13, main_call4_v14, main_v48, main_c_16, main_v49,
    main_v50, main_c_17, main_v51, main_v52, main_v53, main_v54, main_v55, main_c_18,
    main_call5_v0, main_call5_c, main_call5_v1, main_call5_c_0, main_call5_v2, main_call5_v3, main_call5_v4, main_call5_c_1,
    main_call5_v5, main_call5_v6, main_call5_c_2, main_call5_v7, main_call5_v8, main_call5_c_3, main_call5_v9, main_call5_v10,
    main_call5_v11, main_call5_v12, main_call5_v13, main_call5_v14, main_v56, main_c_19, main_v57, main_v58,
    main_c_20, main_v59, main_v60, main_v61, main_v62, main_v63, main_c_21, main_v64,
    main_v65, main_c_22, main_v66, main_v67, main_v68, main_v69, main_v70, main_v71,
    main_v72, main_cst, main_v73, main_v74, main_cst_23, main_v75, main_v76, main_v77,
    main_cst_24, main_v78, main_v79 ]

set_option maxRecDepth 16384 in
/-- Place by place, the operation writes exactly the listed buffer (each builder's written set is the singleton of its
    result buffer, by definition). -/
theorem ops_writes : Cert.LibAfterAt.Writes (ops : List (HloOp τ sig (Elt F))) ws := by
  repeat (first | exact List.Forall₂.nil | refine List.Forall₂.cons (Finset.Subset.refl _) ?_)

end Cert.ReferenceIdeal.Hand

end
-- ==== Proof.Reference.Run.lean ====
/- The reference program's run: every weakly fair execution terminates; each result buffer ends at the fold of the
   operations' results over the launch contents, and the twelve argument arrays end unchanged. -/
import proofs.«122344_j23716809409278_2_alg».proof.Proof.Reference.MainEq
import proofs.«122344_j23716809409278_2_alg».proof.Proof.Reference.Writes

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- An argument array is written by no operation of the line: after the line it holds what it held. -/
theorem arg_kept (V : Valuation τ sig (Elt F)) {r : Ref sig .tc} (hr : r ∉ ws) :
    StableHlo.after (ops (F := F)) V (Proc.devRef .tc r) = V (Proc.devRef .tc r) :=
  Cert.LibAfterAt.after_of_not_mem ops_writes V hr

theorem kept_arg0 (V : Valuation τ sig (Elt F)) : StableHlo.after (ops (F := F)) V (Proc.devRef .tc main_arg0) = V (Proc.devRef .tc main_arg0) := arg_kept V (by decide)
theorem kept_arg1 (V : Valuation τ sig (Elt F)) : StableHlo.after (ops (F := F)) V (Proc.devRef .tc main_arg1) = V (Proc.devRef .tc main_arg1) := arg_kept V (by decide)
theorem kept_arg2 (V : Valuation τ sig (Elt F)) : StableHlo.after (ops (F := F)) V (Proc.devRef .tc main_arg2) = V (Proc.devRef .tc main_arg2) := arg_kept V (by decide)
theorem kept_arg3 (V : Valuation τ sig (Elt F)) : StableHlo.after (ops (F := F)) V (Proc.devRef .tc main_arg3) = V (Proc.devRef .tc main_arg3) := arg_kept V (by decide)
theorem kept_arg4 (V : Valuation τ sig (Elt F)) : StableHlo.after (ops (F := F)) V (Proc.devRef .tc main_arg4) = V (Proc.devRef .tc main_arg4) := arg_kept V (by decide)
theorem kept_arg5 (V : Valuation τ sig (Elt F)) : StableHlo.after (ops (F := F)) V (Proc.devRef .tc main_arg5) = V (Proc.devRef .tc main_arg5) := arg_kept V (by decide)
theorem kept_arg6 (V : Valuation τ sig (Elt F)) : StableHlo.after (ops (F := F)) V (Proc.devRef .tc main_arg6) = V (Proc.devRef .tc main_arg6) := arg_kept V (by decide)
theorem kept_arg7 (V : Valuation τ sig (Elt F)) : StableHlo.after (ops (F := F)) V (Proc.devRef .tc main_arg7) = V (Proc.devRef .tc main_arg7) := arg_kept V (by decide)
theorem kept_arg8 (V : Valuation τ sig (Elt F)) : StableHlo.after (ops (F := F)) V (Proc.devRef .tc main_arg8) = V (Proc.devRef .tc main_arg8) := arg_kept V (by decide)
theorem kept_arg9 (V : Valuation τ sig (Elt F)) : StableHlo.after (ops (F := F)) V (Proc.devRef .tc main_arg9) = V (Proc.devRef .tc main_arg9) := arg_kept V (by decide)
theorem kept_arg10 (V : Valuation τ sig (Elt F)) : StableHlo.after (ops (F := F)) V (Proc.devRef .tc main_arg10) = V (Proc.devRef .tc main_arg10) := arg_kept V (by decide)
theorem kept_arg11 (V : Valuation τ sig (Elt F)) : StableHlo.after (ops (F := F)) V (Proc.devRef .tc main_arg11) = V (Proc.devRef .tc main_arg11) := arg_kept V (by decide)

set_option maxRecDepth 8192 in
set_option maxHeartbeats 2000000 in
/-- On every device, for any float values, from any memory with zero counters: every weakly fair execution of @main
    terminates with the three results at the line's fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = StableHlo.after ops (fun b => m (c, b)) (Proc.devRef .tc main_v73)
      ∧ r.2.mem ((c.tc : Thread nD τ).loc main_v75) = StableHlo.after ops (fun b => m (c, b)) (Proc.devRef .tc main_v75)
      ∧ r.2.mem ((c.tc : Thread nD τ).loc main_v79) = StableHlo.after ops (fun b => m (c, b)) (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c main_v73, h c main_v75, h c main_v79,
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _)⟩)
    (StableHlo.run_seq scopedRefs_eq scopedSems_eq defs main (fun _ => ops) main_eq (fun _ => ops_sub) m ρ
      (fun _ => List.forall_iff_forall_mem.mp ops_fresh))

/-- The run keeps the arguments: the frame claim's post. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2.2) (run m ρ)

end Cert.ReferenceIdeal.Hand

end
-- ==== Proof.Reference.Gathers.lean ====
/- The nine gathers of table rows, each read as one term of the launch contents: the operations between an argument
   array and a gather's result, read one at a time at the buffers they write. -/
import proofs.«122344_j23716809409278_2_alg».proof.Proof.Reference.Run
import proofs.«122344_j23716809409278_2_alg».proof.Proof.EmbRead

noncomputable section

namespace Cert.ReferenceIdeal.Hand

open Cert.ReferenceIdeal Cert.ReferenceIdeal.Gen Idealize.ShloMosaic Idealize.ShloMosaic.TcCoe Idealize.SL.Sem Idealize.ShloMosaic.ValueIdx

variable {F : FTy → Type} [FloatOps F]

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v7_eq (V : Valuation τ sig (Elt F)) :
    StableHlo.after (ops (F := F)) V (Proc.devRef .tc main_v7)
      = Host.gather gather_S100000x128_S4096x1_S4096x128_1_0_n_n_0_1_1128 (V (Proc.devRef .tc main_arg9))
          (broadcastInDim S4096x1 ![0] bcast_S4096_S4096x1_0 (Cert.EmbRead.wrapV bcast_S_S4096 (Cert.EmbRead.pyModV bcast_S_S4096 (V (Proc.devRef .tc main_arg0)) (constantI S_ 32 100000#32)) 100000#32)) := by
  rw [
    Cert.LibAfterAt.binary_at ops_writes 30 main_arg9 main_v6 main_v7 _ _ _ _ rfl V (by decide) (by decide) (by decide),
    Cert.LibAfterAt.unary_at ops_writes 29 main_v5 main_v6 _ _ _ rfl V (by decide) (by decide),
    Cert.LibAfterAt.ternary_at ops_writes 28 main_v2 main_v4 main_v0 main_v5 _ _ _ _ _ rfl V (by decide) (by decide) (by decide) (by decide),
    Cert.LibAfterAt.binary_at ops_writes 27 main_v0 main_v3 main_v4 _ _ _ _ rfl V (by decide) (by decide) (by decide),
    Cert.LibAfterAt.unary_at ops_writes 26 main_c_1 main_v3 _ _ _ rfl V (by decide) (by decide),
    Cert.LibAfterAt.nullary_at ops_writes 25 main_c_1 _ _ rfl V (by decide),
    Cert.LibAfterAt.binary_at ops_writes 24 main_v0 main_v1 main_v2 _ _ _ _ rfl V (by decide) (by decide) (by decide),
    Cert.LibAfterAt.unary_at ops_writes 23 main_c_0 main_v1 _ _ _ rfl V (by decide) (by decide),
    Cert.LibAfterAt.nullary_at ops_writes 22 main_c_0 _ _ rfl V (by decide),
    Cert.LibAfterAt.ternary_at ops_writes 21 main_call0_v12 main_call0_v14 main_call0_v4 main_v0 _ _ _ _ _ rfl V (by decide) (by decide) (by decide) (by decide),
    Cert.LibAfterAt.binary_at ops_writes 20 main_call0_v4 main_call0_v13 main_call0_v14 _ _ _ _ rfl V (by decide) (by decide) (by decide),
    Cert.LibAfterAt.unary_at ops_writes 19 main_call0_v2 main_call0_v13 _ _ _ rfl V (by decide) (by decide),
    Cert.LibAfterAt.binary_at ops_writes 18 main_call0_v11 main_call0_v6 main_call0_v12 _ _ _ _ rfl V (by decide) (by decide) (by decide),
    Cert.LibAfterAt.binary_at ops_writes 17 main_call0_v8 main_call0_v10 main_call0_v11 _ _ _ _ rfl V (by decide) (by decide) (by decide),
    Cert.LibAfterAt.unary_at ops_writes 16 main_call0_v9 main_call0_v10 _ _ _ rfl V (by decide) (by decide),
    Cert.LibAfterAt.binary_at ops_writes 15 main_call0_v2 main_call0_c_3 main_call0_v9 _ _ _ _ rfl V (by decide) (by decide) (by decide),
    Cert.LibAfterAt.nullary_at ops_writes 14 main_call0_c_3 _ _ rfl V (by decide),
    Cert.LibAfterAt.binary_at ops_writes 13 main_call0_v4 main_call0_v7 main_call0_v8 _ _ _ _ rfl V (by decide) (by decide) (by decide),
    Cert.LibAfterAt.unary_at ops_writes 12 main_call0_c_2 main_call0_v7 _ _ _ rfl V (by decide) (by decide),
    Cert.LibAfterAt.nullary_at ops_writes 11 main_call0_c_2 _ _ rfl V (by decide),
    Cert.LibAfterAt.binary_at ops_writes 10 main_call0_v4 main_call0_v5 main_call0_v6 _ _ _ _ rfl V (by decide) (by decide) (by decide),
    Cert.LibAfterAt.unary_at ops_writes 9 main_call0_c_1 main_call0_v5 _ _ _ rfl V (by decide) (by decide),
    Cert.LibAfterAt.nullary_at ops_writes 8 main_call0_c_1 _ _ rfl V (by decide),
    Cert.LibAfterAt.binary_at ops_writes 7 main_arg0 main_call0_v3 main_call0_v4 _ _ _ _ rfl V (by decide) (by decide) (by decide),
    Cert.LibAfterAt.unary_at ops_writes 6 main_call0_v2 main_call0_v3 _ _ _ rfl V (by decide) (by decide),
    Cert.LibAfterAt.ternary_at ops_writes 5 main_call0_v1 main_call0_c_0 main_call0_v0 main_call0_v2 _ _ _ _ _ rfl V (by decide) (by decide) (by decide) (by decide),
    Cert.LibAfterAt.nullary_at ops_writes 4 main_call0_c_0 _ _ rfl V (by decide),
    Cert.LibAfterAt.binary_at ops_writes 3 main_call0_v0 main_call0_c main_call0_v1 _ _ _ _ rfl V (by decide) (by decide) (by decide),
    Cert.LibAfterAt.nullary_at ops_writes 2 main_call0_c _ _ rfl V (by decide),
    Cert.LibAfterAt.unary_at ops_writes 1 main_c main_call0_v0 _ _ _ rfl V (by decide) (by decide),
    Cert.LibAfterAt.nullary_at ops_writes 0 main_c _ _ rfl V (by decide),
    kept_arg9, kept_arg0]
  rfl

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v15_eq (V : Valuation τ sig (Elt F)) :
    StableHlo.after (ops (F := F)) V (Proc.devRef .tc main_v15)
      = Host.gather gather_S100000x128_S4096x1_S4096x128_1_0_n_n_0_1_1128 (V (Proc.devRef .tc main_arg10))
          (broadcastInDim S4096x1 ![0] bcast_S4096_S4096x1_0 (Cert.EmbRead.wrapV bcast_S_S4096 (Cert.EmbRead.pyModV bcast_S_S4096 (V (Proc.devRef .tc main_arg1)) (constantI S_ 32 100000#32)) 100000#32)) := by
  rw [
    Cert.LibAfterAt.binary_at ops_writes 61 main_arg10 main_v14 main_v15 _ _ _ _ rfl V (by decide) (by decide) (by decide),
    Cert.LibAfterAt.unary_at ops_writes 60 main_v13 main_v14 _ _ _ rfl V (by decide) (by decide),
    Cert.LibAfterAt.ternary_at ops_writes 59 main_v10 main_v12 main_v8 main_v13 _ _ _ _ _ rfl V (by decide) (by decide) (by decide) (by decide),
    Cert.LibAfterAt.binary_at ops_writes 58 main_v8 main_v11 main_v12 _ _ _ _ rfl V (by decide) (by decide) (by decide),
    Cert.LibAfterAt.unary_at ops_writes 57 main_c_4 main_v11 _ _ _ rfl V (by decide) (by decide),
    Cert.LibAfterAt.nullary_at ops_writes 56 main_c_4 _ _ rfl V (by decide),
    Cert.LibAfterAt.binary_at ops_writes 55 main_v8 main_v9 main_v10 _ _ _ _ rfl V (by decide) (by decide) (by decide),
    Cert.LibAfterAt.unary_at ops_writes 54 main_c_3 main_v9 _ _ _ rfl V (by decide) (by decide),
    Cert.LibAfterAt.nullary_at ops_writes 53 main_c_3 _ _ rfl V (by decide),
    Cert.LibAfterAt.ternary_at ops_writes 52 main_call1_v12 main_call1_v14 main_call1_v4 main_v8 _ _ _ _ _ rfl V (by decide) (by decide) (by decide) (by decide),
    Cert.LibAfterAt.binary_at ops_writes 51 main_call1_v4 main_call1_v13 main_call1_v14 _ _ _ _ rfl V (by decide) (by decide) (by decide),
    Cert.LibAfterAt.unary_at ops_writes 50 main_call1_v2 main_call1_v13 _ _ _ rfl V (by decide) (by decide),
    Cert.LibAfterAt.binary_at ops_writes 49 main_call1_v11 main_call1_v6 main_call1_v12 _ _ _ _ rfl V (by decide) (by decide) (by decide),
    Cert.LibAfterAt.binary_at ops_writes 48 main_call1_v8 main_call1_v10 main_call1_v11 _ _ _ _ rfl V (by decide) (by decide) (by decide),
    Cert.LibAfterAt.unary_at ops_writes 47 main_call1_v9 main_call1_v10 _ _ _ rfl V (by decide) (by decide),
    Cert.LibAfterAt.binary_at ops_writes 46 main_call1_v2 main_call1_c_3 main_call1_v9 _ _ _ _ rfl V (by decide) (by decide) (by decide),
    Cert.LibAfterAt.nullary_at ops_writes 45 main_call1_c_3 _ _ rfl V (by decide),
    Cert.LibAfterAt.binary_at ops_writes 44 main_call1_v4 main_call1_v7 main_call1_v8 _ _ _ _ rfl V (by decide) (by decide) (by decide),
    Cert.LibAfterAt.unary_at ops_writes 43 main_call1_c_2 main_call1_v7 _ _ _ rfl V (by decide) (by decide),
    Cert.LibAfterAt.nullary_at ops_writes 42 main_call1_c_2 _ _ rfl V (by decide),
    Cert.LibAfterAt.binary_at ops_writes 41 main_call1_v4 main_call1_v5 main_call1_v6 _ _ _ _ rfl V (by decide) (by decide) (by decide),
    Cert.LibAfterAt.unary_at ops_writes 40 main_call1_c_1 main_call1_v5 _ _ _ rfl V (by decide) (by decide),
    Cert.LibAfterAt.nullary_at ops_writes 39 main_call1_c_1 _ _ rfl V (by decide),
    Cert.LibAfterAt.binary_at ops_writes 38 main_arg1 main_call1_v3 main_call1_v4 _ _ _ _ rfl V (by decide) (by decide) (by decide),
    Cert.LibAfterAt.unary_at ops_writes 37 main_call1_v2 main_call1_v3 _ _ _ rfl V (by decide) (by decide),
    Cert.LibAfterAt.ternary_at ops_writes 36 main_call1_v1 main_call1_c_0 main_call1_v0 main_call1_v2 _ _ _ _ _ rfl V (by decide) (by decide) (by decide) (by decide),
    Cert.LibAfterAt.nullary_at ops_writes 35 main_call1_c_0 _ _ rfl V (by decide),
    Cert.LibAfterAt.binary_at ops_writes 34 main_call1_v0 main_call1_c main_call1_v1 _ _ _ _ rfl V (by decide) (by decide) (by decide),
    Cert.LibAfterAt.nullary_at ops_writes 33 main_call1_c _ _ rfl V (by decide),
    Cert.LibAfterAt.unary_at ops_writes 32 main_c_2 main_call1_v0 _ _ _ rfl V (by decide) (by decide),
    Cert.LibAfterAt.nullary_at ops_writes 31 main_c_2 _ _ rfl V (by decide),
    kept_arg10, kept_arg1]
  rfl

set_option maxRecDepth 8192 in
set_option maxHeartbeats 4000000 in
/-- The gather of table rows at the column of the raw index vector wrapped if negative, as a term of the launch
    contents. Each step reads one operation of the line at the buffer it writes. -/
theorem v22_eq (V : Valuation τ sig (Elt F)) :
    StableHlo.after (ops (F := F)) V (Proc.devRef .tc main_v22)
      = Host.gather gather_S295861x128_S4096x1_S4096x128_1_0_n_n_0_1_1128 (V (Proc.devRef .tc main_arg11))
          (broadcastInDim S4096x1 ![0] bcast_S4096_S4096x1_0 (Cert.EmbRead.wrapV bcast_S_S4096 (V (Proc.devRef .tc main_arg2)) 295861#32)) := by
  rw [
    Cert.LibAfterAt.binary_at ops_writes 70 main_arg11 main_v21 main_v22 _ _ _ _ rfl V (by decide) (by decide) (by decide),
    Cert.LibAfterAt.unary_at ops_writes 69 main_v20 main_v21 _ _ _ rfl V (by decide) (by decide),
    Cert.LibAfterAt.ternary_at ops_writes 68 main_v17 main_v19 main_arg2 main_v20 _ _ _ _ _ rfl V (by decide) (by decide) (by decide) (by decide),
    Cert.LibAfterAt.binary_at ops_writes 67 main_arg2 main_v18 main_v19 _ _ _ _ rfl V (by decide) (by decide) (by decide),
    Cert.LibAfterAt.unary_at ops_writes 66 main_c_6 main_v18 _ _ _ rfl V (by decide) (by decide),
    Cert.LibAfterAt.nullary_at ops_writes 65 main_c_6 _ _ rfl V (by decide),
    Cert.LibAfterAt.binary_at ops_writes 64 main_arg2 main_v16 main_v17 _ _ _ _ rfl V (by decide) (by decide) (by decide),
    Cert.LibAfterAt.unary_at ops_writes 63 main_c_5 main_v16 _ _ _ rfl V (by decide) (by decide),
    Cert.LibAfterAt.nullary_at ops_writes 62 main_c_5 _ _ rfl V (by decide),
    kept_arg11, kept_arg2]
  rfl

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v31_eq (V : Valuation τ sig (Elt F)) :
    StableHlo.after (ops (F := F)) V (Proc.devRef .tc main_v31)
      = Host.gather gather_S100000x128_S2048x1_S2048x128_1_0_n_n_0_1_1128 (V (Proc.devRef .tc main_arg9))
          (broadcastInDim S2048x1 ![0] bcast_S2048_S2048x1_0 (Cert.EmbRead.wrapV bcast_S_S2048 (Cert.EmbRead.pyModV bcast_S_S2048 (V (Proc.devRef .tc main_arg3)) (constantI S_ 32 100000#32)) 100000#32)) := by
  rw [
    Cert.LibAfterAt.binary_at ops_writes 102 main_arg9 main_v30 main_v31 _ _ _ _ rfl V (by decide) (by decide) (by decide),
    Cert.LibAfterAt.unary_at ops_writes 101 main_v29 main_v30 _ _ _ rfl V (by decide) (by decide),
    Cert.LibAfterAt.ternary_at ops_writes 100 main_v26 main_v28 main_v24 main_v29 _ _ _ _ _ rfl V (by decide) (by decide) (by decide) (by decide),
    Cert.LibAfterAt.binary_at ops_writes 99 main_v24 main_v27 main_v28 _ _ _ _ rfl V (by decide) (by decide) (by decide),
    Cert.LibAfterAt.unary_at ops_writes 98 main_c_9 main_v27 _ _ _ rfl V (by decide) (by decide),
    Cert.LibAfterAt.nullary_at ops_writes 97 main_c_9 _ _ rfl V (by decide),
    Cert.LibAfterAt.binary_at ops_writes 96 main_v24 main_v25 main_v26 _ _ _ _ rfl V (by decide) (by decide) (by decide),
    Cert.LibAfterAt.unary_at ops_writes 95 main_c_8 main_v25 _ _ _ rfl V (by decide) (by decide),
    Cert.LibAfterAt.nullary_at ops_writes 94 main_c_8 _ _ rfl V (by decide),
    Cert.LibAfterAt.ternary_at ops_writes 93 main_call2_v12 main_call2_v14 main_call2_v4 main_v24 _ _ _ _ _ rfl V (by decide) (by decide) (by decide) (by decide),
    Cert.LibAfterAt.binary_at ops_writes 92 main_call2_v4 main_call2_v13 main_call2_v14 _ _ _ _ rfl V (by decide) (by decide) (by decide),
    Cert.LibAfterAt.unary_at ops_writes 91 main_call2_v2 main_call2_v13 _ _ _ rfl V (by decide) (by decide),
    Cert.LibAfterAt.binary_at ops_writes 90 main_call2_v11 main_call2_v6 main_call2_v12 _ _ _ _ rfl V (by decide) (by decide) (by decide),
    Cert.LibAfterAt.binary_at ops_writes 89 main_call2_v8 main_call2_v10 main_call2_v11 _ _ _ _ rfl V (by decide) (by decide) (by decide),
    Cert.LibAfterAt.unary_at ops_writes 88 main_call2_v9 main_call2_v10 _ _ _ rfl V (by decide) (by decide),
    Cert.LibAfterAt.binary_at ops_writes 87 main_call2_v2 main_call2_c_3 main_call2_v9 _ _ _ _ rfl V (by decide) (by decide) (by decide),
    Cert.LibAfterAt.nullary_at ops_writes 86 main_call2_c_3 _ _ rfl V (by decide),
    Cert.LibAfterAt.binary_at ops_writes 85 main_call2_v4 main_call2_v7 main_call2_v8 _ _ _ _ rfl V (by decide) (by decide) (by decide),
    Cert.LibAfterAt.unary_at ops_writes 84 main_call2_c_2 main_call2_v7 _ _ _ rfl V (by decide) (by decide),
    Cert.LibAfterAt.nullary_at ops_writes 83 main_call2_c_2 _ _ rfl V (by decide),
    Cert.LibAfterAt.binary_at ops_writes 82 main_call2_v4 main_call2_v5 main_call2_v6 _ _ _ _ rfl V (by decide) (by decide) (by decide),
    Cert.LibAfterAt.unary_at ops_writes 81 main_call2_c_1 main_call2_v5 _ _ _ rfl V (by decide) (by decide),
    Cert.LibAfterAt.nullary_at ops_writes 80 main_call2_c_1 _ _ rfl V (by decide),
    Cert.LibAfterAt.binary_at ops_writes 79 main_arg3 main_call2_v3 main_call2_v4 _ _ _ _ rfl V (by decide) (by decide) (by decide),
    Cert.LibAfterAt.unary_at ops_writes 78 main_call2_v2 main_call2_v3 _ _ _ rfl V (by decide) (by decide),
    Cert.LibAfterAt.ternary_at ops_writes 77 main_call2_v1 main_call2_c_0 main_call2_v0 main_call2_v2 _ _ _ _ _ rfl V (by decide) (by decide) (by decide) (by decide),
    Cert.LibAfterAt.nullary_at ops_writes 76 main_call2_c_0 _ _ rfl V (by decide),
    Cert.LibAfterAt.binary_at ops_writes 75 main_call2_v0 main_call2_c main_call2_v1 _ _ _ _ rfl V (by decide) (by decide) (by decide),
    Cert.LibAfterAt.nullary_at ops_writes 74 main_call2_c _ _ rfl V (by decide),
    Cert.LibAfterAt.unary_at ops_writes 73 main_c_7 main_call2_v0 _ _ _ rfl V (by decide) (by decide),
    Cert.LibAfterAt.nullary_at ops_writes 72 main_c_7 _ _ rfl V (by decide),
    kept_arg9, kept_arg3]
  rfl

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v39_eq (V : Valuation τ sig (Elt F)) :
    StableHlo.after (ops (F := F)) V (Proc.devRef .tc main_v39)
      = Host.gather gather_S100000x128_S2048x1_S2048x128_1_0_n_n_0_1_1128 (V (Proc.devRef .tc main_arg10))
          (broadcastInDim S2048x1 ![0] bcast_S2048_S2048x1_0 (Cert.EmbRead.wrapV bcast_S_S2048 (Cert.EmbRead.pyModV bcast_S_S2048 (V (Proc.devRef .tc main_arg4)) (constantI S_ 32 100000#32)) 100000#32)) := by
  rw [
    Cert.LibAfterAt.binary_at ops_writes 133 main_arg10 main_v38 main_v39 _ _ _ _ rfl V (by decide) (by decide) (by decide),
    Cert.LibAfterAt.unary_at ops_writes 132 main_v37 main_v38 _ _ _ rfl V (by decide) (by decide),
    Cert.LibAfterAt.ternary_at ops_writes 131 main_v34 main_v36 main_v32 main_v37 _ _ _ _ _ rfl V (by decide) (by decide) (by decide) (by decide),
    Cert.LibAfterAt.binary_at ops_writes 130 main_v32 main_v35 main_v36 _ _ _ _ rfl V (by decide) (by decide) (by decide),
    Cert.LibAfterAt.unary_at ops_writes 129 main_c_12 main_v35 _ _ _ rfl V (by decide) (by decide),
    Cert.LibAfterAt.nullary_at ops_writes 128 main_c_12 _ _ rfl V (by decide),
    Cert.LibAfterAt.binary_at ops_writes 127 main_v32 main_v33 main_v34 _ _ _ _ rfl V (by decide) (by decide) (by decide),
    Cert.LibAfterAt.unary_at ops_writes 126 main_c_11 main_v33 _ _ _ rfl V (by decide) (by decide),
    Cert.LibAfterAt.nullary_at ops_writes 125 main_c_11 _ _ rfl V (by decide),
    Cert.LibAfterAt.ternary_at ops_writes 124 main_call3_v12 main_call3_v14 main_call3_v4 main_v32 _ _ _ _ _ rfl V (by decide) (by decide) (by decide) (by decide),
    Cert.LibAfterAt.binary_at ops_writes 123 main_call3_v4 main_call3_v13 main_call3_v14 _ _ _ _ rfl V (by decide) (by decide) (by decide),
    Cert.LibAfterAt.unary_at ops_writes 122 main_call3_v2 main_call3_v13 _ _ _ rfl V (by decide) (by decide),
    Cert.LibAfterAt.binary_at ops_writes 121 main_call3_v11 main_call3_v6 main_call3_v12 _ _ _ _ rfl V (by decide) (by decide) (by decide),
    Cert.LibAfterAt.binary_at ops_writes 120 main_call3_v8 main_call3_v10 main_call3_v11 _ _ _ _ rfl V (by decide) (by decide) (by decide),
    Cert.LibAfterAt.unary_at ops_writes 119 main_call3_v9 main_call3_v10 _ _ _ rfl V (by decide) (by decide),
    Cert.LibAfterAt.binary_at ops_writes 118 main_call3_v2 main_call3_c_3 main_call3_v9 _ _ _ _ rfl V (by decide) (by decide) (by decide),
    Cert.LibAfterAt.nullary_at ops_writes 117 main_call3_c_3 _ _ rfl V (by decide),
    Cert.LibAfterAt.binary_at ops_writes 116 main_call3_v4 main_call3_v7 main_call3_v8 _ _ _ _ rfl V (by decide) (by decide) (by decide),
    Cert.LibAfterAt.unary_at ops_writes 115 main_call3_c_2 main_call3_v7 _ _ _ rfl V (by decide) (by decide),
    Cert.LibAfterAt.nullary_at ops_writes 114 main_call3_c_2 _ _ rfl V (by decide),
    Cert.LibAfterAt.binary_at ops_writes 113 main_call3_v4 main_call3_v5 main_call3_v6 _ _ _ _ rfl V (by decide) (by decide) (by decide),
    Cert.LibAfterAt.unary_at ops_writes 112 main_call3_c_1 main_call3_v5 _ _ _ rfl V (by decide) (by decide),
    Cert.LibAfterAt.nullary_at ops_writes 111 main_call3_c_1 _ _ rfl V (by decide),
    Cert.LibAfterAt.binary_at ops_writes 110 main_arg4 main_call3_v3 main_call3_v4 _ _ _ _ rfl V (by decide) (by decide) (by decide),
    Cert.LibAfterAt.unary_at ops_writes 109 main_call3_v2 main_call3_v3 _ _ _ rfl V (by decide) (by decide),
    Cert.LibAfterAt.ternary_at ops_writes 108 main_call3_v1 main_call3_c_0 main_call3_v0 main_call3_v2 _ _ _ _ _ rfl V (by decide) (by decide) (by decide) (by decide),
    Cert.LibAfterAt.nullary_at ops_writes 107 main_call3_c_0 _ _ rfl V (by decide),
    Cert.LibAfterAt.binary_at ops_writes 106 main_call3_v0 main_call3_c main_call3_v1 _ _ _ _ rfl V (by decide) (by decide) (by decide),
    Cert.LibAfterAt.nullary_at ops_writes 105 main_call3_c _ _ rfl V (by decide),
    Cert.LibAfterAt.unary_at ops_writes 104 main_c_10 main_call3_v0 _ _ _ rfl V (by decide) (by decide),
    Cert.LibAfterAt.nullary_at ops_writes 103 main_c_10 _ _ rfl V (by decide),
    kept_arg10, kept_arg4]
  rfl

set_option maxRecDepth 8192 in
set_option maxHeartbeats 4000000 in
/-- The gather of table rows at the column of the raw index vector wrapped if negative, as a term of the launch
    contents. Each step reads one operation of the line at the buffer it writes. -/
theorem v46_eq (V : Valuation τ sig (Elt F)) :
    StableHlo.after (ops (F := F)) V (Proc.devRef .tc main_v46)
      = Host.gather gather_S295861x128_S2048x1_S2048x128_1_0_n_n_0_1_1128 (V (Proc.devRef .tc main_arg11))
          (broadcastInDim S2048x1 ![0] bcast_S2048_S2048x1_0 (Cert.EmbRead.wrapV bcast_S_S2048 (V (Proc.devRef .tc main_arg5)) 295861#32)) := by
  rw [
    Cert.LibAfterAt.binary_at ops_writes 142 main_arg11 main_v45 main_v46 _ _ _ _ rfl V (by decide) (by decide) (by decide),
    Cert.LibAfterAt.unary_at ops_writes 141 main_v44 main_v45 _ _ _ rfl V (by decide) (by decide),
    Cert.LibAfterAt.ternary_at ops_writes 140 main_v41 main_v43 main_arg5 main_v44 _ _ _ _ _ rfl V (by decide) (by decide) (by decide) (by decide),
    Cert.LibAfterAt.binary_at ops_writes 139 main_arg5 main_v42 main_v43 _ _ _ _ rfl V (by decide) (by decide) (by decide),
    Cert.LibAfterAt.unary_at ops_writes 138 main_c_14 main_v42 _ _ _ rfl V (by decide) (by decide),
    Cert.LibAfterAt.nullary_at ops_writes 137 main_c_14 _ _ rfl V (by decide),
    Cert.LibAfterAt.binary_at ops_writes 136 main_arg5 main_v40 main_v41 _ _ _ _ rfl V (by decide) (by decide) (by decide),
    Cert.LibAfterAt.unary_at ops_writes 135 main_c_13 main_v40 _ _ _ rfl V (by decide) (by decide),
    Cert.LibAfterAt.nullary_at ops_writes 134 main_c_13 _ _ rfl V (by decide),
    kept_arg11, kept_arg5]
  rfl

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v55_eq (V : Valuation τ sig (Elt F)) :
    StableHlo.after (ops (F := F)) V (Proc.devRef .tc main_v55)
      = Host.gather gather_S100000x128_S8192x1_S8192x128_1_0_n_n_0_1_1128 (V (Proc.devRef .tc main_arg9))
          (broadcastInDim S8192x1 ![0] bcast_S8192_S8192x1_0 (Cert.EmbRead.wrapV bcast_S_S8192 (Cert.EmbRead.pyModV bcast_S_S8192 (V (Proc.devRef .tc main_arg6)) (constantI S_ 32 100000#32)) 100000#32)) := by
  rw [
    Cert.LibAfterAt.binary_at ops_writes 174 main_arg9 main_v54 main_v55 _ _ _ _ rfl V (by decide) (by decide) (by decide),
    Cert.LibAfterAt.unary_at ops_writes 173 main_v53 main_v54 _ _ _ rfl V (by decide) (by decide),
    Cert.LibAfterAt.ternary_at ops_writes 172 main_v50 main_v52 main_v48 main_v53 _ _ _ _ _ rfl V (by decide) (by decide) (by decide) (by decide),
    Cert.LibAfterAt.binary_at ops_writes 171 main_v48 main_v51 main_v52 _ _ _ _ rfl V (by decide) (by decide) (by decide),
    Cert.LibAfterAt.unary_at ops_writes 170 main_c_17 main_v51 _ _ _ rfl V (by decide) (by decide),
    Cert.LibAfterAt.nullary_at ops_writes 169 main_c_17 _ _ rfl V (by decide),
    Cert.LibAfterAt.binary_at ops_writes 168 main_v48 main_v49 main_v50 _ _ _ _ rfl V (by decide) (by decide) (by decide),
    Cert.LibAfterAt.unary_at ops_writes 167 main_c_16 main_v49 _ _ _ rfl V (by decide) (by decide),
    Cert.LibAfterAt.nullary_at ops_writes 166 main_c_16 _ _ rfl V (by decide),
    Cert.LibAfterAt.ternary_at ops_writes 165 main_call4_v12 main_call4_v14 main_call4_v4 main_v48 _ _ _ _ _ rfl V (by decide) (by decide) (by decide) (by decide),
    Cert.LibAfterAt.binary_at ops_writes 164 main_call4_v4 main_call4_v13 main_call4_v14 _ _ _ _ rfl V (by decide) (by decide) (by decide),
    Cert.LibAfterAt.unary_at ops_writes 163 main_call4_v2 main_call4_v13 _ _ _ rfl V (by decide) (by decide),
    Cert.LibAfterAt.binary_at ops_writes 162 main_call4_v11 main_call4_v6 main_call4_v12 _ _ _ _ rfl V (by decide) (by decide) (by decide),
    Cert.LibAfterAt.binary_at ops_writes 161 main_call4_v8 main_call4_v10 main_call4_v11 _ _ _ _ rfl V (by decide) (by decide) (by decide),
    Cert.LibAfterAt.unary_at ops_writes 160 main_call4_v9 main_call4_v10 _ _ _ rfl V (by decide) (by decide),
    Cert.LibAfterAt.binary_at ops_writes 159 main_call4_v2 main_call4_c_3 main_call4_v9 _ _ _ _ rfl V (by decide) (by decide) (by decide),
    Cert.LibAfterAt.nullary_at ops_writes 158 main_call4_c_3 _ _ rfl V (by decide),
    Cert.LibAfterAt.binary_at ops_writes 157 main_call4_v4 main_call4_v7 main_call4_v8 _ _ _ _ rfl V (by decide) (by decide) (by decide),
    Cert.LibAfterAt.unary_at ops_writes 156 main_call4_c_2 main_call4_v7 _ _ _ rfl V (by decide) (by decide),
    Cert.LibAfterAt.nullary_at ops_writes 155 main_call4_c_2 _ _ rfl V (by decide),
    Cert.LibAfterAt.binary_at ops_writes 154 main_call4_v4 main_call4_v5 main_call4_v6 _ _ _ _ rfl V (by decide) (by decide) (by decide),
    Cert.LibAfterAt.unary_at ops_writes 153 main_call4_c_1 main_call4_v5 _ _ _ rfl V (by decide) (by decide),
    Cert.LibAfterAt.nullary_at ops_writes 152 main_call4_c_1 _ _ rfl V (by decide),
    Cert.LibAfterAt.binary_at ops_writes 151 main_arg6 main_call4_v3 main_call4_v4 _ _ _ _ rfl V (by decide) (by decide) (by decide),
    Cert.LibAfterAt.unary_at ops_writes 150 main_call4_v2 main_call4_v3 _ _ _ rfl V (by decide) (by decide),
    Cert.LibAfterAt.ternary_at ops_writes 149 main_call4_v1 main_call4_c_0 main_call4_v0 main_call4_v2 _ _ _ _ _ rfl V (by decide) (by decide) (by decide) (by decide),
    Cert.LibAfterAt.nullary_at ops_writes 148 main_call4_c_0 _ _ rfl V (by decide),
    Cert.LibAfterAt.binary_at ops_writes 147 main_call4_v0 main_call4_c main_call4_v1 _ _ _ _ rfl V (by decide) (by decide) (by decide),
    Cert.LibAfterAt.nullary_at ops_writes 146 main_call4_c _ _ rfl V (by decide),
    Cert.LibAfterAt.unary_at ops_writes 145 main_c_15 main_call4_v0 _ _ _ rfl V (by decide) (by decide),
    Cert.LibAfterAt.nullary_at ops_writes 144 main_c_15 _ _ rfl V (by decide),
    kept_arg9, kept_arg6]
  rfl

set_option maxRecDepth 8192 in
set_option maxHeartbeats 4000000 in
/-- The gather of table rows for one index vector, as a term of the launch contents: the table's rows at the column of
    the index vector reduced modulo 100000 (the called function's twenty-one operations read as one vector term) and
    wrapped if negative. Each step reads one operation of the line at the buffer it writes. -/
theorem v63_eq (V : Valuation τ sig (Elt F)) :
    StableHlo.after (ops (F := F)) V (Proc.devRef .tc main_v63)
      = Host.gather gather_S100000x128_S8192x1_S8192x128_1_0_n_n_0_1_1128 (V (Proc.devRef .tc main_arg10))
          (broadcastInDim S8192x1 ![0] bcast_S8192_S8192x1_0 (Cert.EmbRead.wrapV bcast_S_S8192 (Cert.EmbRead.pyModV bcast_S_S8192 (V (Proc.devRef .tc main_arg7)) (constantI S_ 32 100000#32)) 100000#32)) := by
  rw [
    Cert.LibAfterAt.binary_at ops_writes 205 main_arg10 main_v62 main_v63 _ _ _ _ rfl V (by decide) (by decide) (by decide),
    Cert.LibAfterAt.unary_at ops_writes 204 main_v61 main_v62 _ _ _ rfl V (by decide) (by decide),
    Cert.LibAfterAt.ternary_at ops_writes 203 main_v58 main_v60 main_v56 main_v61 _ _ _ _ _ rfl V (by decide) (by decide) (by decide) (by decide),
    Cert.LibAfterAt.binary_at ops_writes 202 main_v56 main_v59 main_v60 _ _ _ _ rfl V (by decide) (by decide) (by decide),
    Cert.LibAfterAt.unary_at ops_writes 201 main_c_20 main_v59 _ _ _ rfl V (by decide) (by decide),
    Cert.LibAfterAt.nullary_at ops_writes 200 main_c_20 _ _ rfl V (by decide),
    Cert.LibAfterAt.binary_at ops_writes 199 main_v56 main_v57 main_v58 _ _ _ _ rfl V (by decide) (by decide) (by decide),
    Cert.LibAfterAt.unary_at ops_writes 198 main_c_19 main_v57 _ _ _ rfl V (by decide) (by decide),
    Cert.LibAfterAt.nullary_at ops_writes 197 main_c_19 _ _ rfl V (by decide),
    Cert.LibAfterAt.ternary_at ops_writes 196 main_call5_v12 main_call5_v14 main_call5_v4 main_v56 _ _ _ _ _ rfl V (by decide) (by decide) (by decide) (by decide),
    Cert.LibAfterAt.binary_at ops_writes 195 main_call5_v4 main_call5_v13 main_call5_v14 _ _ _ _ rfl V (by decide) (by decide) (by decide),
    Cert.LibAfterAt.unary_at ops_writes 194 main_call5_v2 main_call5_v13 _ _ _ rfl V (by decide) (by decide),
    Cert.LibAfterAt.binary_at ops_writes 193 main_call5_v11 main_call5_v6 main_call5_v12 _ _ _ _ rfl V (by decide) (by decide) (by decide),
    Cert.LibAfterAt.binary_at ops_writes 192 main_call5_v8 main_call5_v10 main_call5_v11 _ _ _ _ rfl V (by decide) (by decide) (by decide),
    Cert.LibAfterAt.unary_at ops_writes 191 main_call5_v9 main_call5_v10 _ _ _ rfl V (by decide) (by decide),
    Cert.LibAfterAt.binary_at ops_writes 190 main_call5_v2 main_call5_c_3 main_call5_v9 _ _ _ _ rfl V (by decide) (by decide) (by decide),
    Cert.LibAfterAt.nullary_at ops_writes 189 main_call5_c_3 _ _ rfl V (by decide),
    Cert.LibAfterAt.binary_at ops_writes 188 main_call5_v4 main_call5_v7 main_call5_v8 _ _ _ _ rfl V (by decide) (by decide) (by decide),
    Cert.LibAfterAt.unary_at ops_writes 187 main_call5_c_2 main_call5_v7 _ _ _ rfl V (by decide) (by decide),
    Cert.LibAfterAt.nullary_at ops_writes 186 main_call5_c_2 _ _ rfl V (by decide),
    Cert.LibAfterAt.binary_at ops_writes 185 main_call5_v4 main_call5_v5 main_call5_v6 _ _ _ _ rfl V (by decide) (by decide) (by decide),
    Cert.LibAfterAt.unary_at ops_writes 184 main_call5_c_1 main_call5_v5 _ _ _ rfl V (by decide) (by decide),
    Cert.LibAfterAt.nullary_at ops_writes 183 main_call5_c_1 _ _ rfl V (by decide),
    Cert.LibAfterAt.binary_at ops_writes 182 main_arg7 main_call5_v3 main_call5_v4 _ _ _ _ rfl V (by decide) (by decide) (by decide),
    Cert.LibAfterAt.unary_at ops_writes 181 main_call5_v2 main_call5_v3 _ _ _ rfl V (by decide) (by decide),
    Cert.LibAfterAt.ternary_at ops_writes 180 main_call5_v1 main_call5_c_0 main_call5_v0 main_call5_v2 _ _ _ _ _ rfl V (by decide) (by decide) (by decide) (by decide),
    Cert.LibAfterAt.nullary_at ops_writes 179 main_call5_c_0 _ _ rfl V (by decide),
    Cert.LibAfterAt.binary_at ops_writes 178 main_call5_v0 main_call5_c main_call5_v1 _ _ _ _ rfl V (by decide) (by decide) (by decide),
    Cert.LibAfterAt.nullary_at ops_writes 177 main_call5_c _ _ rfl V (by decide),
    Cert.LibAfterAt.unary_at ops_writes 176 main_c_18 main_call5_v0 _ _ _ rfl V (by decide) (by decide),
    Cert.LibAfterAt.nullary_at ops_writes 175 main_c_18 _ _ rfl V (by decide),
    kept_arg10, kept_arg7]
  rfl

set_option maxRecDepth 8192 in
set_option maxHeartbeats 4000000 in
/-- The gather of table rows at the column of the raw index vector wrapped if negative, as a term of the launch
    contents. Each step reads one operation of the line at the buffer it writes. -/
theorem v70_eq (V : Valuation τ sig (Elt F)) :
    StableHlo.after (ops (F := F)) V (Proc.devRef .tc main_v70)
      = Host.gather gather_S295861x128_S8192x1_S8192x128_1_0_n_n_0_1_1128 (V (Proc.devRef .tc main_arg11))
          (broadcastInDim S8192x1 ![0] bcast_S8192_S8192x1_0 (Cert.EmbRead.wrapV bcast_S_S8192 (V (Proc.devRef .tc main_arg8)) 295861#32)) := by
  rw [
    Cert.LibAfterAt.binary_at ops_writes 214 main_arg11 main_v69 main_v70 _ _ _ _ rfl V (by decide) (by decide) (by decide),
    Cert.LibAfterAt.unary_at ops_writes 213 main_v68 main_v69 _ _ _ rfl V (by decide) (by decide),
    Cert.LibAfterAt.ternary_at ops_writes 212 main_v65 main_v67 main_arg8 main_v68 _ _ _ _ _ rfl V (by decide) (by decide) (by decide) (by decide),
    Cert.LibAfterAt.binary_at ops_writes 211 main_arg8 main_v66 main_v67 _ _ _ _ rfl V (by decide) (by decide) (by decide),
    Cert.LibAfterAt.unary_at ops_writes 210 main_c_22 main_v66 _ _ _ rfl V (by decide) (by decide),
    Cert.LibAfterAt.nullary_at ops_writes 209 main_c_22 _ _ rfl V (by decide),
    Cert.LibAfterAt.binary_at ops_writes 208 main_arg8 main_v64 main_v65 _ _ _ _ rfl V (by decide) (by decide) (by decide),
    Cert.LibAfterAt.unary_at ops_writes 207 main_c_21 main_v64 _ _ _ rfl V (by decide) (by decide),
    Cert.LibAfterAt.nullary_at ops_writes 206 main_c_21 _ _ rfl V (by decide),
    kept_arg11, kept_arg8]
  rfl

end Cert.ReferenceIdeal.Hand

end
-- ==== Proof.Reference.Emb.lean ====
/- The three embedding matrices of the reference program read at an entry: each is three gathers of table rows laid
   side by side, and entry (n, k) is the specification's embedding entry for the launch's argument arrays. -/
import proofs.«122344_j23716809409278_2_alg».proof.Proof.Reference.Gathers

noncomputable section

namespace Cert.ReferenceIdeal.Hand

open Cert.ReferenceIdeal Cert.ReferenceIdeal.Gen Idealize.ShloMosaic Idealize.ShloMosaic.TcCoe Idealize.SL.Sem Idealize.ShloMosaic.ValueIdx

variable {F : FTy → Type} [FloatOps F]

/-- The embedding matrix is its three gathers laid side by side. -/
theorem v23_eq (V : Valuation τ sig (Elt F)) :
    StableHlo.after (ops (F := F)) V (Proc.devRef .tc main_v23)
      = concatenate S4096x384 1 [⟨S4096x128, StableHlo.after (ops (F := F)) V (Proc.devRef .tc main_v7)⟩, ⟨S4096x128, StableHlo.after (ops (F := F)) V (Proc.devRef .tc main_v15)⟩,
          ⟨S4096x128, StableHlo.after (ops (F := F)) V (Proc.devRef .tc main_v22)⟩] concatenates_S4096x128_S4096x128_S4096x128_S4096x384_d1 := by
  refine (Cert.LibAfterAt.nary3_at ops_writes 71 main_v7 main_v15 main_v22 main_v23 _ _ _ rfl V (by decide) (by decide) (by decide) (by decide)).trans ?_
  rfl

/-- The embedding matrix is its three gathers laid side by side. -/
theorem v47_eq (V : Valuation τ sig (Elt F)) :
    StableHlo.after (ops (F := F)) V (Proc.devRef .tc main_v47)
      = concatenate S2048x384 1 [⟨S2048x128, StableHlo.after (ops (F := F)) V (Proc.devRef .tc main_v31)⟩, ⟨S2048x128, StableHlo.after (ops (F := F)) V (Proc.devRef .tc main_v39)⟩,
          ⟨S2048x128, StableHlo.after (ops (F := F)) V (Proc.devRef .tc main_v46)⟩] concatenates_S2048x128_S2048x128_S2048x128_S2048x384_d1 := by
  refine (Cert.LibAfterAt.nary3_at ops_writes 143 main_v31 main_v39 main_v46 main_v47 _ _ _ rfl V (by decide) (by decide) (by decide) (by decide)).trans ?_
  rfl

/-- The embedding matrix is its three gathers laid side by side. -/
theorem v71_eq (V : Valuation τ sig (Elt F)) :
    StableHlo.after (ops (F := F)) V (Proc.devRef .tc main_v71)
      = concatenate S8192x384 1 [⟨S8192x128, StableHlo.after (ops (F := F)) V (Proc.devRef .tc main_v55)⟩, ⟨S8192x128, StableHlo.after (ops (F := F)) V (Proc.devRef .tc main_v63)⟩,
          ⟨S8192x128, StableHlo.after (ops (F := F)) V (Proc.devRef .tc main_v70)⟩] concatenates_S8192x128_S8192x128_S8192x128_S8192x384_d1 := by
  refine (Cert.LibAfterAt.nary3_at ops_writes 215 main_v55 main_v63 main_v70 main_v71 _ _ _ rfl V (by decide) (by decide) (by decide) (by decide)).trans ?_
  rfl

/-- The launch's twelve argument arrays on device `c`. -/
def args (m : (ℓ : Loc nD τ sig) → Buf (Elt Ideal) ℓ) (c : Dev nD) : Cert.Spec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11)⟩

set_option maxHeartbeats 1000000 in
/-- Entry (n, k) of the matrix is the specification's: the column names the table by thirds, and each third's gather
    reads the row the specification names for that index word. -/
theorem ctx_read (m : (ℓ : Loc nD τ sig) → Buf (Elt Ideal) ℓ) (c : Dev nD) (n : Fin 4096) (k : Fin 384) :
    (StableHlo.after (ops (F := Ideal)) (fun b => m (c, b)) (Proc.devRef .tc main_v23) : S4096x384.Idx → EReal) (ix2 n k)
      = Cert.Spec.ctx (args m c) n k := by
  rw [v23_eq, v7_eq, v15_eq, v22_eq]
  refine (Cert.EmbRead.cat3_apply (E := 4096) _ _ _ _ n k).trans ?_
  unfold Cert.Spec.ctx Cert.Spec.emb
  by_cases h1 : k.val < 128
  · simp only [dif_pos h1]
    exact Cert.EmbRead.modGather_apply (E := 4096) bcast_S_S4096 ![0] rfl bcast_S4096_S4096x1_0 _ _ _ (constantI S_ 32 100000#32) rfl n ⟨k.val, h1⟩
  · simp only [dif_neg h1]
    by_cases h2 : k.val < 256
    · simp only [dif_pos h2]
      exact Cert.EmbRead.modGather_apply (E := 4096) bcast_S_S4096 ![0] rfl bcast_S4096_S4096x1_0 _ _ _ (constantI S_ 32 100000#32) rfl n ⟨k.val - 128, by omega⟩
    · simp only [dif_neg h2]
      exact Cert.EmbRead.rawGather_apply (E := 4096) bcast_S_S4096 ![0] rfl bcast_S4096_S4096x1_0 _ _ _ n ⟨k.val - 256, by omega⟩

set_option maxHeartbeats 1000000 in
/-- Entry (n, k) of the matrix is the specification's: the column names the table by thirds, and each third's gather
    reads the row the specification names for that index word. -/
theorem nxt_read (m : (ℓ : Loc nD τ sig) → Buf (Elt Ideal) ℓ) (c : Dev nD) (n : Fin 2048) (k : Fin 384) :
    (StableHlo.after (ops (F := Ideal)) (fun b => m (c, b)) (Proc.devRef .tc main_v47) : S2048x384.Idx → EReal) (ix2 n k)
      = Cert.Spec.nxt (args m c) n k := by
  rw [v47_eq, v31_eq, v39_eq, v46_eq]
  refine (Cert.EmbRead.cat3_apply (E := 2048) _ _ _ _ n k).trans ?_
  unfold Cert.Spec.nxt Cert.Spec.emb
  by_cases h1 : k.val < 128
  · simp only [dif_pos h1]
    exact Cert.EmbRead.modGather_apply (E := 2048) bcast_S_S2048 ![0] rfl bcast_S2048_S2048x1_0 _ _ _ (constantI S_ 32 100000#32) rfl n ⟨k.val, h1⟩
  · simp only [dif_neg h1]
    by_cases h2 : k.val < 256
    · simp only [dif_pos h2]
      exact Cert.EmbRead.modGather_apply (E := 2048) bcast_S_S2048 ![0] rfl bcast_S2048_S2048x1_0 _ _ _ (constantI S_ 32 100000#32) rfl n ⟨k.val - 128, by omega⟩
    · simp only [dif_neg h2]
      exact Cert.EmbRead.rawGather_apply (E := 2048) bcast_S_S2048 ![0] rfl bcast_S2048_S2048x1_0 _ _ _ n ⟨k.val - 256, by omega⟩

set_option maxHeartbeats 1000000 in
/-- Entry (n, k) of the matrix is the specification's: the column names the table by thirds, and each third's gather
    reads the row the specification names for that index word. -/
theorem neg_read (m : (ℓ : Loc nD τ sig) → Buf (Elt Ideal) ℓ) (c : Dev nD) (n : Fin 8192) (k : Fin 384) :
    (StableHlo.after (ops (F := Ideal)) (fun b => m (c, b)) (Proc.devRef .tc main_v71) : S8192x384.Idx → EReal) (ix2 n k)
      = Cert.Spec.neg (args m c) n k := by
  rw [v71_eq, v55_eq, v63_eq, v70_eq]
  refine (Cert.EmbRead.cat3_apply (E := 8192) _ _ _ _ n k).trans ?_
  unfold Cert.Spec.neg Cert.Spec.emb
  by_cases h1 : k.val < 128
  · simp only [dif_pos h1]
    exact Cert.EmbRead.modGather_apply (E := 8192) bcast_S_S8192 ![0] rfl bcast_S8192_S8192x1_0 _ _ _ (constantI S_ 32 100000#32) rfl n ⟨k.val, h1⟩
  · simp only [dif_neg h1]
    by_cases h2 : k.val < 256
    · simp only [dif_pos h2]
      exact Cert.EmbRead.modGather_apply (E := 8192) bcast_S_S8192 ![0] rfl bcast_S8192_S8192x1_0 _ _ _ (constantI S_ 32 100000#32) rfl n ⟨k.val - 128, by omega⟩
    · simp only [dif_neg h2]
      exact Cert.EmbRead.rawGather_apply (E := 8192) bcast_S_S8192 ![0] rfl bcast_S8192_S8192x1_0 _ _ _ n ⟨k.val - 256, by omega⟩

end Cert.ReferenceIdeal.Hand

end
-- ==== Proof.Reference.Rows.lean ====
/-
  Four host operations on matrices of extended reals, read at an entry, for any extents: a product of an [a, n] matrix
  with the transpose of a [b, n] matrix is the sum over the shared axis of the entries' products; a reduction by
  maximum over the second axis of an [a, b] matrix is, at row r, the fold of max over that row from the initial value;
  the square root of the row sums of a matrix's squares from zero is, at row r, the root of the sum of that row's squares;
  and three matrices of 4096, 2048 and 8192 rows and one width stacked one above the other are read at a row by where
  the row falls.
-/
import Idealize.ShloMosaic.Lib.Pipeline.Value
import Idealize.ShloMosaic.Lib.ValueIdx
import Idealize.ShloMosaic.PureOps.Ideal.Laws
import proofs.«122344_j23716809409278_2_alg».proof.Proof.LibTransposedMatmul
import proofs.«122344_j23716809409278_2_alg».proof.Proof.LibRowMax
import proofs.«122344_j23716809409278_2_alg».proof.Proof.LibHostRows

noncomputable section

open scoped BigOperators

namespace Cert.ReferenceIdeal.Rows

open Idealize.ShloMosaic Idealize.ShloMosaic.ValueIdx

/-- A host product contracting the second axis of both operands, at entry (r, j): Σₖ A (r, k) · B (j, k). -/
theorem dotT_apply {a n b : ℕ} (prec : Option ContractPrecision) (sched : HostSchedule)
    (A : FVec Ideal ⟨2, ![a, n]⟩ .f32) (B : FVec Ideal ⟨2, ![b, n]⟩ .f32) (r : Fin a) (j : Fin b) :
    FloatOps.dotGeneral (DotDims.transposedRhs a n b) prec sched A B (ix2 r j) = ∑ k : Fin n, A (ix2 r k) * B (ix2 j k) := by
  rw [Ideal.dotGeneral_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact Cert.LibTransposedMatmul.lhs_row _ _
      | ⟨1, _⟩ => exact (Cert.LibTransposedMatmul.lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact Cert.LibTransposedMatmul.rhs_row _ _
      | ⟨1, _⟩ => exact (Cert.LibTransposedMatmul.rhs_col _ _).trans hk)
  rw [el, er]

/-- A host reduction by maximum over the second axis of an [a, b] matrix, at row r: the fold of max over that row's
    entries from the initial value. -/
theorem hostRowMax {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Cert.LibRowMax.hostReduce_maximumf_single x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

/-- The square root of the sums, over the second axis from zero, of a matrix's entries squared: at row r, the root of
    the sum of that row's squares. -/
theorem hostRowNorm {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.sqrt (Host.reduceAdd (mulf x x) (constant u .f32 0x00000000#32) h' hu) (ix1 r)
      = Ideal.sqrt (∑ d : Fin b, x (ix2 r d) * x (ix2 r d)) := by
  show Ideal.sqrt (Host.reduceAdd (mulf x x) (constant u .f32 0x00000000#32) h' hu (ix1 r)) = _
  rw [Cert.LibHostRows.hostReduceAdd_rows (mulf x x) (constant u .f32 0x00000000#32) h' h hu r]
  show Ideal.sqrt (Ideal.ofBits .f32 0x00000000#32 + ∑ d : Fin b, x (ix2 r d) * x (ix2 r d)) = _
  rw [Ideal.ofBits_zero_f32, zero_add]

variable {α : Type}

/-- Matrices of 4096, 2048 and 8192 rows and one width, stacked: row j of the stack is row j of the first below 4096,
    row j − 4096 of the second below 6144, and row j − 6144 of the third from there on. -/
theorem stack3_apply {e : ℕ} (x0 : (⟨2, ![4096, e]⟩ : Shape).Idx → α) (x1 : (⟨2, ![2048, e]⟩ : Shape).Idx → α)
    (x2 : (⟨2, ![8192, e]⟩ : Shape).Idx → α)
    (h : Shape.Concatenates (([⟨⟨2, ![4096, e]⟩, x0⟩, ⟨⟨2, ![2048, e]⟩, x1⟩, ⟨⟨2, ![8192, e]⟩, x2⟩] :
      List ((s : Shape) × (s.Idx → α))).map (·.1)) ⟨2, ![14336, e]⟩ 0) (j : Fin 14336) (d : Fin e) :
    concatenate ⟨2, ![14336, e]⟩ 0 [⟨⟨2, ![4096, e]⟩, x0⟩, ⟨⟨2, ![2048, e]⟩, x1⟩, ⟨⟨2, ![8192, e]⟩, x2⟩] h (ix2 j d)
      = if h1 : j.val < 4096 then x0 (ix2 (⟨j.val, h1⟩ : Fin 4096) d)
        else if h2 : j.val < 6144 then x1 (ix2 (⟨j.val - 4096, by omega⟩ : Fin 2048) d)
        else x2 (ix2 (⟨j.val - 6144, by have := j.isLt; omega⟩ : Fin 8192) d) := by
  have hj := j.isLt
  by_cases h1 : j.val < 4096
  · rw [dif_pos h1]
    refine concatenate_apply_piece (t := ⟨2, ![14336, e]⟩) 0 _ h (ix2 j d) 0 (by show (0 : ℕ) < 3; omega) ⟨2, ![4096, e]⟩ x0 rfl rfl 0 rfl _ ?_ ?_
    · intro b hb; match b with
      | ⟨0, _⟩ => exact absurd rfl hb
      | ⟨1, _⟩ => rfl
    · show 0 + j.val = j.val; omega
  · rw [dif_neg h1]
    by_cases h2 : j.val < 6144
    · rw [dif_pos h2]
      refine concatenate_apply_piece (t := ⟨2, ![14336, e]⟩) 0 _ h (ix2 j d) 1 (by show (1 : ℕ) < 3; omega) ⟨2, ![2048, e]⟩ x1 rfl rfl 4096 rfl _ ?_ ?_
      · intro b hb; match b with
        | ⟨0, _⟩ => exact absurd rfl hb
        | ⟨1, _⟩ => rfl
      · show 4096 + (j.val - 4096) = j.val; omega
    · rw [dif_neg h2]
      refine concatenate_apply_piece (t := ⟨2, ![14336, e]⟩) 0 _ h (ix2 j d) 2 (by show (2 : ℕ) < 3; omega) ⟨2, ![8192, e]⟩ x2 rfl rfl 6144 rfl _ ?_ ?_
      · intro b hb; match b with
        | ⟨0, _⟩ => exact absurd rfl hb
        | ⟨1, _⟩ => rfl
      · show 6144 + (j.val - 6144) = j.val; omega

end Cert.ReferenceIdeal.Rows

end
-- ==== Proof.Reference.Results.lean ====
/- The three results of the reference program are the specification's, at the ideal values: each result buffer read
   back through its last operations to the embedding matrices, and those read entry by entry. -/
import proofs.«122344_j23716809409278_2_alg».proof.Proof.Reference.Emb
import proofs.«122344_j23716809409278_2_alg».proof.Proof.Reference.Rows

noncomputable section

namespace Cert.ReferenceIdeal.Hand

open Cert.ReferenceIdeal Cert.ReferenceIdeal.Gen Idealize.ShloMosaic Idealize.ShloMosaic.TcCoe Idealize.SL.Sem Idealize.ShloMosaic.ValueIdx

open scoped BigOperators

/-- The three embedding matrices stacked one above the other. -/
theorem v76_eq (V : Valuation τ sig (Elt Ideal)) :
    StableHlo.after (ops (F := Ideal)) V (Proc.devRef .tc main_v76)
      = concatenate S14336x384 0 [⟨S4096x384, StableHlo.after (ops (F := Ideal)) V (Proc.devRef .tc main_v23)⟩,
          ⟨S2048x384, StableHlo.after (ops (F := Ideal)) V (Proc.devRef .tc main_v47)⟩,
          ⟨S8192x384, StableHlo.after (ops (F := Ideal)) V (Proc.devRef .tc main_v71)⟩] concatenates_S4096x384_S2048x384_S8192x384_S14336x384_d0 := by
  refine (Cert.LibAfterAt.nary3_at ops_writes 222 main_v23 main_v47 main_v71 main_v76 _ _ _ rfl V (by decide) (by decide) (by decide) (by decide)).trans ?_
  rfl

set_option maxRecDepth 8192 in
set_option maxHeartbeats 2000000 in
/-- A row of the result: the fold of max, from minus infinity, over the context rows of the inner product with the query row. -/
theorem res73_row (m : (ℓ : Loc nD τ sig) → Buf (Elt Ideal) ℓ) (c : Dev nD) (r : Fin 2048) :
    (StableHlo.after (ops (F := Ideal)) (fun b => m (c, b)) (Proc.devRef .tc main_v73) : S2048.Idx → EReal) (ix1 r)
      = Cert.Spec.aff (Cert.Spec.nxt (args m c) r) (Cert.Spec.ctx (args m c)) := by
  rw [Cert.LibAfterAt.binary_at ops_writes 218 main_v72 main_cst main_v73 _ _ _ _ rfl (fun b => m (c, b)) (by decide) (by decide) (by decide),
    Cert.LibAfterAt.nullary_at ops_writes 217 main_cst _ _ rfl (fun b => m (c, b)) (by decide),
    Cert.LibAfterAt.binary_at ops_writes 216 main_v47 main_v23 main_v72 _ _ _ _ rfl (fun b => m (c, b)) (by decide) (by decide) (by decide)]
  refine (Cert.ReferenceIdeal.Rows.hostRowMax _ _ _ (by decide) _ r).trans ?_
  unfold Cert.Spec.aff
  refine congrArg (fun f => (Finset.univ : Finset (Fin 4096)).fold max (Ideal.ofBits .f32 0xFF800000#32) f) (funext fun n => ?_)
  refine (Cert.ReferenceIdeal.Rows.dotT_apply none .single _ _ r n).trans ?_
  exact Finset.sum_congr rfl fun d _ => congrArg₂ (· * ·) (nxt_read m c r d) (ctx_read m c n d)

/-- The result array is the specification's. -/
theorem res73 (m : (ℓ : Loc nD τ sig) → Buf (Elt Ideal) ℓ) (c : Dev nD) :
    (StableHlo.after (ops (F := Ideal)) (fun b => m (c, b)) (Proc.devRef .tc main_v73) : S2048.Idx → EReal) = Cert.Spec.res0 (args m c) := by
  refine funext fun (i : S2048.Idx) => ?_
  exact (congrArg (StableHlo.after (ops (F := Ideal)) (fun b => m (c, b)) (Proc.devRef .tc main_v73) : S2048.Idx → EReal) (eq_ix1 i)).trans (res73_row m c (i 0))

set_option maxRecDepth 8192 in
set_option maxHeartbeats 2000000 in
/-- A row of the result: the fold of max, from minus infinity, over the context rows of the inner product with the query row. -/
theorem res75_row (m : (ℓ : Loc nD τ sig) → Buf (Elt Ideal) ℓ) (c : Dev nD) (r : Fin 8192) :
    (StableHlo.after (ops (F := Ideal)) (fun b => m (c, b)) (Proc.devRef .tc main_v75) : S8192.Idx → EReal) (ix1 r)
      = Cert.Spec.aff (Cert.Spec.neg (args m c) r) (Cert.Spec.ctx (args m c)) := by
  rw [Cert.LibAfterAt.binary_at ops_writes 221 main_v74 main_cst_23 main_v75 _ _ _ _ rfl (fun b => m (c, b)) (by decide) (by decide) (by decide),
    Cert.LibAfterAt.nullary_at ops_writes 220 main_cst_23 _ _ rfl (fun b => m (c, b)) (by decide),
    Cert.LibAfterAt.binary_at ops_writes 219 main_v71 main_v23 main_v74 _ _ _ _ rfl (fun b => m (c, b)) (by decide) (by decide) (by decide)]
  refine (Cert.ReferenceIdeal.Rows.hostRowMax _ _ _ (by decide) _ r).trans ?_
  unfold Cert.Spec.aff
  refine congrArg (fun f => (Finset.univ : Finset (Fin 4096)).fold max (Ideal.ofBits .f32 0xFF800000#32) f) (funext fun n => ?_)
  refine (Cert.ReferenceIdeal.Rows.dotT_apply none .single _ _ r n).trans ?_
  exact Finset.sum_congr rfl fun d _ => congrArg₂ (· * ·) (neg_read m c r d) (ctx_read m c n d)

/-- The result array is the specification's. -/
theorem res75 (m : (ℓ : Loc nD τ sig) → Buf (Elt Ideal) ℓ) (c : Dev nD) :
    (StableHlo.after (ops (F := Ideal)) (fun b => m (c, b)) (Proc.devRef .tc main_v75) : S8192.Idx → EReal) = Cert.Spec.res1 (args m c) := by
  refine funext fun (i : S8192.Idx) => ?_
  exact (congrArg (StableHlo.after (ops (F := Ideal)) (fun b => m (c, b)) (Proc.devRef .tc main_v75) : S8192.Idx → EReal) (eq_ix1 i)).trans (res75_row m c (i 0))

set_option maxRecDepth 8192 in
set_option maxHeartbeats 2000000 in
/-- A row of the third result: the norm of the row of the stack, which is a row of the matrix the row index falls in. -/
theorem res79_row (m : (ℓ : Loc nD τ sig) → Buf (Elt Ideal) ℓ) (c : Dev nD) (j : Fin 14336) :
    (StableHlo.after (ops (F := Ideal)) (fun b => m (c, b)) (Proc.devRef .tc main_v79) : S14336.Idx → EReal) (ix1 j)
      = if h : j.val < 4096 then Cert.Spec.norm (Cert.Spec.ctx (args m c) ⟨j.val, h⟩)
        else if h2 : j.val < 6144 then Cert.Spec.norm (Cert.Spec.nxt (args m c) ⟨j.val - 4096, by omega⟩)
        else Cert.Spec.norm (Cert.Spec.neg (args m c) ⟨j.val - 6144, by have h3 : j.val < 14336 := j.isLt; omega⟩) := by
  rw [Cert.LibAfterAt.unary_at ops_writes 226 main_v78 main_v79 _ _ _ rfl (fun b => m (c, b)) (by decide) (by decide),
    Cert.LibAfterAt.binary_at ops_writes 225 main_v77 main_cst_24 main_v78 _ _ _ _ rfl (fun b => m (c, b)) (by decide) (by decide) (by decide),
    Cert.LibAfterAt.nullary_at ops_writes 224 main_cst_24 _ _ rfl (fun b => m (c, b)) (by decide),
    Cert.LibAfterAt.binary_at ops_writes 223 main_v76 main_v76 main_v77 _ _ _ _ rfl (fun b => m (c, b)) (by decide) (by decide) (by decide),
    v76_eq]
  refine (Cert.ReferenceIdeal.Rows.hostRowNorm _ _ (by decide) _ j).trans ?_
  by_cases h1 : j.val < 4096
  · rw [dif_pos h1]
    unfold Cert.Spec.norm
    refine congrArg Ideal.sqrt (Finset.sum_congr rfl fun d _ => ?_)
    have hd := Cert.ReferenceIdeal.Rows.stack3_apply (StableHlo.after (ops (F := Ideal)) (fun b => m (c, b)) (Proc.devRef .tc main_v23)) (StableHlo.after (ops (F := Ideal)) (fun b => m (c, b)) (Proc.devRef .tc main_v47)) (StableHlo.after (ops (F := Ideal)) (fun b => m (c, b)) (Proc.devRef .tc main_v71))
      concatenates_S4096x384_S2048x384_S8192x384_S14336x384_d0 j d
    rw [dif_pos h1] at hd
    exact congrArg₂ (· * ·) (hd.trans (ctx_read m c ⟨j.val, h1⟩ d)) (hd.trans (ctx_read m c ⟨j.val, h1⟩ d))
  · rw [dif_neg h1]
    by_cases h2 : j.val < 6144
    · rw [dif_pos h2]
      unfold Cert.Spec.norm
      refine congrArg Ideal.sqrt (Finset.sum_congr rfl fun d _ => ?_)
      have hd := Cert.ReferenceIdeal.Rows.stack3_apply (StableHlo.after (ops (F := Ideal)) (fun b => m (c, b)) (Proc.devRef .tc main_v23)) (StableHlo.after (ops (F := Ideal)) (fun b => m (c, b)) (Proc.devRef .tc main_v47)) (StableHlo.after (ops (F := Ideal)) (fun b => m (c, b)) (Proc.devRef .tc main_v71))
        concatenates_S4096x384_S2048x384_S8192x384_S14336x384_d0 j d
      rw [dif_neg h1, dif_pos h2] at hd
      exact congrArg₂ (· * ·) (hd.trans (nxt_read m c ⟨j.val - 4096, by omega⟩ d)) (hd.trans (nxt_read m c ⟨j.val - 4096, by omega⟩ d))
    · rw [dif_neg h2]
      unfold Cert.Spec.norm
      refine congrArg Ideal.sqrt (Finset.sum_congr rfl fun d _ => ?_)
      have hd := Cert.ReferenceIdeal.Rows.stack3_apply (StableHlo.after (ops (F := Ideal)) (fun b => m (c, b)) (Proc.devRef .tc main_v23)) (StableHlo.after (ops (F := Ideal)) (fun b => m (c, b)) (Proc.devRef .tc main_v47)) (StableHlo.after (ops (F := Ideal)) (fun b => m (c, b)) (Proc.devRef .tc main_v71))
        concatenates_S4096x384_S2048x384_S8192x384_S14336x384_d0 j d
      rw [dif_neg h1, dif_neg h2] at hd
      exact congrArg₂ (· * ·) (hd.trans (neg_read m c ⟨j.val - 6144, by have := j.isLt; omega⟩ d)) (hd.trans (neg_read m c ⟨j.val - 6144, by have := j.isLt; omega⟩ d))

/-- The third result array is the specification's. -/
theorem res79 (m : (ℓ : Loc nD τ sig) → Buf (Elt Ideal) ℓ) (c : Dev nD) :
    (StableHlo.after (ops (F := Ideal)) (fun b => m (c, b)) (Proc.devRef .tc main_v79) : S14336.Idx → EReal) = Cert.Spec.res2 (args m c) := by
  refine funext fun (i : S14336.Idx) => ?_
  exact (congrArg (StableHlo.after (ops (F := Ideal)) (fun b => m (c, b)) (Proc.devRef .tc main_v79) : S14336.Idx → EReal) (eq_ix1 i)).trans (res79_row m c (i 0))

end Cert.ReferenceIdeal.Hand

end
-- ==== Proof.lean ====
/-
  The certificate: the kernel program, its idealization and the idealized reference all run to the end, fault nowhere
  and leave their arguments as launched; the idealization rewrote nothing; and on the extended reals the idealized
  kernel and the idealized reference, run from memories that agree on the twelve arguments, end with the same three
  results.

  Both programs gather the same embedding rows — three table rows side by side, named by the index words after
  `jnp.mod` and the wrap of negative indices — and both results are functions of those rows alone: the largest inner
  product of a query row with a context row, and the Euclidean norm of a row. The kernel gathers the next and the
  negative rows in one pass over the two index vectors laid end to end, takes the affinities in one pipelined region
  whose blocks tile the query rows, cuts the column in two, and takes the norms of the three matrices in three
  regions whose columns it lays end to end; the reference gathers three matrices, forms two products with a maximum
  over the context rows, and takes the norms of the three matrices stacked. A gather at a concatenated index vector
  is the concatenation of the gathers, a matrix product into a zero accumulator and a host contraction are the same
  finite sum, a lane maximum and a host maximum reduction the same fold, and the change of float format is the
  identity on the extended reals: both sides are the one specification `Cert.Spec.res0 / res1 / res2` of the
  argument arrays.
-/
import proofs.«122344_j23716809409278_2_alg».proof.Defs
import proofs.«122344_j23716809409278_2_alg».proof.Proof.Gen.Kernel
import proofs.«122344_j23716809409278_2_alg».proof.Proof.Gen.KernelIdeal
import proofs.«122344_j23716809409278_2_alg».proof.Proof.Gen.ReferenceIdeal
import proofs.«122344_j23716809409278_2_alg».proof.Proof.Gen.Pre_finite_inputs
import proofs.«122344_j23716809409278_2_alg».proof.Proof.Kernel.Run
import proofs.«122344_j23716809409278_2_alg».proof.Proof.KernelIdeal.Run
import proofs.«122344_j23716809409278_2_alg».proof.Proof.KernelIdeal.Value
import proofs.«122344_j23716809409278_2_alg».proof.Proof.Reference.Run
import proofs.«122344_j23716809409278_2_alg».proof.Proof.Reference.Results

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.Hand.frame m ρ

/-- The idealization rewrote no operation. -/
theorem preserves : Cert.preserves_Kernel_KernelIdeal := trivial

/-- Memories that agree on the twelve arguments give the two programs the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Hand.args m' c = Cert.KernelIdeal.HostValue.args m c := by
  obtain ⟨e0, e1, e2, e3, e4, e5, e6, e7, e8, e9, e10, e11⟩ := h
  unfold Cert.ReferenceIdeal.Hand.args Cert.KernelIdeal.HostValue.args
  rw [e0, e1, e2, e3, e4, e5, e6, e7, e8, e9, e10, e11]

/-- On the extended reals both programs end with the specification's three results of the argument arrays. -/
theorem algebraic : Cert.algebraic_KernelIdeal_ReferenceIdeal := by
  intro m ρ m' ρ' _ hagree
  refine ⟨fun c => Cert.Spec.res0 (Cert.KernelIdeal.HostValue.args m c), fun c => Cert.Spec.res1 (Cert.KernelIdeal.HostValue.args m c),
    fun c => Cert.Spec.res2 (Cert.KernelIdeal.HostValue.args m c), ?_, ?_⟩
  · refine (θ_run Cert.KernelIdeal.defs _ _).mono (fun r h c => ?_) (Cert.KernelIdeal.Hand.run m ρ)
    obtain ⟨h0, h1, h2, hargs⟩ := h c
    exact ⟨h0.trans (Cert.KernelIdeal.Value.res0_eq m c), h1.trans (Cert.KernelIdeal.Value.res1_eq m c),
      h2.trans (Cert.KernelIdeal.Value.res2_eq m c), hargs⟩
  · refine (θ_run Cert.ReferenceIdeal.defs _ _).mono (fun r h c => ?_) (Cert.ReferenceIdeal.Hand.run m' ρ')
    obtain ⟨h0, h1, h2, hargs⟩ := h c
    have hA := args_eq m m' c (hagree c)
    exact ⟨h0.trans ((Cert.ReferenceIdeal.Hand.res73 m' c).trans (congrArg Cert.Spec.res0 hA)),
      h1.trans ((Cert.ReferenceIdeal.Hand.res75 m' c).trans (congrArg Cert.Spec.res1 hA)),
      h2.trans ((Cert.ReferenceIdeal.Hand.res79 m' c).trans (congrArg Cert.Spec.res2 hA)), hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
